-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S1x500 : Shape := ⟨2, ![1, 500]⟩
abbrev S2x128 : Shape := ⟨2, ![2, 128]⟩
abbrev S128 : Shape := ⟨1, ![128]⟩
abbrev S628x128 : Shape := ⟨2, ![628, 128]⟩
abbrev S128x16 : Shape := ⟨2, ![128, 16]⟩
abbrev S16 : Shape := ⟨1, ![16]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S1x500 : S_.BroadcastsInDim S1x500 (![] : Fin 0 → Fin S1x500.rank)
  reducesTo_S1x500_S_d0_1 : S1x500.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S628x128 : S_.BroadcastsInDim S628x128 (![] : Fin 0 → Fin S628x128.rank)
  reducesTo_S628x128_S_d0_1 : S628x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128 .f32) (main_arg9 : FVec F S128x16 .f32) (main_arg10 : FVec F S16 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x16 .f32 := Host.absf main_arg9
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S128 .f32) (main_arg6 : FVec F S128 .f32) (main_arg7 : FVec F S628x128 .f32) (main_arg8 : FVec F S128 .f32) (main_arg9 : FVec F S128x16 .f32) (main_arg10 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S628x128 .f32 := Host.absf main_arg7
  let main_cst_10 : FVec F S_ .f32 := constant S_ .f32 0x7F800000#32
  let main_v30 : FVec F S628x128 .f32 := broadcastInDim S628x128 ![] bcast_S_S628x128 main_cst_10
  let main_v31 : IVec S628x128 1 := cmpf .olt main_v29 main_v30
  let main_c_11 : IVec S_ 1 := constantI S_ 1 1#1
  let main_v32 : IVec S_ 1 := (fun x v => Host.reduce IntOp.andi x v reducesTo_S628x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x2 .f32) (main_arg1 : IVec S2x1600000 32) (main_arg2 : FVec F S1x500 .f32) (main_arg3 : FVec F S2x128 .f32) (main_arg4 : FVec F S128 .f32) (main_arg5 : FVec F S128 .f32) (main_arg6 : FVec F S128 .f32) (main_arg7 : FVec F S628x128 .f32) (main_arg8 : FVec F S128 .f32) (main_arg9 : FVec F S128x16 .f32) (main_arg10 : FVec F S16 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S1x500 .f32 := Host.absf main_arg2
  let main_cst_0 : FVec F S_ .f32 := constant S_ .f32 0x7F800000#32
  let main_v5 : FVec F S1x500 .f32 := broadcastInDim S1x500 ![] bcast_S_S1x500 main_cst_0
  let main_v6 : IVec S1x500 1 := cmpf .olt main_v4 main_v5
  let main_c_1 : IVec S_ 1 := constantI S_ 1 1#1
  let main_v7 : IVec S_ 1 := (fun x v => Host.reduce IntOp.andi x v reducesTo_S1x500_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x2 : Shape := ⟨2, ![100000, 2]⟩
abbrev S2x1600000 : Shape := ⟨2, ![2, 1600000]⟩
abbrev S1x500 : Shape := ⟨2, ![1, 500]⟩
abbrev S2x128 : Shape := ⟨2, ![2, 128]⟩
abbrev S128 : Shape := ⟨1, ![128]⟩
abbrev S628x128 : Shape := ⟨2, ![628, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x2 : Shape := ⟨2, ![1600000, 2]⟩
abbrev S1x128 : Shape := ⟨2, ![1, 128]⟩
abbrev S1x1 : Shape := ⟨2, ![1, 1]⟩
abbrev S4000x2 : Shape := ⟨2, ![4000, 2]⟩
abbrev S4000x1 : Shape := ⟨2, ![4000, 1]⟩
abbrev S4000x128 : Shape := ⟨2, ![4000, 128]⟩
abbrev S4000 : Shape := ⟨1, ![4000]⟩
abbrev S1 : Shape := ⟨1, ![1]⟩
abbrev S1x628 : Shape := ⟨2, ![1, 628]⟩
abbrev S1x16 : Shape := ⟨2, ![1, 16]⟩

abbrev nBuf : Space → Nat
  | .hbm => 108
  | .vmem => 23
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S1x500, .f32⟩
  | .hbm, ⟨3, _⟩ => ⟨S2x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S628x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x2, .f32⟩
  | .hbm, ⟨55, _⟩ => ⟨S1600000x1, .f32⟩
  | .hbm, ⟨56, _⟩ => ⟨S1600000x2, .f32⟩
  | .hbm, ⟨57, _⟩ => ⟨S1600000x2, .f32⟩
  | .hbm, ⟨58, _⟩ => ⟨S_, .f32⟩
  | .hbm, ⟨59, _⟩ => ⟨S100000x2, .f32⟩
  | .hbm, ⟨60, _⟩ => ⟨S1600000x1, .i32⟩
  | .hbm, ⟨61, _⟩ => ⟨S100000x2, .f32⟩
  | .hbm, ⟨62, _⟩ => ⟨S1x128, .f32⟩
  | .hbm, ⟨63, _⟩ => ⟨S1x1, .f32⟩
  | .hbm, ⟨64, _⟩ => ⟨S1x1, .f32⟩
  | .hbm, ⟨65, _⟩ => ⟨S_, .f32⟩
  | .hbm, ⟨66, _⟩ => ⟨S1x1, .f32⟩
  | .hbm, ⟨67, _⟩ => ⟨S1x1, .f32⟩
  | .hbm, ⟨68, _⟩ => ⟨S_, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S1x1, .f32⟩
  | .hbm, ⟨73, _⟩ => ⟨S1x1, .f32⟩
  | .hbm, ⟨74, _⟩ => ⟨S_, .f32⟩
  | .hbm, ⟨75, _⟩ => ⟨S1x1, .f32⟩
  | .hbm, ⟨76, _⟩ => ⟨S1x1, .f32⟩
  | .hbm, ⟨77, _⟩ => ⟨S_, .f32⟩
  | .hbm, ⟨78, _⟩ => ⟨S1x1, .f32⟩
  | .hbm, ⟨79, _⟩ => ⟨S1x1, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x628, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S1x16, .f32⟩
  | .hbm, ⟨91, _⟩ => ⟨S1x16, .f32⟩
  | .hbm, ⟨92, _⟩ => ⟨S1x16, .f32⟩
  | .hbm, ⟨93, _⟩ => ⟨S_, .f32⟩
  | .hbm, ⟨94, _⟩ => ⟨S1, .f32⟩
  | .hbm, ⟨95, _⟩ => ⟨S_, .f32⟩
  | .hbm, ⟨96, _⟩ => ⟨S1, .f32⟩
  | .hbm, ⟨97, _⟩ => ⟨S1, .f32⟩
  | .hbm, ⟨98, _⟩ => ⟨S1x1, .f32⟩
  | .hbm, ⟨99, _⟩ => ⟨S1x16, .f32⟩
  | .hbm, ⟨100, _⟩ => ⟨S1x16, .f32⟩
  | .hbm, ⟨101, _⟩ => ⟨S1x16, .f32⟩
  | .hbm, ⟨102, _⟩ => ⟨S_, .f32⟩
  | .hbm, ⟨103, _⟩ => ⟨S1, .f32⟩
  | .hbm, ⟨104, _⟩ => ⟨S1x1, .f32⟩
  | .hbm, ⟨105, _⟩ => ⟨S1x1, .f32⟩
  | .hbm, ⟨106, _⟩ => ⟨S1x16, .f32⟩
  | .hbm, ⟨107, _⟩ => ⟨S1x16, .f32⟩
  | .local _ .vmem, ⟨0, _⟩ => ⟨S4000x2, .f32⟩
  | .local _ .vmem, ⟨1, _⟩ => ⟨S4000x2, .f32⟩
  | .local _ .vmem, ⟨2, _⟩ => ⟨S4000x2, .f32⟩
  | .local _ .vmem, ⟨3, _⟩ => ⟨S4000x2, .f32⟩
  | .local _ .vmem, ⟨4, _⟩ => ⟨S4000x1, .f32⟩
  | .local _ .vmem, ⟨5, _⟩ => ⟨S4000x1, .f32⟩
  | .local _ .vmem, ⟨6, _⟩ => ⟨S2x128, .f32⟩
  | .local _ .vmem, ⟨7, _⟩ => ⟨S1x128, .f32⟩
  | .local _ .vmem, ⟨8, _⟩ => ⟨S1x1, .f32⟩
  | .local _ .vmem, ⟨9, _⟩ => ⟨S1x1, .f32⟩
  | .local _ .vmem, ⟨10, _⟩ => ⟨S4000x2, .f32⟩
  | .local _ .vmem, ⟨11, _⟩ => ⟨S4000x2, .f32⟩
  | .local _ .vmem, ⟨12, _⟩ => ⟨S4000x2, .f32⟩
  | .local _ .vmem, ⟨13, _⟩ => ⟨S4000x2, .f32⟩
  | .local _ .vmem, ⟨14, _⟩ => ⟨S4000x1, .f32⟩
  | .local _ .vmem, ⟨15, _⟩ => ⟨S4000x1, .f32⟩
  | .local _ .vmem, ⟨16, _⟩ => ⟨S2x128, .f32⟩
  | .local _ .vmem, ⟨17, _⟩ => ⟨S1x128, .f32⟩
  | .local _ .vmem, ⟨18, _⟩ => ⟨S1x1, .f32⟩
  | .local _ .vmem, ⟨19, _⟩ => ⟨S1x1, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call0_cst : Ref sig .tc := ⟨.hbm, 87, rfl⟩
abbrev main_call0_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call1_cst : Ref sig .tc := ⟨.hbm, 93, rfl⟩
abbrev main_call1_v0 : Ref sig .tc := ⟨.hbm, 94, rfl⟩
abbrev main_call1_cst_0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_cst_1 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_v65 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  shapeCasts_S128_S1x128 : S128.ShapeCasts S1x128
  inb_S1x1_S1x1_0_0 : ∀ a, (![0, 0] : Fin 2 → Nat) a + S1x1.size a ≤ S1x1.size a
  h_S1x1 : 0 < S1x1.numel
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S4000x2_o0_0_S4000x1 : S4000x2.Slices ![0, 0] S4000x1
  slices_S4000x2_o0_1_S4000x1 : S4000x2.Slices ![0, 1] S4000x1
  slices_S2x128_o0_0_S1x128 : S2x128.Slices ![0, 0] S1x128
  slices_S2x128_o1_0_S1x128 : S2x128.Slices ![1, 0] S1x128
  broadcasts_S4000x1_S4000x128 : S4000x1.Broadcasts S4000x128
  broadcasts_S1x128_S4000x128 : S1x128.Broadcasts S4000x128
  reduces_S4000x128_S4000 : S4000x128.Reduces [1] S4000
  shapeCasts_S4000_S4000x1 : S4000.ShapeCasts S4000x1
  reduces_S4000x1_S1 : S4000x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  broadcasts_S1x1_S4000x128 : S1x1.Broadcasts S4000x128
  reduces_S4000x128_S128 : S4000x128.Reduces [0] S128
  concatenates_S1x128_S1x500_S1x628_d1 : Shape.Concatenates [S1x128, S1x500] S1x628 1
  bcast_S128_S1x128_1 : S128.BroadcastsInDim S1x128 (![1] : Fin 1 → Fin S1x128.rank)
  bcast_S_S1x128 : S_.BroadcastsInDim S1x128 (![] : Fin 0 → Fin S1x128.rank)
  bcast_S16_S1x16_1 : S16.BroadcastsInDim S1x16 (![1] : Fin 1 → Fin S1x16.rank)
  reducesTo_S1x16_S1_d1 : S1x16.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S1x628_S628x128_S1x128_1_0_0_1_n_n_wf : DotDims.WF S1x628 S628x128 S1x128 [1] [0] [0] [1] [] []
  dot_S1x128_S128x16_S1x16_1_0_0_1_n_n_wf : DotDims.WF S1x128 S128x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S100000x2.size a
  hwx0_0 : ∀ i : grid0.Coords, EltTy.bits .f32 = 32 ∨ (Rect.block (s := S100000x2) S4000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x2.size a ≤ S100000x2.size a
  hwx0_1 : ∀ i : grid0.Coords, EltTy.bits .f32 = 32 ∨ (Rect.block (s := S100000x2) S4000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x2.size a ≤ S100000x2.size a
  hwx1_0 : ∀ i : grid1.Coords, EltTy.bits .f32 = 32 ∨ (Rect.block (s := S100000x2) S4000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S100000x2.size a
  hwx1_1 : ∀ i : grid1.Coords, EltTy.bits .f32 = 32 ∨ (Rect.block (s := S100000x2) S4000x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128.size a ≤ S2x128.size a
  hwx1_3 : ∀ i : grid1.Coords, EltTy.bits .f32 = 32 ∨ (Rect.block (s := S2x128) S2x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S1x628_S628x128_S1x128_1_0_0_1_n_n : DotDims S1x628 S628x128 S1x128 where
  lhsContracting := [1]
  rhsContracting := [0]
  lhsNonContracting := [0]
  rhsNonContracting := [1]
  lhsBatch := []
  rhsBatch := []
  wf := dot_S1x628_S628x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

abbrev win0_0 : Pipeline.Window sig grid0 :=
  Pipeline.Window.ofSpec (Memref.whole main_arg0) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S4000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S4000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v55) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v56) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S1x500 : Shape := ⟨2, ![1, 500]⟩
abbrev S2x128 : Shape := ⟨2, ![2, 128]⟩
abbrev S128 : Shape := ⟨1, ![128]⟩
abbrev S628x128 : Shape := ⟨2, ![628, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩
abbrev S1x628 : Shape := ⟨2, ![1, 628]⟩
abbrev S1x16 : Shape := ⟨2, ![1, 16]⟩
abbrev S1 : Shape := ⟨1, ![1]⟩

abbrev nBuf : Space → Nat
  | .hbm => 138
  | .vmem => 0
  | .smem => 0
  | _ => 0

abbrev hbmTy0_0 (i : Nat) : BufTy := match i % 128 with
  | 0 => ⟨S100000x2, .f32⟩
  | 1 => ⟨S2x1600000, .i32⟩
  | 2 => ⟨S1x500, .f32⟩
  | 3 => ⟨S2x128, .f32⟩
  | 4 => ⟨S128, .f32⟩
  | 5 => ⟨S128, .f32⟩
  | 6 => ⟨S128, .f32⟩
  | 7 => ⟨S628x128, .f32⟩
  | 8 => ⟨S128, .f32⟩
  | 9 => ⟨S128x16, .f32⟩
  | 10 => ⟨S16, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S_, .f32⟩
  | 74 => ⟨S_, .f32⟩
  | 75 => ⟨S_, .f32⟩
  | 76 => ⟨S100000x128, .f32⟩
  | 77 => ⟨S100000x128, .f32⟩
  | 78 => ⟨S_, .i32⟩
  | 79 => ⟨S_, .f32⟩
  | 80 => ⟨S_, .f32⟩
  | 81 => ⟨S1x1, .f32⟩
  | 82 => ⟨S_, .f32⟩
  | 83 => ⟨S1x1, .f32⟩
  | 84 => ⟨S1x1, .f32⟩
  | 85 => ⟨S100000x128, .f32⟩
  | 86 => ⟨S100000x128, .f32⟩
  | 87 => ⟨S100000x128, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S1x128, .f32⟩
  | 113 => ⟨S1x628, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x16, .f32⟩
  | 121 => ⟨S1x16, .f32⟩
  | 122 => ⟨S1x16, .f32⟩
  | 123 => ⟨S_, .f32⟩
  | 124 => ⟨S1, .f32⟩
  | 125 => ⟨S_, .f32⟩
  | 126 => ⟨S1, .f32⟩
  | 127 => ⟨S1, .f32⟩
  | _ => ⟨S100000x2, .f32⟩

abbrev hbmTy0_1 (i : Nat) : BufTy := match i % 128 with
  | 0 => ⟨S1x1, .f32⟩
  | 1 => ⟨S1x16, .f32⟩
  | 2 => ⟨S1x16, .f32⟩
  | 3 => ⟨S1x16, .f32⟩
  | 4 => ⟨S_, .f32⟩
  | 5 => ⟨S1, .f32⟩
  | 6 => ⟨S1x1, .f32⟩
  | 7 => ⟨S1x1, .f32⟩
  | 8 => ⟨S1x16, .f32⟩
  | 9 => ⟨S1x16, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_cst_1 : Ref sig .tc := ⟨.hbm, 89, rfl⟩
abbrev main_call1_v8 : Ref sig .tc := ⟨.hbm, 90, rfl⟩
abbrev main_call1_cst_2 : Ref sig .tc := ⟨.hbm, 91, rfl⟩
abbrev main_call1_v9 : Ref sig .tc := ⟨.hbm, 92, rfl⟩
abbrev main_call1_v10 : Ref sig .tc := ⟨.hbm, 93, rfl⟩
abbrev main_call1_cst_3 : Ref sig .tc := ⟨.hbm, 94, rfl⟩
abbrev main_call1_v11 : Ref sig .tc := ⟨.hbm, 95, rfl⟩
abbrev main_call1_cst_4 : Ref sig .tc := ⟨.hbm, 96, rfl⟩
abbrev main_call1_call0_v0 : Ref sig .tc := ⟨.hbm, 97, rfl⟩
abbrev main_v53 : Ref sig .tc := ⟨.hbm, 98, rfl⟩
abbrev main_v54 : Ref sig .tc := ⟨.hbm, 99, rfl⟩
abbrev main_cst_11 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_12 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_call2_cst : Ref sig .tc := ⟨.hbm, 117, rfl⟩
abbrev main_call2_v0 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_call3_cst : Ref sig .tc := ⟨.hbm, 123, rfl⟩
abbrev main_call3_v0 : Ref sig .tc := ⟨.hbm, 124, rfl⟩
abbrev main_call3_cst_0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_cst_1 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_v74 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S_d0_1 : S100000x128.ReducesTo [0, 1] S_
  h_S_ : 0 < S_.numel
  bcast_S_S1x1 : S_.BroadcastsInDim S1x1 (![] : Fin 0 → Fin S1x1.rank)
  bcast_S1x1_S100000x128_0_1 : S1x1.BroadcastsInDim S100000x128 (![0, 1] : Fin 2 → Fin S100000x128.rank)
  reducesTo_S100000x128_S128_d0 : S100000x128.ReducesTo [0] S128
  concatenates_S1x128_S1x500_S1x628_d1 : Shape.Concatenates [S1x128, S1x500] S1x628 1
  bcast_S_S1x128 : S_.BroadcastsInDim S1x128 (![] : Fin 0 → Fin S1x128.rank)
  bcast_S16_S1x16_1 : S16.BroadcastsInDim S1x16 (![1] : Fin 1 → Fin S1x16.rank)
  reducesTo_S1x16_S1_d1 : S1x16.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x16_0_1 : S1x1.BroadcastsInDim S1x16 (![0, 1] : Fin 2 → Fin S1x16.rank)
  dot_S100000x2_S2x128_S100000x128_1_0_0_1_n_n_wf : DotDims.WF S100000x2 S2x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1x628_S628x128_S1x128_1_0_0_1_n_n_wf : DotDims.WF S1x628 S628x128 S1x128 [1] [0] [0] [1] [] []
  dot_S1x128_S128x16_S1x16_1_0_0_1_n_n_wf : DotDims.WF S1x128 S128x16 S1x16 [1] [0] [0] [1] [] []

variable [Facts₀]

def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1x628_S628x128_S1x128_1_0_0_1_n_n : DotDims S1x628 S628x128 S1x128 where
  lhsContracting := [1]
  rhsContracting := [0]
  lhsNonContracting := [0]
  rhsNonContracting := [1]
  lhsBatch := []
  rhsBatch := []
  wf := dot_S1x628_S628x128_S1x128_1_0_0_1_n_n_wf
def dot_S1x128_S128x16_S1x16_1_0_0_1_n_n : DotDims S1x128 S128x16 S1x16 where
  lhsContracting := [1]
  rhsContracting := [0]
  lhsNonContracting := [0]
  rhsNonContracting := [1]
  lhsBatch := []
  rhsBatch := []
  wf := dot_S1x128_S128x16_S1x16_1_0_0_1_n_n_wf

class Facts : Prop extends Facts₀ where

variable [Facts]
-- ==== Proof.KRun.lean ====
/-
  The idealized kernel program's run with its result named.  @main is eight segments: the host operations before the
  first pallas_call, the statistics region, the host operations between the two calls, the normalise-and-pool region, and
  four stretches of host operations after it.  The buffer contents at each segment boundary are a fold from the launch
  memory (`Gen.W0` … `Gen.W8`); every weakly fair execution ends with each unscoped buffer at the last boundary's
  contents, so the result buffer holds `Gen.W8 m ρ c` at its reference and the argument arrays are as launched.
-/
import proofs.«123483_j33887291965745_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KRun

end
-- ==== Proof.KVal.lean ====
/-
  The host side of the kernel program as pure terms of the argument arrays, operation by operation in program order.
  From the edge index [2, E]: the source and destination rows; the degree of a node = 1 + the number of edges that land
  on it (an accumulating scatter of ones); dis = deg^(-1/2); the per-edge weight norm e = dis(src e) · dis(dst e), both
  read through gathers whose start indices are the rows with a negative index wrapped once by the number of nodes;
  agg2 = the accumulating scatter, by destination row, of the two raw feature channels of the source row times norm;
  dis2 = dis · dis as a column.  After the first pallas_call: the mean and the factor 1/(σ + ε) from the two moments.
  After the second: the small dense head (concatenate, two dense layers, a rectifier, a log-softmax), one term `tail`.
-/
import proofs.«123483_j33887291965745_2_alg».proof.KernelIdeal
import proofs.«123483_j33887291965745_2_alg».proof.Proof.Gen.KernelIdeal
import Idealize.ShloMosaic.PureOps.Ideal

noncomputable section

namespace Cert.KernelIdeal.KVal

open Idealize.ShloMosaic Cert.KernelIdeal Cert.KernelIdeal.Facts₀ Cert.KernelIdeal.Facts

/-- Float arrays and 32-bit integer arrays of a shape, at the exact instance. -/
abbrev FA (s : Shape) := FVec Idealize.ShloMosaic.Ideal s .f32
abbrev IA (s : Shape) := IVec s 32

/-- Row 0 of the edge index: the source node of each edge. -/
def src (ei : IA S2x1600000) : IA S1600000 :=
  shapeCast S1600000 (extractStridedSlice S1x1600000 ![0, 0] ei slices_S2x1600000_S1x1600000_0_0) shapeCasts_S1x1600000_S1600000
/-- Row 1 of the edge index: the destination node of each edge. -/
def dst (ei : IA S2x1600000) : IA S1600000 :=
  shapeCast S1600000 (extractStridedSlice S1x1600000 ![1, 0] ei slices_S2x1600000_S1x1600000_1_0) shapeCasts_S1x1600000_S1600000
/-- The destination rows as the index column of the scatters. -/
def sdst (ei : IA S2x1600000) : IA S1600000x1 := broadcastInDim S1600000x1 ![0] bcast_S1600000_S1600000x1_0 (dst ei)
/-- deg n = (number of edges landing on n) + 1. -/
def deg (ei : IA S2x1600000) : FA S100000 :=
  addf (Host.scatterAdd scatter_S100000_S1600000x1_S1600000_n_0_0_1
      (broadcastInDim S100000 ![] bcast_S_S100000 (constant S_ .f32 0x00000000#32)) (sdst ei)
      (broadcastInDim S1600000 ![] bcast_S_S1600000 (constant S_ .f32 0x3F800000#32)))
    (broadcastInDim S100000 ![] bcast_S_S100000 (constant S_ .f32 0x3F800000#32))
/-- dis = deg^(-1/2). -/
def dis (ei : IA S2x1600000) : FA S100000 := Host.rsqrt (F := Idealize.ShloMosaic.Ideal) (φ := .f32) (deg ei)
/-- A row index with a negative value wrapped once by the number of nodes. -/
def wrap (v : IA S1600000) : IA S1600000 :=
  select (cmpi .slt v (broadcastInDim S1600000 ![] bcast_S_S1600000 (constantI S_ 32 0#32)))
    (addi v (broadcastInDim S1600000 ![] bcast_S_S1600000 (constantI S_ 32 100000#32))) v
/-- The start-index columns of the gathers by source and by destination row. -/
def gsrc (ei : IA S2x1600000) : IA S1600000x1 := broadcastInDim S1600000x1 ![0] bcast_S1600000_S1600000x1_0 (wrap (src ei))
def gdst (ei : IA S2x1600000) : IA S1600000x1 := broadcastInDim S1600000x1 ![0] bcast_S1600000_S1600000x1_0 (wrap (dst ei))
/-- norm e = dis(src e) · dis(dst e). -/
def norm (ei : IA S2x1600000) : FA S1600000 :=
  mulf (Host.gather gather_S100000_S1600000x1_S1600000_n_0_n_n_0_1_1 (dis ei) (gsrc ei))
    (Host.gather gather_S100000_S1600000x1_S1600000_n_0_n_n_0_1_1 (dis ei) (gdst ei))
/-- agg2 n j = the sum over the edges landing on n of feature j of the source row times norm. -/
def agg2 (nf : FA S100000x2) (ei : IA S2x1600000) : FA S100000x2 :=
  Host.scatterAdd scatter_S100000x2_S1600000x1_S1600000x2_1_0_0_1
    (broadcastInDim S100000x2 ![] bcast_S_S100000x2 (constant S_ .f32 0x00000000#32)) (sdst ei)
    (mulf (Host.gather gather_S100000x2_S1600000x1_S1600000x2_1_0_n_n_0_1_12 nf (gsrc ei))
      (broadcastInDim S1600000x2 ![0, 1] bcast_S1600000x1_S1600000x2_0_1
        (broadcastInDim S1600000x1 ![0] bcast_S1600000_S1600000x1_0 (norm ei))))
/-- dis · dis as a column. -/
def dis2 (ei : IA S2x1600000) : FA S100000x1 := shapeCast S100000x1 (mulf (F := Idealize.ShloMosaic.Ideal) (φ := .f32) (dis ei) (dis ei)) shapeCasts_S100000_S100000x1
/-- A vector of 128 entries as one row. -/
def row (v : FA S128) : FA S1x128 := shapeCast S1x128 v shapeCasts_S128_S1x128

end Cert.KernelIdeal.KVal

end
-- ==== Proof.KValB.lean ====
/-
  The kernel program's host values after each pallas_call.  From the two moments s = Σx and q = Σx² of the activation:
  the mean s/n, the variance q/n − mean², and the factor 1/(sqrt(variance) + ε), each a [1, 1] array.  From the pooled
  row: the dense head, as one term.
-/
import proofs.«123483_j33887291965745_2_alg».proof.Proof.KVal

noncomputable section

namespace Cert.KernelIdeal.KVal

open Idealize.ShloMosaic Cert.KernelIdeal Cert.KernelIdeal.Facts₀ Cert.KernelIdeal.Facts

/-- The float zero, the entry count 12800000, the small ε, one and −∞, as scalars. -/
abbrev zeroS : FA S_ := constant (F := Idealize.ShloMosaic.Ideal) S_ .f32 0x00000000#32
abbrev cntS : FA S_ := constant (F := Idealize.ShloMosaic.Ideal) S_ .f32 0x4B435000#32
abbrev epsS : FA S_ := constant (F := Idealize.ShloMosaic.Ideal) S_ .f32 0x3727C5AC#32
abbrev oneS : FA S_ := constant (F := Idealize.ShloMosaic.Ideal) S_ .f32 0x3F800000#32
abbrev negInfS : FA S_ := constant (F := Idealize.ShloMosaic.Ideal) S_ .f32 0xFF800000#32

/-- A [1, 1] sum divided by the entry count. -/
def perEntry (s : FA S1x1) : FA S1x1 :=
  Host.divf (F := Idealize.ShloMosaic.Ideal) (φ := .f32) s (broadcastInDim S1x1 ![] bcast_S_S1x1 cntS)
/-- 1 / (sqrt(q/n − (s/n)²) + ε). -/
def invStd (s q : FA S1x1) : FA S1x1 :=
  Host.divf (F := Idealize.ShloMosaic.Ideal) (φ := .f32) (broadcastInDim S1x1 ![] bcast_S_S1x1 oneS)
    (addf (F := Idealize.ShloMosaic.Ideal) (φ := .f32)
      (Host.sqrt (F := Idealize.ShloMosaic.Ideal) (φ := .f32)
        (subf (F := Idealize.ShloMosaic.Ideal) (φ := .f32) (perEntry q)
          (mulf (F := Idealize.ShloMosaic.Ideal) (φ := .f32) (perEntry s) (perEntry s))))
      (broadcastInDim S1x1 ![] bcast_S_S1x1 epsS))

/-- Inside the log-softmax: the row minus its maximum. -/
def lsShift (z : FA S1x16) : FA S1x16 :=
  subf (F := Idealize.ShloMosaic.Ideal) (φ := .f32) z
    (broadcastInDim S1x16 ![0, 1] bcast_S1x1_S1x16_0_1
      (broadcastInDim S1x1 ![0] bcast_S1_S1x1_0
        (maximumf (F := Idealize.ShloMosaic.Ideal) (φ := .f32) (broadcastInDim S1 ![] bcast_S_S1 negInfS)
          (Host.reduce (FloatOps.maximumf (F := Idealize.ShloMosaic.Ideal) (φ := .f32)) z negInfS reducesTo_S1x16_S1_d1 h_S_))))

/-- The log-softmax of a row. -/
def logSoftmax (z : FA S1x16) : FA S1x16 :=
  subf (F := Idealize.ShloMosaic.Ideal) (φ := .f32) (lsShift z)
    (broadcastInDim S1x16 ![0, 1] bcast_S1x1_S1x16_0_1
      (Host.log (F := Idealize.ShloMosaic.Ideal) (φ := .f32)
        (broadcastInDim S1x1 ![0] bcast_S1_S1x1_0
          (Host.reduceAdd (F := Idealize.ShloMosaic.Ideal) (φ := .f32) (Host.exp (F := Idealize.ShloMosaic.Ideal) (φ := .f32) (lsShift z)) zeroS reducesTo_S1x16_S1_d1 h_S_))))

/-- Everything after the pooled row: concatenate, first dense layer, rectifier, second dense layer, log-softmax. -/
def tail (p : FA S1x128) (esn : FA S1x500) (fc1w : FA S628x128) (fc1b : FA S128) (fc2w : FA S128x16) (fc2b : FA S16) : FA S1x16 :=
  logSoftmax
    (addf (F := Idealize.ShloMosaic.Ideal) (φ := .f32)
      (Host.dotGeneral (F := Idealize.ShloMosaic.Ideal) (φ₁ := .f32) (φ₂ := .f32) dot_S1x128_S128x16_S1x16_1_0_0_1_n_n none
        (maximumf (F := Idealize.ShloMosaic.Ideal) (φ := .f32)
          (addf (F := Idealize.ShloMosaic.Ideal) (φ := .f32)
            (Host.dotGeneral (F := Idealize.ShloMosaic.Ideal) (φ₁ := .f32) (φ₂ := .f32) dot_S1x628_S628x128_S1x128_1_0_0_1_n_n none
              (concatenate (α := Idealize.ShloMosaic.Ideal .f32) S1x628 1 [⟨S1x128, p⟩, ⟨S1x500, esn⟩] concatenates_S1x128_S1x500_S1x628_d1) fc1w)
            (broadcastInDim S1x128 ![1] bcast_S128_S1x128_1 fc1b))
          (broadcastInDim S1x128 ![] bcast_S_S1x128 zeroS))
        fc2w)
      (broadcastInDim S1x16 ![1] bcast_S16_S1x16_1 fc2b))

end Cert.KernelIdeal.KVal

end
-- ==== Proof.KHost1.lean ====
/-
  What the second pallas_call finds in its arrays, and what the host operations after it compute.  The five arrays of
  the activation are the first call's inputs, which that call leaves as it found them; the mean and the factor
  1/(σ + ε) are host terms of the first call's two outputs; the scale and shift rows are the arguments as rows.  After
  the second call the result is the dense head of its output row and five arguments, which nothing has written.
-/
import proofs.«123483_j33887291965745_2_alg».proof.Proof.Gen.KernelIdeal.Frame
import proofs.«123483_j33887291965745_2_alg».proof.Proof.KValB

noncomputable section

namespace Cert.KernelIdeal.KHost

open Idealize.ShloMosaic Idealize.ShloMosaic.TcCoe Idealize.SL.Sem Cert.KernelIdeal Cert.KernelIdeal.Gen
open Idealize.ShloMosaic.StableHlo

variable (m : (ℓ : Loc nD τ sig) → Buf (Elt Idealize.ShloMosaic.Ideal) ℓ) (ρ : Dev nD → PrngReg) (c : Dev nD)

/-! ## The first call's inputs reach the second call unchanged -/

theorem V3_arg0 : V3 m ρ c main_arg0 = V1 m ρ c main_arg0 := by
  have h : V3 m ρ c main_arg0 = W2 m ρ c (Proc.devRef .tc main_arg0) := by
    dsimp only [V3, W3, hostOps1]; after_results_simp
  exact h.trans ((W2_arr m ρ c 0).trans (((dat0 (V1 m ρ) c).arrAt_in 0 rfl _).trans (A_eq0 (V1 m ρ) c 0)))
theorem V3_v40 : V3 m ρ c main_v40 = V1 m ρ c main_v40 := by
  have h : V3 m ρ c main_v40 = W2 m ρ c (Proc.devRef .tc main_v40) := by
    dsimp only [V3, W3, hostOps1]; after_results_simp
  exact h.trans ((W2_arr m ρ c 1).trans (((dat0 (V1 m ρ) c).arrAt_in 1 rfl _).trans (A_eq0 (V1 m ρ) c 1)))
theorem V3_v12 : V3 m ρ c main_v12 = V1 m ρ c main_v12 := by
  have h : V3 m ρ c main_v12 = W2 m ρ c (Proc.devRef .tc main_v12) := by
    dsimp only [V3, W3, hostOps1]; after_results_simp
  exact h.trans ((W2_arr m ρ c 2).trans (((dat0 (V1 m ρ) c).arrAt_in 2 rfl _).trans (A_eq0 (V1 m ρ) c 2)))
theorem V3_arg3 : V3 m ρ c main_arg3 = V1 m ρ c main_arg3 := by
  have h : V3 m ρ c main_arg3 = W2 m ρ c (Proc.devRef .tc main_arg3) := by
    dsimp only [V3, W3, hostOps1]; after_results_simp
  exact h.trans ((W2_arr m ρ c 3).trans (((dat0 (V1 m ρ) c).arrAt_in 3 rfl _).trans (A_eq0 (V1 m ρ) c 3)))
theorem V3_v41 : V3 m ρ c main_v41 = V1 m ρ c main_v41 := by
  have h : V3 m ρ c main_v41 = W2 m ρ c (Proc.devRef .tc main_v41) := by
    dsimp only [V3, W3, hostOps1]; after_results_simp
  exact h.trans ((W2_arr m ρ c 4).trans (((dat0 (V1 m ρ) c).arrAt_in 4 rfl _).trans (A_eq0 (V1 m ρ) c 4)))

/-! ## The statistics -/

theorem V3_v44 : (V3 m ρ c main_v44 : KVal.FA S1x1) = KVal.perEntry ((dat0 (V1 m ρ) c).arrAt 5 cfg0.N) := by
  have h : (V3 m ρ c main_v44 : KVal.FA S1x1) = KVal.perEntry (W2 m ρ c (Proc.devRef .tc main_v42_0)) := by
    dsimp only [V3, W3, hostOps1]; after_results_simp; rfl
  exact h.trans (congrArg KVal.perEntry (W2_arr m ρ c 5))

theorem V3_v53 : (V3 m ρ c main_v53 : KVal.FA S1x1)
    = KVal.invStd ((dat0 (V1 m ρ) c).arrAt 5 cfg0.N) ((dat0 (V1 m ρ) c).arrAt 6 cfg0.N) := by
  have h : (V3 m ρ c main_v53 : KVal.FA S1x1)
      = KVal.invStd (W2 m ρ c (Proc.devRef .tc main_v42_0)) (W2 m ρ c (Proc.devRef .tc main_v42_1)) := by
    dsimp only [V3, W3, hostOps1]; after_results_simp; rfl
  rw [h, W2_arr m ρ c 5, W2_arr m ρ c 6]

/-! ## Arguments that nothing writes -/

theorem W4_arg2 : W4 m ρ c (Proc.devRef .tc main_arg2) = m ((c : Thread nD τ).loc main_arg2) := by
  refine (W4_of_ne m ρ c main_arg2 (by decide)).trans ?_
  have h3 : W3 m ρ c (Proc.devRef .tc main_arg2) = W2 m ρ c (Proc.devRef .tc main_arg2) := by
    dsimp only [W3, hostOps1]; after_results_simp
  refine h3.trans ((W2_of_ne m ρ c main_arg2 (by decide)).trans ?_)
  dsimp only [W1, hostOps0]; after_results_simp
theorem W4_arg5 : W4 m ρ c (Proc.devRef .tc main_arg5) = m ((c : Thread nD τ).loc main_arg5) := by
  refine (W4_of_ne m ρ c main_arg5 (by decide)).trans ?_
  have h3 : W3 m ρ c (Proc.devRef .tc main_arg5) = W2 m ρ c (Proc.devRef .tc main_arg5) := by
    dsimp only [W3, hostOps1]; after_results_simp
  refine h3.trans ((W2_of_ne m ρ c main_arg5 (by decide)).trans ?_)
  dsimp only [W1, hostOps0]; after_results_simp
theorem W4_arg6 : W4 m ρ c (Proc.devRef .tc main_arg6) = m ((c : Thread nD τ).loc main_arg6) := by
  refine (W4_of_ne m ρ c main_arg6 (by decide)).trans ?_
  have h3 : W3 m ρ c (Proc.devRef .tc main_arg6) = W2 m ρ c (Proc.devRef .tc main_arg6) := by
    dsimp only [W3, hostOps1]; after_results_simp
  refine h3.trans ((W2_of_ne m ρ c main_arg6 (by decide)).trans ?_)
  dsimp only [W1, hostOps0]; after_results_simp
theorem W4_arg7 : W4 m ρ c (Proc.devRef .tc main_arg7) = m ((c : Thread nD τ).loc main_arg7) := by
  refine (W4_of_ne m ρ c main_arg7 (by decide)).trans ?_
  have h3 : W3 m ρ c (Proc.devRef .tc main_arg7) = W2 m ρ c (Proc.devRef .tc main_arg7) := by
    dsimp only [W3, hostOps1]; after_results_simp
  refine h3.trans ((W2_of_ne m ρ c main_arg7 (by decide)).trans ?_)
  dsimp only [W1, hostOps0]; after_results_simp
theorem W4_arg8 : W4 m ρ c (Proc.devRef .tc main_arg8) = m ((c : Thread nD τ).loc main_arg8) := by
  refine (W4_of_ne m ρ c main_arg8 (by decide)).trans ?_
  have h3 : W3 m ρ c (Proc.devRef .tc main_arg8) = W2 m ρ c (Proc.devRef .tc main_arg8) := by
    dsimp only [W3, hostOps1]; after_results_simp
  refine h3.trans ((W2_of_ne m ρ c main_arg8 (by decide)).trans ?_)
  dsimp only [W1, hostOps0]; after_results_simp
theorem W4_arg9 : W4 m ρ c (Proc.devRef .tc main_arg9) = m ((c : Thread nD τ).loc main_arg9) := by
  refine (W4_of_ne m ρ c main_arg9 (by decide)).trans ?_
  have h3 : W3 m ρ c (Proc.devRef .tc main_arg9) = W2 m ρ c (Proc.devRef .tc main_arg9) := by
    dsimp only [W3, hostOps1]; after_results_simp
  refine h3.trans ((W2_of_ne m ρ c main_arg9 (by decide)).trans ?_)
  dsimp only [W1, hostOps0]; after_results_simp
theorem W4_arg10 : W4 m ρ c (Proc.devRef .tc main_arg10) = m ((c : Thread nD τ).loc main_arg10) := by
  refine (W4_of_ne m ρ c main_arg10 (by decide)).trans ?_
  have h3 : W3 m ρ c (Proc.devRef .tc main_arg10) = W2 m ρ c (Proc.devRef .tc main_arg10) := by
    dsimp only [W3, hostOps1]; after_results_simp
  refine h3.trans ((W2_of_ne m ρ c main_arg10 (by decide)).trans ?_)
  dsimp only [W1, hostOps0]; after_results_simp

theorem W2_arg5 : W2 m ρ c (Proc.devRef .tc main_arg5) = m ((c : Thread nD τ).loc main_arg5) := by
  refine (W2_of_ne m ρ c main_arg5 (by decide)).trans ?_
  dsimp only [W1, hostOps0]; after_results_simp
theorem W2_arg6 : W2 m ρ c (Proc.devRef .tc main_arg6) = m ((c : Thread nD τ).loc main_arg6) := by
  refine (W2_of_ne m ρ c main_arg6 (by decide)).trans ?_
  dsimp only [W1, hostOps0]; after_results_simp

theorem V3_v54 : (V3 m ρ c main_v54 : KVal.FA S1x128) = KVal.row (m ((c : Thread nD τ).loc main_arg5)) := by
  have h : (V3 m ρ c main_v54 : KVal.FA S1x128) = KVal.row (W2 m ρ c (Proc.devRef .tc main_arg5)) := by
    dsimp only [V3, W3, hostOps1]; after_results_simp; rfl
  rw [h, W2_arg5]
theorem V3_v55 : (V3 m ρ c main_v55 : KVal.FA S1x128) = KVal.row (m ((c : Thread nD τ).loc main_arg6)) := by
  have h : (V3 m ρ c main_v55 : KVal.FA S1x128) = KVal.row (W2 m ρ c (Proc.devRef .tc main_arg6)) := by
    dsimp only [V3, W3, hostOps1]; after_results_simp; rfl
  rw [h, W2_arg6]

/-! ## The result -/

theorem W8_v65 : (W8 m ρ c (Proc.devRef .tc main_v65) : KVal.FA S1x16)
    = KVal.tail ((dat1 (V3 m ρ) c).arrAt 9 cfg1.N) (m ((c : Thread nD τ).loc main_arg2)) (m ((c : Thread nD τ).loc main_arg7))
        (m ((c : Thread nD τ).loc main_arg8)) (m ((c : Thread nD τ).loc main_arg9)) (m ((c : Thread nD τ).loc main_arg10)) := by
  have h : (W8 m ρ c (Proc.devRef .tc main_v65) : KVal.FA S1x16)
      = KVal.tail (W4 m ρ c (Proc.devRef .tc main_v56)) (W4 m ρ c (Proc.devRef .tc main_arg2)) (W4 m ρ c (Proc.devRef .tc main_arg7))
          (W4 m ρ c (Proc.devRef .tc main_arg8)) (W4 m ρ c (Proc.devRef .tc main_arg9)) (W4 m ρ c (Proc.devRef .tc main_arg10)) := by
    dsimp only [W8, W7, W6, W5, hostOps2, hostOps2_1, hostOps2_2, hostOps2_3]; after_results_simp
    simp only [TRef.toBuf, TRef.ofBuf, cast_eq]
    rfl
  rw [h, W4_arr m ρ c 9, W4_arg2, W4_arg7, W4_arg8, W4_arg9, W4_arg10]

end Cert.KernelIdeal.KHost

end
-- ==== Proof.KHost0.lean ====
/-
  What the first pallas_call finds in its five input arrays: the node features and the projection are arguments, the
  aggregated raw channels, the self-loop weight column and the bias row are the host terms of `KVal`.
-/
import proofs.«123483_j33887291965745_2_alg».proof.Proof.Gen.KernelIdeal.Frame
import proofs.«123483_j33887291965745_2_alg».proof.Proof.KVal

noncomputable section

namespace Cert.KernelIdeal.KHost

open Idealize.ShloMosaic Idealize.ShloMosaic.TcCoe Idealize.SL.Sem Cert.KernelIdeal Cert.KernelIdeal.Gen
open Idealize.ShloMosaic.StableHlo

variable (m : (ℓ : Loc nD τ sig) → Buf (Elt Idealize.ShloMosaic.Ideal) ℓ) (ρ : Dev nD → PrngReg) (c : Dev nD)

theorem V1_arg0 : V1 m ρ c main_arg0 = m ((c : Thread nD τ).loc main_arg0) := by
  dsimp only [V1, W1, hostOps0]; after_results_simp
theorem V1_arg3 : V1 m ρ c main_arg3 = m ((c : Thread nD τ).loc main_arg3) := by
  dsimp only [V1, W1, hostOps0]; after_results_simp
theorem V1_v40 : (V1 m ρ c main_v40 : KVal.FA S100000x2)
    = KVal.agg2 (m ((c : Thread nD τ).loc main_arg0)) (m ((c : Thread nD τ).loc main_arg1)) := by
  dsimp only [V1, W1, hostOps0]; after_results_simp; rfl
theorem V1_v12 : (V1 m ρ c main_v12 : KVal.FA S100000x1) = KVal.dis2 (m ((c : Thread nD τ).loc main_arg1)) := by
  dsimp only [V1, W1, hostOps0]; after_results_simp; rfl
theorem V1_v41 : (V1 m ρ c main_v41 : KVal.FA S1x128) = KVal.row (m ((c : Thread nD τ).loc main_arg4)) := by
  dsimp only [V1, W1, hostOps0]; after_results_simp; rfl

end Cert.KernelIdeal.KHost

end
-- ==== Proof.Spec.lean ====
/-
  The mathematics both programs compute, as plain functions of literal-size index types, with no program in sight.

  Rows n : Fin 100000 are graph nodes, columns k : Fin 128 are hidden channels, j : Fin 2 the two raw feature channels,
  e : Fin E the edges.  An edge e "lands on" node n when `p e n` holds and reads its source row at `g e`; `nm e` is the
  edge's symmetric normalisation weight and `d n` the self-loop weight 1/deg(n).

  * `aggOf p u n c`  = the sum over the edges landing on n of the update u e c  (an accumulating scatter started at 0).
  * `actR`           = relu( Σ_{e→n} (f(g e)·w)_k · nm e  +  (f n · w)_k · d n + b_k ):  project to 128 channels FIRST, then
                        aggregate (the reference's arrangement).
  * `actK`           = relu( (a n 0 + f n 0 · d n) · w 0 k + (a n 1 + f n 1 · d n) · w 1 k + b_k ):  aggregate the two raw
                        channels FIRST (a = aggOf p (f(g e) j · nm e)), then project (the kernel's arrangement).
    They agree for finite entries because the projection is linear (`LawHop`).
  * The graph-wide layer normalisation, in two spellings, then summed over the nodes per channel:
    `poolK` with the moments E[x], E[x²] − E[x]² and the factor 1/(σ+ε) (the kernel's), `poolR` with the centred
    variance of the centred array and a quotient by σ+ε (the reference's).  They agree for finite entries (`LawNorm`).
-/
import Idealize.ShloMosaic.PureOps.Ideal
import Idealize.ShloMosaic.Lib.ValueIdx

noncomputable section

namespace Cert.GcnPool

open Idealize.ShloMosaic

/-- The float 12800000 = 100000 · 128, the number of entries of the activation array. -/
abbrev cN : EReal := Ideal.ofBits .f32 0x4B435000#32
/-- The float nearest 1e-5. -/
abbrev cEps : EReal := Ideal.ofBits .f32 0x3727C5AC#32
/-- The float 1. -/
abbrev cOne : EReal := Ideal.ofBits .f32 0x3F800000#32

/-- An accumulating scatter started at zero, read at (n, c): the sum of the updates of the edges that land on n. -/
def aggOf {E C : Nat} (p : Fin E → Fin 100000 → Prop) [∀ e n, Decidable (p e n)] (u : Fin E → Fin C → EReal)
    (n : Fin 100000) (c : Fin C) : EReal :=
  ∑ e : Fin E, if p e n then u e c else 0

/-- The rectified graph convolution with the two raw channels aggregated first and projected after. -/
def actK (f a : Fin 100000 → Fin 2 → EReal) (d : Fin 100000 → EReal) (w : Fin 2 → Fin 128 → EReal) (b : Fin 128 → EReal)
    (n : Fin 100000) (k : Fin 128) : EReal :=
  max ((a n 0 + f n 0 * d n) * w 0 k + (a n 1 + f n 1 * d n) * w 1 k + b k) 0

/-- The rectified graph convolution with the features projected to 128 channels first and aggregated after. -/
def actR {E : Nat} (f : Fin 100000 → Fin 2 → EReal) (w : Fin 2 → Fin 128 → EReal) (nm : Fin E → EReal)
    (d : Fin 100000 → EReal) (g : Fin E → Fin 100000) (p : Fin E → Fin 100000 → Prop) [∀ e n, Decidable (p e n)]
    (b : Fin 128 → EReal) (n : Fin 100000) (k : Fin 128) : EReal :=
  max (aggOf p (fun e k => (∑ j : Fin 2, f (g e) j * w j k) * nm e) n k + (∑ j : Fin 2, f n j * w j k) * d n + b k) 0

/-- The sum of all entries. -/
def tot (X : Fin 100000 → Fin 128 → EReal) : EReal := ∑ n : Fin 100000, ∑ k : Fin 128, X n k
/-- The sum of all squared entries. -/
def totSq (X : Fin 100000 → Fin 128 → EReal) : EReal := ∑ n : Fin 100000, ∑ k : Fin 128, X n k * X n k

/-- The mean from the first moment. -/
def meanK (X : Fin 100000 → Fin 128 → EReal) : EReal := Ideal.div (tot X) cN
/-- The variance from the two moments, E[x²] − E[x]². -/
def varK (X : Fin 100000 → Fin 128 → EReal) : EReal := Ideal.div (totSq X) cN - meanK X * meanK X
/-- The factor 1/(σ + ε). -/
def invK (X : Fin 100000 → Fin 128 → EReal) : EReal := Ideal.div cOne (Ideal.sqrt (varK X) + cEps)
/-- Normalise with given mean and factor, scale and shift per channel, sum over the nodes. -/
def poolWith (X : Fin 100000 → Fin 128 → EReal) (mean inv : EReal) (lw lb : Fin 128 → EReal) (k : Fin 128) : EReal :=
  ∑ n : Fin 100000, ((X n k - mean) * inv * lw k + lb k)
/-- The kernel's pooled row. -/
def poolK (X : Fin 100000 → Fin 128 → EReal) (lw lb : Fin 128 → EReal) (k : Fin 128) : EReal :=
  poolWith X (meanK X) (invK X) lw lb k

/-- The mean as a host sum started at 0. -/
def meanR (X : Fin 100000 → Fin 128 → EReal) : EReal := Ideal.div (0 + tot X) cN
/-- The centred variance of an array Y (its own mean subtracted again), as two host sums started at 0, divided by n − 0. -/
def varR (Y : Fin 100000 → Fin 128 → EReal) : EReal :=
  Ideal.div (0 + ∑ n : Fin 100000, ∑ k : Fin 128, (Y n k - Ideal.div (0 + tot Y) cN) * (Y n k - Ideal.div (0 + tot Y) cN)) (cN - 0)
/-- The reference's pooled row: centre, divide by σ + ε of the centred array, scale and shift, host sum started at 0. -/
def poolR (X : Fin 100000 → Fin 128 → EReal) (lw lb : Fin 128 → EReal) (k : Fin 128) : EReal :=
  0 + ∑ n : Fin 100000, (Ideal.div (X n k - meanR X) (Ideal.sqrt (varR fun n k => X n k - meanR X) + cEps) * lw k + lb k)

end Cert.GcnPool

end
-- ==== Proof.KXm.lean ====
/-
  The activation in the kernel's arrangement as a function of the argument arrays: the two raw feature channels are
  aggregated over the edges first (an edge lands on its destination row and reads its source row, clamped), the self
  loop is added with weight dis², and the result is projected to the 128 channels, shifted by the bias and rectified.
-/
import proofs.«123483_j33887291965745_2_alg».proof.Proof.KValB
import proofs.«123483_j33887291965745_2_alg».proof.Proof.Spec
import Idealize.ShloMosaic.Lib.ValueIdx

noncomputable section

namespace Cert.KernelIdeal.KXm

open Idealize.ShloMosaic Idealize.ShloMosaic.ValueIdx Cert.KernelIdeal Cert.GcnPool

/-- The source row an edge's gather reads: the signed start index clamped into [0, 99999]. -/
abbrev gAt (ei : KVal.IA S2x1600000) (e : Fin 1600000) : Fin 100000 :=
  ⟨min ((KVal.gsrc ei) (ix2 e (0 : Fin 1))).toInt.toNat (100000 - 1), by omega⟩
/-- Edge e lands on row n: its destination index, read signed, is n. -/
abbrev lands (ei : KVal.IA S2x1600000) (e : Fin 1600000) (n : Fin 100000) : Prop :=
  ((KVal.sdst ei) (ix2 e (0 : Fin 1))).toInt = (n.val : Int)

/-- The activation in the kernel's arrangement, from the argument arrays. -/
def Xm (nf : KVal.FA S100000x2) (ei : KVal.IA S2x1600000) (w : KVal.FA S2x128) (b : KVal.FA S128) : Fin 100000 → Fin 128 → EReal :=
  actK (fun n j => nf (ix2 n j))
    (aggOf (lands ei) fun e j => nf (ix2 (gAt ei e) j) * KVal.norm ei (ix1 e))
    (fun n => KVal.dis ei (ix1 n) * KVal.dis ei (ix1 n)) (fun j k => w (ix2 j k)) (fun k => b (ix1 k))

end Cert.KernelIdeal.KXm

end
-- ==== Proof.LibRowIndex.lean ====
/-
  StableHLO's row gather and row scatter READ AT AN INDEX, for the dimension numbers that indexing the rows of a
  2-D array (or the entries of a 1-D array) by an index column `[E, 1]`, and a segment sum over such a column, lower to.

  Gather (`offset_dims = [1]`, `collapsed_slice_dims = [0]`, `start_index_map = [0]`, `index_vector_dim = 1`,
  `slice_sizes = [1, C]`): result element `(e, c)` is the operand at row `idx[e, 0]` — read as a signed integer and
  clamped into `[0, N − 1]`, as StableHLO clamps every start index — and column `c`. The rank-1 form
  (`offset_dims = []`, `slice_sizes = [1]`) reads entry `idx[e, 0]`, clamped the same way.

  Scatter (`update_window_dims = [1]`, `inserted_window_dims = [0]`, `scatter_dims_to_operand_dims = [0]`,
  `index_vector_dim = 1`): update `(e, c)` lands on operand row `idx[e, 0]` — read signed and NOT clamped — and
  column `c`; it lands only when that row is inside `[0, N)`, and is dropped otherwise.
-/
import Idealize.ShloMosaic.Lib.ValueIdx

noncomputable section

namespace Cert.RowIndex

open Idealize.ShloMosaic Idealize.ShloMosaic.ValueIdx

/-! ## Rows of a rank-2 operand at an index column -/

section Gather
variable {α : Type}

/-- The row gather's dimension numbers for an operand `[N, C]`, start indices `[E, 1]` and result `[E, C]`; their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand index result element `(e, c)` reads: row `idx[e, 0]` (signed, clamped into `[0, N − 1]`), column `c`.
    Axis 0 is collapsed and indexed (start index, no offset); axis 1 is a full-width offset axis (start 0, offset `c`). -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx
      = ix2 ⟨min (idx (ix2 e (0 : Fin 1))).toInt.toNat (N - 1), by omega⟩ c := by
  have h0 : ((rowGatherDims N E C wf).operandIdx (ix2 e c) idx (0 : Fin 2)).val
      = min (idx (ix2 e (0 : Fin 1))).toInt.toNat (N - 1) := by
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N E C wf).operandIdx (ix2 e c) idx (1 : Fin 2)).val = c.val := by
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    simp only [Nat.add_zero]
    unfold GatherDims.start
    rw [dif_neg (show (1 : Fin 2) ∉ (rowGatherDims N E C wf).startIndexMap from
      (by decide : (1 : Fin 2) ∉ ([0] : List (Fin 2))))]
    rw [Nat.zero_add]
    unfold GatherDims.offCoord
    rw [dif_pos (show (1 : Fin 2) ∈ (rowGatherDims N E C wf).sKept from (GatherDims.mem_sKept _ _).mpr
      ⟨(by decide : (1 : Fin 2) ∉ ([0] : List (Fin 2))), List.not_mem_nil⟩)]
    rfl
  funext a; refine Fin.ext ?_
  match a with
  | ⟨0, _⟩ => exact h0
  | ⟨1, _⟩ => exact h1

/-- THE ROW GATHER READ AT `(e, c)`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e (0 : Fin 1))).toInt.toNat (N - 1), by omega⟩ c) := by
  unfold Host.gather
  rw [rowGather_operandIdx hN]

/-! ## The same gather of a rank-1 operand: entries of a vector at an index column -/

/-- The entry gather's dimension numbers for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand index result element `e` reads: entry `idx[e, 0]`, signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGatherDims N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ENTRY GATHER READ AT `e`. -/
theorem vecGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecGatherDims N E wf) v idx (ix1 e)
      = v (ix1 ⟨min (idx (ix2 e (0 : Fin 1))).toInt.toNat (N - 1), by omega⟩) := by
  unfold Host.gather
  rw [vecGather_operandIdx hN]

end Gather

/-! ## Rows scattered into a rank-2 operand at an index column -/

section Scatter

/-- The row scatter's dimension numbers for an operand `[N, C]`, scatter indices `[E, 1]` and updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c)` starts at `idx[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index map does not name, the window starts at `0`. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (by decide : (1 : Fin 2) ∉ ([0] : List (Fin 2))))]

/-- The row axis is an inserted window axis: its window coordinate is `0`. -/
theorem rowScatter_window0 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  rw [dif_neg]
  simp [ScatterDims.sKept, Shape.kept, List.mem_filter, List.mem_finRange]

/-- The column axis carries the update's window axis: its window coordinate is the update's column `c`. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  rw [dif_pos (show (1 : Fin 2) ∈ (rowScatterDims N E C wf).sKept from by
    simp [ScatterDims.sKept, Shape.kept, List.mem_filter, List.mem_finRange])]
  rfl

/-- WHERE UPDATE `(e, c)` LANDS: if it lands at operand index `i`, then `i`'s row is the index `idx[e, 0]` read signed
    (so that index is in `[0, N)`) and `i`'s column is `c`. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatterDims N E C wf).resultIdx? (ix2 e c) idx = some i) :
    (idx (ix2 e (0 : Fin 1))).toInt = ((i 0).val : Int) ∧ (i 1).val = c.val := by
  unfold ScatterDims.resultIdx? at h
  split at h
  · rename_i hc
    have hi := Option.some.inj h
    subst hi
    have h0 := (hc 0).1
    rw [rowScatter_start0, rowScatter_window0] at h0
    refine ⟨?_, ?_⟩
    · show _ = (((rowScatterDims N E C wf).start (ix2 e c) idx 0 + ((rowScatterDims N E C wf).window (ix2 e c) 0 : Nat)).toNat : Int)
      rw [rowScatter_start0, rowScatter_window0]
      omega
    · show ((rowScatterDims N E C wf).start (ix2 e c) idx 1 + ((rowScatterDims N E C wf).window (ix2 e c) 1 : Nat)).toNat = _
      rw [rowScatter_start1, rowScatter_window1]
      omega
  · exact absurd h (by simp)

end Scatter

end Cert.RowIndex
-- ==== Proof.LibScatterRows.lean ====
/-
  THE ROW SCATTER READ AT AN INDEX, at the ideal (extended-real) values.

  For the dimension numbers of a segment sum over an index column (`Cert.RowIndex.rowScatterDims`: operand `[N, C]`,
  scatter indices `[E, 1]`, updates `[E, C]`; update `(e, c')` goes to row `idx[e, 0]`, read signed and not clamped, and
  column `c'`, and is dropped when that row is outside `[0, N)`):
  • `rowScatter_resultIdx_iff`: update `(e, c')` lands at operand index `(n, c)` exactly when `idx[e, 0]`, read signed,
    is `n` and `c' = c` (the converse of `rowScatter_lands` together with it);
  • `rowScatter_apply`: the accumulating scatter read at `(n, c)` is the operand there plus the sum over ALL the edges `e`
    of the update `(e, c)` where `idx[e, 0] = n` and of `0` elsewhere;
  • `rowScatterGather_apply`: the same when the updates are the rows of an array `z` gathered at a second index column
    (a message-passing hop): the update `(e, c)` is `z` at the clamped row `sidx[e, 0]` and column `c`.
-/
import Idealize.ShloMosaic.PureOps.Ideal
import Idealize.ShloMosaic.Lib.ValueIdx
import proofs.«123483_j33887291965745_2_alg».proof.Proof.LibRowIndex

noncomputable section

open scoped BigOperators

namespace Cert.ScatterRows

open Idealize.ShloMosaic Idealize.ShloMosaic.ValueIdx Cert.RowIndex

/-- Update `(e, c')` lands at `(n, c)` exactly when its row index, read signed, is `n` and its column is `c`. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : Int) ∧ c' = c := by
  constructor
  · intro h
    obtain ⟨h0, h1⟩ := rowScatter_lands wf idx e c' (ix2 n c) h
    exact ⟨h0, Fin.ext h1.symm⟩
  · rintro ⟨h0, rfl⟩
    have hc : ∀ a : Fin 2,
        0 ≤ (rowScatterDims N E C wf).start (ix2 e c') idx a + ((rowScatterDims N E C wf).window (ix2 e c') a : Nat)
        ∧ (rowScatterDims N E C wf).start (ix2 e c') idx a + ((rowScatterDims N E C wf).window (ix2 e c') a : Nat)
            < ((⟨2, ![N, C]⟩ : Shape).size a : Nat) := by
      intro a
      match a with
      | ⟨0, _⟩ =>
        show 0 ≤ (rowScatterDims N E C wf).start (ix2 e c') idx 0 + ((rowScatterDims N E C wf).window (ix2 e c') 0 : Nat)
          ∧ (rowScatterDims N E C wf).start (ix2 e c') idx 0 + ((rowScatterDims N E C wf).window (ix2 e c') 0 : Nat) < (N : Int)
        rw [rowScatter_start0, rowScatter_window0, h0]
        have := n.isLt
        omega
      | ⟨1, _⟩ =>
        show 0 ≤ (rowScatterDims N E C wf).start (ix2 e c') idx 1 + ((rowScatterDims N E C wf).window (ix2 e c') 1 : Nat)
          ∧ (rowScatterDims N E C wf).start (ix2 e c') idx 1 + ((rowScatterDims N E C wf).window (ix2 e c') 1 : Nat) < (C : Int)
        rw [rowScatter_start1, rowScatter_window1]
        have := c'.isLt
        omega
    unfold ScatterDims.resultIdx?
    rw [dif_pos hc]
    congr 1
    funext a
    refine Fin.ext ?_
    match a with
    | ⟨0, _⟩ =>
      show ((rowScatterDims N E C wf).start (ix2 e c') idx 0 + ((rowScatterDims N E C wf).window (ix2 e c') 0 : Nat)).toNat = n.val
      rw [rowScatter_start0, rowScatter_window0, h0]
      omega
    | ⟨1, _⟩ =>
      show ((rowScatterDims N E C wf).start (ix2 e c') idx 1 + ((rowScatterDims N E C wf).window (ix2 e c') 1 : Nat)).toNat = c'.val
      rw [rowScatter_start1, rowScatter_window1]
      omega

/-- THE ROW SCATTER READ AT `(n, c)`: the operand there plus the updates `(e, c)` of the edges `e` whose row index is `n`. -/
theorem rowScatter_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) x idx u (ix2 n c)
      = x (ix2 n c)
        + ∑ e : Fin E, if (idx (ix2 e (0 : Fin 1))).toInt = (n.val : Int) then u (ix2 e c) else 0 := by
  unfold Ideal.hostScatterAdd
  congr 1
  rw [Finset.sum_filter, sum_idx2]
  refine Finset.sum_congr rfl fun e _ => ?_
  simp only [rowScatter_resultIdx_iff]
  by_cases h : (idx (ix2 e (0 : Fin 1))).toInt = (n.val : Int)
  · simp only [h, true_and]
    rw [Finset.sum_ite_eq' Finset.univ c (fun c' => u (ix2 e c'))]
    simp
  · simp [h]

/-- A HOP READ AT `(n, c)`: rows of `z` gathered at the column `sidx` and summed per row of the column `idx`. -/
theorem rowScatterGather_apply {N E C w w' : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (sidx : IVec ⟨2, ![E, 1]⟩ w')
    (z : (⟨2, ![N, C]⟩ : Shape).Idx → EReal) (n : Fin N) (c : Fin C) :
    Ideal.hostScatterAdd (rowScatterDims N E C wfS) x idx (Host.gather (rowGatherDims N E C wfG) z sidx) (ix2 n c)
      = x (ix2 n c)
        + ∑ e : Fin E, if (idx (ix2 e (0 : Fin 1))).toInt = (n.val : Int)
            then z (ix2 ⟨min (sidx (ix2 e (0 : Fin 1))).toInt.toNat (N - 1), by omega⟩ c) else 0 := by
  rw [rowScatter_apply]
  congr 1
  refine Finset.sum_congr rfl fun e _ => ?_
  rw [rowGather_apply hN]

end Cert.ScatterRows

end
-- ==== Proof.LibRowOps.lean ====
/-
  Row operations of a matrix, and of a stack of matrices, read at an index given by coordinates, at the ideal
  values (floats are extended reals, every operation exact).

  A sum or a maximum along the last axis, the "keep the reduced axis as a unit axis" reshaping that follows it, and the
  broadcast of that column back over the row are written in two spellings: the vector unit's
  (`multi_reduction`, `shape_cast` [n] → [n, 1], `broadcast` [n, 1] → [n, m]) on one matrix, and the host's
  (`reduce`, `broadcast_in_dim` [B, n] → [B, n, 1] → [B, n, m]) on a stack of B matrices. Each lemma reads one such
  operation at the coordinates (c, k), respectively (b, c, k): a row sum is the sum over the row's entries, a row
  maximum the fold of `max` over them from the initial value, the two layout operations read the operand at the
  row's coordinate. Read this way the two spellings are the same function of the matrix b of the stack.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.RowOps

open Idealize.ShloMosaic Idealize.ShloMosaic.ValueIdx

variable {B n m : Nat} {α : Type}

/-! ## The reduced index with the row's coordinate put back -/

/-- In a matrix reduced along its rows, row `c` with column `k` put back is the entry (c, k). -/
theorem lift_ix1 (h : (⟨2, ![n, m]⟩ : Shape).Reduces [1] ⟨1, ![n]⟩) (c : Fin n) (k : Fin m) :
    h.lift (ix1 c) k = ix2 c k := by
  funext a; apply Fin.ext; fin_cases a <;> rfl

/-- In a stack of matrices reduced along the rows, row (b, c) with column `k` put back is the entry (b, c, k). -/
theorem lift_ix2 (h : (⟨3, ![B, n, m]⟩ : Shape).Reduces [2] ⟨2, ![B, n]⟩) (b : Fin B) (c : Fin n) (k : Fin m) :
    h.lift (ix2 b c) k = ix3 b c k := by
  funext a; apply Fin.ext; fin_cases a <;> rfl

/-! ## Row sums -/

/-- The vector unit's sum along the rows of a matrix, from the zero accumulator, at row `c`: the sum of the row's entries. -/
theorem vec_rowSum (v : FVec Ideal ⟨2, ![n, m]⟩ .f32) (h : (⟨2, ![n, m]⟩ : Shape).Reduces [1] ⟨1, ![n]⟩)
    (hφ : FKind.Formats .f32) (hacc : (0x00000000#32 : BitVec 32) = 0x00000000#32) (c : Fin n) :
    multiReduction .add [1] ⟨1, ![n]⟩ v 0x00000000#32 h hφ hacc (ix1 c) = ∑ k : Fin m, v (ix2 c k) :=
  (Ideal.multiReduction_add_single v 0x00000000#32 h hφ hacc (ix1 c)).trans
    (Finset.sum_congr rfl fun k _ => congrArg v (lift_ix1 h c k))

/-- The host's sum along the rows of a stack of matrices, at row (b, c): the initial value plus the sum of the row's entries. -/
theorem host_rowSum (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduceAdd x init h' hu (ix2 b c) = init (Shape.Idx.first hu) + ∑ k : Fin m, x (ix3 b c k) := by
  simp only [Host.reduceAdd, Ideal.hostReduceAdd_def]
  rw [Ideal.hostReduceAdd_single h' h]
  exact congrArg (_ + ·) (Finset.sum_congr rfl fun k _ => congrArg x (lift_ix2 h b c k))

/-! ## Row maxima -/

/-- The vector unit's maximum along the rows of a matrix, from the accumulator -∞, at row `c`: the fold of `max` over the row. -/
theorem vec_rowMax (v : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (c : Fin n) :
    multiReduction .maximumf [1] ⟨1, ![n]⟩ v 0xFF800000#32 h hφ hacc (ix1 c)
      = (Finset.univ : Finset (Fin m)).fold max (Ideal.ofBits .f32 0xFF800000#32) (fun k => v (ix2 c k)) :=
  (Ideal.multiReduction_maximumf_single v 0xFF800000#32 h hφ hacc (ix1 c)).trans
    (congrArg (fun f => Finset.fold max (Ideal.ofBits .f32 0xFF800000#32) f (Finset.univ : Finset (Fin m)))
      (funext fun k => congrArg v (lift_ix1 h c k)))

/-- The host's maximum along the rows of a stack of matrices, at row (b, c): the fold of `max` over the row from the initial value. -/
theorem host_rowMax (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduce FloatOps.maximumf x init h' hu (ix2 b c)
      = (Finset.univ : Finset (Fin m)).fold max (init (Shape.Idx.first hu)) (fun k => x (ix3 b c k)) := by
  rw [Host.reduce_eq_fold_single FloatOps.maximumf x init h' h hu]
  exact congrArg (fun f => Finset.fold max (init (Shape.Idx.first hu)) f (Finset.univ : Finset (Fin m)))
    (funext fun k => congrArg x (lift_ix2 h b c k))

/-! ## The reduced axis kept as a unit axis, and the column broadcast back over the rows -/

/-- A vector of `n` entries cast to a column reads, at (c, 0), entry `c`. -/
theorem vec_col (v : (⟨1, ![n]⟩ : Shape).Idx → α) (h : (⟨1, ![n]⟩ : Shape).ShapeCasts ⟨2, ![n, 1]⟩) (c : Fin n) (u : Fin 1) :
    shapeCast ⟨2, ![n, 1]⟩ v h (ix2 c u) = v (ix1 c) :=
  shapeCast_apply v h _ _ (by
    have hu : u.val = 0 := by omega
    rw [Shape.rowMajor_val_one, Shape.rowMajor_val_two]
    show c.val = c.val * 1 + u.val
    omega)

/-- A column broadcast over `m` columns reads, at (c, k), the column's entry `c`. -/
theorem vec_colBroadcast (w : (⟨2, ![n, 1]⟩ : Shape).Idx → α) (h : (⟨2, ![n, 1]⟩ : Shape).Broadcasts ⟨2, ![n, m]⟩)
    (c : Fin n) (k : Fin m) : broadcastTo ⟨2, ![n, m]⟩ w h (ix2 c k) = w (ix2 c (0 : Fin 1)) := by
  refine broadcastTo_apply w h (ix2 c k) (ix2 c (0 : Fin 1)) fun ax => ?_
  match ax with
  | ⟨0, _⟩ =>
    show c.val = if n = 1 then 0 else c.val
    split
    · have := c.isLt; omega
    · rfl
  | ⟨1, _⟩ =>
    show (0 : Nat) = if (1 : Nat) = 1 then 0 else k.val
    rw [if_pos rfl]

/-- The host's `broadcast_in_dim` of a [B, n] array to [B, n, 1] reads, at (b, c, 0), the entry (b, c). -/
theorem host_col (v : (⟨2, ![B, n]⟩ : Shape).Idx → α) (h : (⟨2, ![B, n]⟩ : Shape).BroadcastsInDim ⟨3, ![B, n, 1]⟩ ![0, 1])
    (b : Fin B) (c : Fin n) (u : Fin 1) : broadcastInDim ⟨3, ![B, n, 1]⟩ ![0, 1] h v (ix3 b c u) = v (ix2 b c) := by
  refine broadcastInDim_apply _ h v (ix3 b c u) (ix2 b c) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl

/-- The host's `broadcast_in_dim` of a [B, n, 1] array to [B, n, m] reads, at (b, c, k), the entry (b, c, 0). -/
theorem host_colBroadcast (w : (⟨3, ![B, n, 1]⟩ : Shape).Idx → α)
    (h : (⟨3, ![B, n, 1]⟩ : Shape).BroadcastsInDim ⟨3, ![B, n, m]⟩ ![0, 1, 2]) (b : Fin B) (c : Fin n) (k : Fin m) :
    broadcastInDim ⟨3, ![B, n, m]⟩ ![0, 1, 2] h w (ix3 b c k) = w (ix3 b c (0 : Fin 1)) := by
  refine broadcastInDim_apply _ h w (ix3 b c k) (ix3 b c (0 : Fin 1)) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl
  | ⟨2, _⟩ =>
    show (0 : Nat) = if (1 : Nat) = 1 then 0 else k.val
    rw [if_pos rfl]

/-! ## Pointwise operations in the host's and the vector unit's spelling: the same function of each entry -/

theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem host_sqrt_apply {s : Shape} {φ : FTy} (x : FVec Ideal s φ) (i : s.Idx) : Host.sqrt x i = Ideal.sqrt (x i) := rfl
theorem host_exp_apply {s : Shape} {φ : FTy} (x : FVec Ideal s φ) (i : s.Idx) : Host.exp x i = Ideal.exp (x i) := rfl
theorem host_divf_apply {s : Shape} {φ : FTy} (x y : FVec Ideal s φ) (i : s.Idx) : Host.divf x y i = Ideal.div (x i) (y i) := rfl
/-- A scalar constant of the vector unit is the extended real its bit pattern denotes. -/
theorem scalar_ofBits (φ : FTy) (w : BitVec φ.bits) : Scalar.ofBits (F := Ideal) φ w = Ideal.ofBits φ w := rfl

/-- The host's `broadcast_in_dim` of a rank-zero array reads its one entry everywhere. -/
theorem host_splat {t : Shape} (x : (⟨0, ![]⟩ : Shape).Idx → α) (h : (⟨0, ![]⟩ : Shape).BroadcastsInDim t ![]) (j : t.Idx) :
    broadcastInDim t ![] h x j = x ix0 :=
  broadcastInDim_apply _ h x j ix0 fun a => a.elim0

end Cert.Lib.RowOps

end
-- ==== Proof.KRead.lean ====
/-
  The kernel program's host values read at an index.
  * agg2 at (n, j): the accumulating scatter started at zero is the sum, over the edges whose destination row is n, of
    feature j of the gathered source row (the signed start index clamped to the last row) times the edge's weight.
  * dis2 at (n, 0) = dis n · dis n; a 128-vector as a row at (0, k) is its entry k.
  * the mean and the factor 1/(σ + ε) at (0, 0), from the two moments at (0, 0).
-/
import proofs.«123483_j33887291965745_2_alg».proof.Proof.KValB
import proofs.«123483_j33887291965745_2_alg».proof.Proof.KXm
import proofs.«123483_j33887291965745_2_alg».proof.Proof.Spec
import proofs.«123483_j33887291965745_2_alg».proof.Proof.LibRowIndex
import proofs.«123483_j33887291965745_2_alg».proof.Proof.LibScatterRows
import proofs.«123483_j33887291965745_2_alg».proof.Proof.LibRowOps
import Idealize.ShloMosaic.PureOps.Ideal.Laws
import Idealize.ShloMosaic.Lib.ValueIdx
import Idealize.ShloMosaic.Lib.Pipeline.Value

noncomputable section

namespace Cert.KernelIdeal.KRead

open Idealize.ShloMosaic Idealize.ShloMosaic.ValueIdx Cert.KernelIdeal Cert.KernelIdeal.Facts₀ Cert.KernelIdeal.Facts
open Cert.KernelIdeal.KXm

/-! ## Layout changes along one axis, for any sizes -/

section Layout
variable {α : Type} {n m : Nat}

/-- A vector laid out as a column reads, at (c, 0), its entry c. -/
theorem bc_col (v : (⟨1, ![n]⟩ : Shape).Idx → α) (h : (⟨1, ![n]⟩ : Shape).BroadcastsInDim ⟨2, ![n, 1]⟩ ![0])
    (c : Fin n) (u : Fin 1) : broadcastInDim ⟨2, ![n, 1]⟩ ![0] h v (ix2 c u) = v (ix1 c) := by
  refine broadcastInDim_apply _ h v (ix2 c u) (ix1 c) fun a => ?_
  match a with
  | ⟨0, _⟩ =>
    show c.val = if n = 1 then 0 else c.val
    split
    · have := c.isLt; omega
    · rfl

/-- A column repeated over m columns reads, at (c, k), the column's entry c. -/
theorem bc_colB (w : (⟨2, ![n, 1]⟩ : Shape).Idx → α) (h : (⟨2, ![n, 1]⟩ : Shape).BroadcastsInDim ⟨2, ![n, m]⟩ ![0, 1])
    (c : Fin n) (k : Fin m) : broadcastInDim ⟨2, ![n, m]⟩ ![0, 1] h w (ix2 c k) = w (ix2 c (0 : Fin 1)) := by
  refine broadcastInDim_apply _ h w (ix2 c k) (ix2 c (0 : Fin 1)) fun a => ?_
  match a with
  | ⟨0, _⟩ =>
    show c.val = if n = 1 then 0 else c.val
    split
    · have := c.isLt; omega
    · rfl
  | ⟨1, _⟩ =>
    show (0 : Nat) = if (1 : Nat) = 1 then 0 else k.val
    rw [if_pos rfl]

/-- A vector of m entries cast to one row reads, at (0, k), its entry k. -/
theorem vec_row (v : (⟨1, ![m]⟩ : Shape).Idx → α) (h : (⟨1, ![m]⟩ : Shape).ShapeCasts ⟨2, ![1, m]⟩) (u : Fin 1) (k : Fin m) :
    shapeCast ⟨2, ![1, m]⟩ v h (ix2 u k) = v (ix1 k) :=
  shapeCast_apply v h _ _ (by
    have hu : u.val = 0 := by omega
    rw [Shape.rowMajor_val_one, Shape.rowMajor_val_two]
    show k.val = u.val * m + k.val
    rw [hu]; omega)

end Layout

/-- A vector over the edges as a column, then along two columns: entry (e, j) is entry e. -/
theorem edgeCol (nm : KVal.FA S1600000) (e : Fin 1600000) (j : Fin 2) :
    broadcastInDim S1600000x2 ![0, 1] bcast_S1600000x1_S1600000x2_0_1
      (broadcastInDim S1600000x1 ![0] bcast_S1600000_S1600000x1_0 nm) (ix2 e j) = nm (ix1 e) :=
  (bc_colB _ bcast_S1600000x1_S1600000x2_0_1 e j).trans (bc_col nm bcast_S1600000_S1600000x1_0 e 0)

/-- The two-channel row gather at (e, j): row `idx[e, 0]`, read signed and clamped into [0, 99999], column j. -/
theorem gatherRows2_apply (z : KVal.FA S100000x2) (idx : KVal.IA S1600000x1) (e : Fin 1600000) (j : Fin 2) :
    Host.gather gather_S100000x2_S1600000x1_S1600000x2_1_0_n_n_0_1_12 z idx (ix2 e j)
      = z (ix2 ⟨min (idx (ix2 e (0 : Fin 1))).toInt.toNat (100000 - 1), by omega⟩ j) :=
  Cert.RowIndex.rowGather_apply (N := 100000) (E := 1600000) (C := 2) (by norm_num)
    gather_S100000x2_S1600000x1_S1600000x2_1_0_n_n_0_1_12_wf z idx e j

/-- The two-channel accumulating row scatter at (n, j): the operand there plus the updates of the edges whose index is n. -/
theorem scatterRows2_apply (x0 : KVal.FA S100000x2) (idx : KVal.IA S1600000x1) (u : KVal.FA S1600000x2)
    (n : Fin 100000) (j : Fin 2) :
    Host.scatterAdd (F := Idealize.ShloMosaic.Ideal) (φ := .f32) scatter_S100000x2_S1600000x1_S1600000x2_1_0_0_1 x0 idx u (ix2 n j)
      = x0 (ix2 n j) + ∑ e : Fin 1600000, if (idx (ix2 e (0 : Fin 1))).toInt = (n.val : Int) then u (ix2 e j) else 0 :=
  Cert.ScatterRows.rowScatter_apply (N := 100000) (E := 1600000) (C := 2)
    scatter_S100000x2_S1600000x1_S1600000x2_1_0_0_1_wf x0 idx u n j

/-- The zero scalar repeated over any shape reads 0. -/
theorem zeros_apply {t : Shape} (h : S_.BroadcastsInDim t ![]) (j : t.Idx) :
    broadcastInDim t ![] h (constant (F := Idealize.ShloMosaic.Ideal) S_ .f32 0x00000000#32) j = (0 : EReal) :=
  (Cert.Lib.RowOps.host_splat _ h j).trans Ideal.ofBits_zero_f32

theorem agg2_apply (nf : KVal.FA S100000x2) (ei : KVal.IA S2x1600000) (n : Fin 100000) (j : Fin 2) :
    KVal.agg2 nf ei (ix2 n j)
      = Cert.GcnPool.aggOf (lands ei) (fun e j => nf (ix2 (gAt ei e) j) * KVal.norm ei (ix1 e)) n j := by
  unfold KVal.agg2 Cert.GcnPool.aggOf
  rw [scatterRows2_apply, zeros_apply, zero_add]
  refine Finset.sum_congr rfl fun e _ => ?_
  rw [mulf_apply, gatherRows2_apply, edgeCol]

theorem dis2_apply (ei : KVal.IA S2x1600000) (n : Fin 100000) :
    KVal.dis2 ei (ix2 n (0 : Fin 1)) = KVal.dis ei (ix1 n) * KVal.dis ei (ix1 n) := by
  unfold KVal.dis2
  rw [Cert.Lib.RowOps.vec_col, mulf_apply]

theorem row_apply (v : KVal.FA S128) (k : Fin 128) : KVal.row v (ix2 (0 : Fin 1) k) = v (ix1 k) := by
  unfold KVal.row
  exact vec_row v shapeCasts_S128_S1x128 0 k

theorem perEntry_apply (s : KVal.FA S1x1) (i : S1x1.Idx) : KVal.perEntry s i = Ideal.div (s i) Cert.GcnPool.cN := by
  unfold KVal.perEntry
  rw [Cert.Lib.RowOps.host_divf_apply, Cert.Lib.RowOps.host_splat]
  rfl

theorem invStd_apply (s q : KVal.FA S1x1) (i : S1x1.Idx) :
    KVal.invStd s q i = Ideal.div Cert.GcnPool.cOne
      (Ideal.sqrt (Ideal.div (q i) Cert.GcnPool.cN - Ideal.div (s i) Cert.GcnPool.cN * Ideal.div (s i) Cert.GcnPool.cN) + Cert.GcnPool.cEps) := by
  unfold KVal.invStd
  rw [Cert.Lib.RowOps.host_divf_apply, Cert.Lib.RowOps.host_splat, addf_apply, Cert.Lib.RowOps.host_sqrt_apply, subf_apply,
    mulf_apply, perEntry_apply, perEntry_apply, Cert.Lib.RowOps.host_splat]
  rfl

end Cert.KernelIdeal.KRead

end
-- ==== Proof.KAct.lean ====
/-
  The rectified graph-convolution activation as the two kernels recompute it, read off the arrays a region finds:
  window 0 the node features [100000, 2], window 1 the aggregated raw channels [100000, 2], window 2 the self-loop
  weights as a column [100000, 1], window 3 the projection [2, 128], window 4 the bias as a row [1, 128].
  Both regions stage exactly these five arrays first, so one definition serves both.
-/
import proofs.«123483_j33887291965745_2_alg».proof.KernelIdeal
import proofs.«123483_j33887291965745_2_alg».proof.Proof.Spec

noncomputable section

namespace Cert.KernelIdeal.KAct

open Idealize.ShloMosaic Idealize.ShloMosaic.TcCoe Idealize.ShloMosaic.ValueIdx Idealize.SL.Sem Cert.KernelIdeal

/-- Entry (n, k) of the activation x = relu((agg + feat · d) · w + b), from the contents `V` of the core's buffers. -/
def X (V : (c : Dev nD) → (b : Ref sig .tc) → Buf (Elt Ideal) ((c : Thread nD τ).loc b)) (c : Dev nD) :
    Fin 100000 → Fin 128 → EReal :=
  Cert.GcnPool.actK
    (fun n j => (V c main_arg0 : S100000x2.Idx → EReal) (ix2 n j))
    (fun n j => (V c main_v40 : S100000x2.Idx → EReal) (ix2 n j))
    (fun n => (V c main_v12 : S100000x1.Idx → EReal) (ix2 n (0 : Fin 1)))
    (fun j k => (V c main_arg3 : S2x128.Idx → EReal) (ix2 j k))
    (fun k => (V c main_v41 : S1x128.Idx → EReal) (ix2 (0 : Fin 1) k))

end Cert.KernelIdeal.KAct

end
-- ==== Proof.LibBlockSum.lean ====
/-
  Sums over one long axis, cut into equal blocks.

  A rank-1 index set of extent n is Fin n, and a [1, n] index set is Fin n too, so a sum over either is a sum
  over Fin n.  An axis of extent N = B · n is B consecutive blocks of n, and the sum over Fin N is the double
  sum over (block, position in the block) at the index block · n + position.  At the exact values a lane sum
  of a [1, n] vector cast from a rank-1 vector is the plain sum of that vector, and the host's sum of a rank-1
  array down to a scalar is its initial value plus the plain sum.
-/
import Idealize.ShloMosaic.PureOps.Ideal.Laws
import Idealize.ShloMosaic.Lib.ValueIdx
import Idealize.ShloMosaic.Lib.ValueLayout

noncomputable section

open scoped BigOperators

namespace Cert.LibBlockSum

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a [1, n] index set is the sum over the second coordinate, the first being 0. -/
theorem sum_idx_1n {M : Type*} [AddCommMonoid M] {n : Nat} (f : (⟨2, ![1, n]⟩ : Shape).Idx → M) :
    ∑ i, f i = ∑ a : Fin n, f (ix2 (0 : Fin 1) a) := by
  rw [sum_idx2, Fin.sum_univ_one]

/-- Position `j` of block `t` on an axis of `B` blocks of `n`. -/
def blockIdx {B n N : Nat} (h : B * n = N) (t : Fin B) (j : Fin n) : Fin N :=
  ⟨t.val * n + j.val, by
    have h1 : t.val * n + j.val < t.val * n + n := Nat.add_lt_add_left j.isLt _
    have h2 : t.val * n + n ≤ B * n := by
      rw [← Nat.succ_mul]; exact Nat.mul_le_mul_right _ t.isLt
    omega⟩

theorem blockIdx_val {B n N : Nat} (h : B * n = N) (t : Fin B) (j : Fin n) :
    (blockIdx h t j).val = t.val * n + j.val := rfl

/-- The sum over an axis of `B` blocks of `n` is the sum over the blocks of the sums inside each. -/
theorem sum_blocks {M : Type*} [AddCommMonoid M] {B n N : Nat} (h : B * n = N) (f : Fin N → M) :
    ∑ r, f r = ∑ t : Fin B, ∑ j : Fin n, f (blockIdx h t j) := by
  subst h
  rw [← Equiv.sum_comp finProdFinEquiv f, Fintype.sum_prod_type]
  refine Finset.sum_congr rfl fun t _ => Finset.sum_congr rfl fun j _ => congrArg f (Fin.ext ?_)
  show j.val + n * t.val = t.val * n + j.val
  rw [Nat.mul_comm, Nat.add_comm]

/-- The lane sum of a rank-1 vector cast to [1, n], cast on to [1, 1] and read at its one entry, is the plain
    sum of the vector's entries. -/
theorem laneSum_eq {n : Nat} (x : FVec Ideal ⟨1, ![n]⟩ .f32)
    (hc : (⟨1, ![n]⟩ : Shape).ShapeCasts ⟨2, ![1, n]⟩)
    (hr : (⟨2, ![1, n]⟩ : Shape).Reduces [1] ⟨1, ![1]⟩) (hφ : FKind.Formats .f32)
    (hacc : (0x00000000#32 : BitVec 32) = FKind.add.neutral .f32 hφ)
    (hc' : (⟨1, ![1]⟩ : Shape).ShapeCasts ⟨2, ![1, 1]⟩) (hp : ∀ a, (![0, 0] : Fin 2 → Nat) a < (⟨2, ![1, 1]⟩ : Shape).size a) :
    extractAt ![0, 0] (shapeCast ⟨2, ![1, 1]⟩ (multiReduction .add [1] ⟨1, ![1]⟩ (shapeCast ⟨2, ![1, n]⟩ x hc) 0x00000000#32 hr hφ hacc) hc') hp
      = ∑ a : Fin n, x (ix1 a) := by
  unfold extractAt
  have e : (fun a => (⟨(![0, 0] : Fin 2 → Nat) a, hp a⟩ : Fin ((⟨2, ![1, 1]⟩ : Shape).size a))) = ix2 (0 : Fin 1) (0 : Fin 1) :=
    funext fun a => Fin.ext (by match a with | ⟨0, _⟩ => rfl | ⟨1, _⟩ => rfl)
  rw [e, shapeCast_a_1a_apply, Ideal.multiReduction_add_total _ _ _ (fun b => by match b with | ⟨0, _⟩ => rfl), sum_idx_1n]
  exact Finset.sum_congr rfl fun a _ => shapeCast_a_1a_apply x hc 0 a

/-- The host's sum of a rank-1 array down to a scalar, from the initial value `init`, is `init` plus the plain sum. -/
theorem hostSum_eq {n : Nat} (x : (⟨1, ![n]⟩ : Shape).Idx → EReal) (init : EReal)
    (h : (⟨1, ![n]⟩ : Shape).ReducesTo [0] ⟨0, ![]⟩) (j : (⟨0, ![]⟩ : Shape).Idx) :
    Ideal.hostReduceAdd h x init j = init + ∑ a : Fin n, x (ix1 a) := by
  rw [Ideal.hostReduceAdd_total h (fun b => b.elim0), sum_idx1]

end Cert.LibBlockSum

end
-- ==== Proof.KStatsPay.lean ====
/-
  The activation tile the statistics kernel recomputes at one grid point, read at an entry (r, k) of the tile:
  from the feature block f, the aggregate block a, the self-loop weight column d, the projection w and the bias
  row b it is  max ((a r 0 + f r 0 · d r) · w 0 k + (a r 1 + f r 1 · d r) · w 1 k + b k) 0.
  The column slices, the column and row broadcasts and the pointwise operations are each read at the entry.
-/
import proofs.«123483_j33887291965745_2_alg».proof.Proof.Gen.KernelIdeal.Skeleton
import proofs.«123483_j33887291965745_2_alg».proof.Proof.LibRowOps
import Idealize.ShloMosaic.Lib.ValueIdx
import Idealize.ShloMosaic.Lib.ValueLayout
import Idealize.ShloMosaic.Lib.Pipeline.Value

noncomputable section

namespace Cert.KernelIdeal.Stats

open Idealize.ShloMosaic Idealize.ShloMosaic.ValueIdx Cert.KernelIdeal Cert.KernelIdeal.Gen

variable {α : Type}

/-- A column broadcast over the 128 channels reads the column's entry of the row. -/
theorem col_bc (w : S4000x1.Idx → α) (r : Fin 4000) (k : Fin 128) :
    broadcastTo S4000x128 w broadcasts_S4000x1_S4000x128 (ix2 r k) = w (ix2 r (0 : Fin 1)) :=
  Cert.Lib.RowOps.vec_colBroadcast w broadcasts_S4000x1_S4000x128 r k

/-- A row broadcast over the 4000 rows reads the row's entry of the channel. -/
theorem row_bc (v : S1x128.Idx → α) (r : Fin 4000) (k : Fin 128) :
    broadcastTo S4000x128 v broadcasts_S1x128_S4000x128 (ix2 r k) = v (ix2 (0 : Fin 1) k) :=
  broadcastTo_1b_ab_apply v broadcasts_S1x128_S4000x128 r k

/-- Column 0 of a two-column block. -/
theorem col0 (X : S4000x2.Idx → α) (r : Fin 4000) :
    extractStridedSlice S4000x1 ![0, 0] X slices_S4000x2_o0_0_S4000x1 (ix2 r (0 : Fin 1)) = X (ix2 r (0 : Fin 2)) :=
  slice2_axis1_apply 0 X slices_S4000x2_o0_0_S4000x1 r (0 : Fin 1) (0 : Fin 2) rfl

/-- Column 1 of a two-column block. -/
theorem col1 (X : S4000x2.Idx → α) (r : Fin 4000) :
    extractStridedSlice S4000x1 ![0, 1] X slices_S4000x2_o0_1_S4000x1 (ix2 r (0 : Fin 1)) = X (ix2 r (1 : Fin 2)) :=
  slice2_axis1_apply 1 X slices_S4000x2_o0_1_S4000x1 r (0 : Fin 1) (1 : Fin 2) rfl

/-- Row 0 of the projection. -/
theorem row0 (X : S2x128.Idx → α) (k : Fin 128) :
    extractStridedSlice S1x128 ![0, 0] X slices_S2x128_o0_0_S1x128 (ix2 (0 : Fin 1) k) = X (ix2 (0 : Fin 2) k) :=
  slice2_axis0_apply 0 X slices_S2x128_o0_0_S1x128 (0 : Fin 1) k (0 : Fin 2) rfl

/-- Row 1 of the projection. -/
theorem row1 (X : S2x128.Idx → α) (k : Fin 128) :
    extractStridedSlice S1x128 ![1, 0] X slices_S2x128_o1_0_S1x128 (ix2 (0 : Fin 1) k) = X (ix2 (1 : Fin 2) k) :=
  slice2_axis0_apply 1 X slices_S2x128_o1_0_S1x128 (0 : Fin 1) k (1 : Fin 2) rfl

/-- The activation tile at entry (r, k). -/
theorem pay5_apply (x0 x1 : Vec Ideal S4000x2 .f32) (x2 : Vec Ideal S4000x1 .f32) (x3 : Vec Ideal S2x128 .f32)
    (x4 : Vec Ideal S1x128 .f32) (r : Fin 4000) (k : Fin 128) :
    (k0_pay5 x0 x1 x2 x3 x4 : S4000x128.Idx → EReal) (ix2 r k)
      = max (((x1 (ix2 r (0 : Fin 2)) + x0 (ix2 r (0 : Fin 2)) * x2 (ix2 r (0 : Fin 1))) * x3 (ix2 (0 : Fin 2) k)
          + (x1 (ix2 r (1 : Fin 2)) + x0 (ix2 r (1 : Fin 2)) * x2 (ix2 r (0 : Fin 1))) * x3 (ix2 (1 : Fin 2) k))
          + x4 (ix2 (0 : Fin 1) k)) 0 := by
  unfold k0_pay5
  simp only [maximumf_apply, addf_apply, mulf_apply, broadcast_apply, shapeCast_self, col_bc, row_bc, col0, col1, row0, row1,
    Cert.Lib.RowOps.scalar_ofBits, Ideal.ofBits_zero_f32]

end Cert.KernelIdeal.Stats

end
-- ==== Proof.KStatsTile.lean ====
/-
  The two partial statistics of one tile: the kernel sums the activation tile along its 128 channels, keeps the
  4000 row sums as a column, and sums that column to a single entry; it does the same with the tile's squares.
  Over the extended reals each is the plain double sum over the tile's entries.
-/
import proofs.«123483_j33887291965745_2_alg».proof.Proof.KStatsPay
import Idealize.ShloMosaic.PureOps.Ideal.Laws

noncomputable section

namespace Cert.KernelIdeal.Stats

open Idealize.ShloMosaic Idealize.ShloMosaic.ValueIdx Cert.KernelIdeal Cert.KernelIdeal.Gen

/-- In a column reduced along its rows, the one remaining coordinate u with row r put back is the entry (r, u). -/
theorem lift_col (h : S4000x1.Reduces [0] S1) (u : Fin 1) (r : Fin 4000) : h.lift (ix1 u) r = ix2 r u := by
  funext a; apply Fin.ext; fin_cases a <;> rfl

/-- The sum of a column of 4000 entries down to one entry, from the zero accumulator: the sum of the entries. -/
theorem colSum (v : FVec Ideal S4000x1 .f32) (hφ : FKind.Formats .f32)
    (hacc : (0x00000000#32 : BitVec 32) = 0x00000000#32) (u : Fin 1) :
    multiReduction .add [0] S1 v 0x00000000#32 reduces_S4000x1_S1 hφ hacc (ix1 u) = ∑ r : Fin 4000, v (ix2 r (0 : Fin 1)) :=
  (Ideal.multiReduction_add_single v 0x00000000#32 reduces_S4000x1_S1 hφ hacc (ix1 u)).trans
    (Finset.sum_congr rfl fun r _ => congrArg v ((lift_col reduces_S4000x1_S1 u r).trans
      (congrArg (ix2 r) (Subsingleton.elim u 0))))

/-- Row sums kept as a column, then the column summed to one entry, read at that entry: the double sum. -/
theorem tileSum (T : FVec Ideal S4000x128 .f32) (hφ hφ' : FKind.Formats .f32)
    (hacc hacc' : (0x00000000#32 : BitVec 32) = 0x00000000#32) (j : S1x1.Idx) :
    shapeCast S1x1 (multiReduction .add [0] S1
        (shapeCast S4000x1 (multiReduction .add [1] S4000 T 0x00000000#32 reduces_S4000x128_S4000 hφ hacc) shapeCasts_S4000_S4000x1)
        0x00000000#32 reduces_S4000x1_S1 hφ' hacc') shapeCasts_S1_S1x1 j
      = ∑ r : Fin 4000, ∑ k : Fin 128, T (ix2 r k) := by
  rw [eq_ix2 j]
  refine (shapeCast_a_1a_apply _ shapeCasts_S1_S1x1 (j 0) (j 1)).trans ?_
  refine (colSum _ hφ' hacc' (j 1)).trans ?_
  refine Finset.sum_congr rfl fun r _ => ?_
  refine (Cert.Lib.RowOps.vec_col _ shapeCasts_S4000_S4000x1 r (0 : Fin 1)).trans ?_
  exact Cert.Lib.RowOps.vec_rowSum T reduces_S4000x128_S4000 hφ hacc r

/-- The tile's sum. -/
theorem pay6_apply (x0 x1 : Vec Ideal S4000x2 .f32) (x2 : Vec Ideal S4000x1 .f32) (x3 : Vec Ideal S2x128 .f32)
    (x4 : Vec Ideal S1x128 .f32) (j : S1x1.Idx) :
    (k0_pay6 x0 x1 x2 x3 x4 : S1x1.Idx → EReal) j
      = ∑ r : Fin 4000, ∑ k : Fin 128, (k0_pay5 x0 x1 x2 x3 x4 : S4000x128.Idx → EReal) (ix2 r k) := by
  unfold k0_pay6
  exact tileSum (k0_pay5 x0 x1 x2 x3 x4) _ _ _ _ j

/-- The tile's sum of squares. -/
theorem pay7_apply (x0 x1 : Vec Ideal S4000x2 .f32) (x2 : Vec Ideal S4000x1 .f32) (x3 : Vec Ideal S2x128 .f32)
    (x4 : Vec Ideal S1x128 .f32) (j : S1x1.Idx) :
    (k0_pay7 x0 x1 x2 x3 x4 : S1x1.Idx → EReal) j
      = ∑ r : Fin 4000, ∑ k : Fin 128, (k0_pay5 x0 x1 x2 x3 x4 : S4000x128.Idx → EReal) (ix2 r k)
          * (k0_pay5 x0 x1 x2 x3 x4 : S4000x128.Idx → EReal) (ix2 r k) := by
  unfold k0_pay7
  exact tileSum (mulf (k0_pay5 x0 x1 x2 x3 x4) (k0_pay5 x0 x1 x2 x3 x4)) _ _ _ _ j

end Cert.KernelIdeal.Stats

end
-- ==== Proof.KStatsRun.lean ====
/-
  The statistics kernel's two accumulators over its 25 grid points.

  At its first point the kernel zeroes both accumulators and adds the tile's sum, respectively the tile's sum of
  squares; at every later point it adds the tile's to what the point before left.  A tile is 4000 consecutive rows
  of the activation, so after the last point the first accumulator holds the sum over all 100000 rows and 128
  channels of the activation and the second the sum of its squares: over the extended reals addition is
  commutative and associative, so the order of the 25 additions does not matter.
-/
import proofs.«123483_j33887291965745_2_alg».proof.Proof.Gen.KernelIdeal.Frame
import proofs.«123483_j33887291965745_2_alg».proof.Proof.KAct
import proofs.«123483_j33887291965745_2_alg».proof.Proof.Spec
import proofs.«123483_j33887291965745_2_alg».proof.Proof.LibBlockSum
import proofs.«123483_j33887291965745_2_alg».proof.Proof.KStatsTile
import Idealize.ShloMosaic.Lib.Pipeline.Value
import Idealize.ShloMosaic.Lib.Tactic
import Idealize.ShloMosaic.Lib.ValueIdx

noncomputable section

namespace Cert.KernelIdeal.Stats

open Idealize.ShloMosaic Idealize.ShloMosaic.TcCoe Idealize.ShloMosaic.ValueIdx Idealize.SL.Sem Cert.KernelIdeal Cert.KernelIdeal.Gen
open Idealize.ShloMosaic.Tactic
open Idealize.ShloMosaic.Pipeline (Dat)

/-! ## What each control case leaves in the two accumulators -/

section Pieces
variable {F : FTy → Type} [FloatOps F]

theorem hz : (![0, 0] : Fin 2 → Nat) = fun _ => 0 := funext fun a => by fin_cases a <;> rfl

/-- First point, first accumulator: the zero fill, then the tile's sum added to it. -/
theorem out_A_5 (c : Dev nD) (i : grid0.Coords) (a1 : Memref sig .tc .vmem S4000x2 .f32) (h1 : a1.IsWhole) (a2 : Memref sig .tc .vmem S4000x2 .f32) (h2 : a2.IsWhole) (a3 : Memref sig .tc .vmem S4000x1 .f32) (h3 : a3.IsWhole) (a4 : Memref sig .tc .vmem S2x128 .f32) (h4 : a4.IsWhole) (a5 : Memref sig .tc .vmem S1x128 .f32) (h5 : a5.IsWhole) (a6 : Memref sig .tc .vmem S1x1 .f32) (h6 : a6.IsWhole) (a7 : Memref sig .tc .vmem S1x1 .f32) (h7 : a7.IsWhole) (hc : cond0_0 i) (x0 : Vec F S4000x2 .f32) (x1 : Vec F S4000x2 .f32) (x2 : Vec F S4000x1 .f32) (x3 : Vec F S2x128 .f32) (x4 : Vec F S1x128 .f32) :
    out0_A_5 c i a1 h1 a2 h2 a3 h3 a4 h4 a5 h5 a6 h6 a7 h7 hc x0 x1 x2 x3 x4 = k0_pay1 (k0_pay6 x0 x1 x2 x3 x4) (k0_pay3 (F := F)) := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S4000x2) hz, View.ld_unit_zero (S := S4000x1) hz, View.ld_unit_zero (S := S2x128) hz,
    View.ld_unit_zero (S := S1x128) hz]

/-- First point, second accumulator: the zero fill, then the tile's sum of squares added to it. -/
theorem out_A_6 (c : Dev nD) (i : grid0.Coords) (a1 : Memref sig .tc .vmem S4000x2 .f32) (h1 : a1.IsWhole) (a2 : Memref sig .tc .vmem S4000x2 .f32) (h2 : a2.IsWhole) (a3 : Memref sig .tc .vmem S4000x1 .f32) (h3 : a3.IsWhole) (a4 : Memref sig .tc .vmem S2x128 .f32) (h4 : a4.IsWhole) (a5 : Memref sig .tc .vmem S1x128 .f32) (h5 : a5.IsWhole) (a6 : Memref sig .tc .vmem S1x1 .f32) (h6 : a6.IsWhole) (a7 : Memref sig .tc .vmem S1x1 .f32) (h7 : a7.IsWhole) (hc : cond0_0 i) (x0 : Vec F S4000x2 .f32) (x1 : Vec F S4000x2 .f32) (x2 : Vec F S4000x1 .f32) (x3 : Vec F S2x128 .f32) (x4 : Vec F S1x128 .f32) :
    out0_A_6 c i a1 h1 a2 h2 a3 h3 a4 h4 a5 h5 a6 h6 a7 h7 hc x0 x1 x2 x3 x4 = k0_pay2 (k0_pay7 x0 x1 x2 x3 x4) (k0_pay4 (F := F)) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S4000x2) hz, View.ld_unit_zero (S := S4000x1) hz, View.ld_unit_zero (S := S2x128) hz,
    View.ld_unit_zero (S := S1x128) hz]

/-- A later point, first accumulator: the tile's sum added to the running contents. -/
theorem out_B_5 (c : Dev nD) (i : grid0.Coords) (a1 : Memref sig .tc .vmem S4000x2 .f32) (h1 : a1.IsWhole) (a2 : Memref sig .tc .vmem S4000x2 .f32) (h2 : a2.IsWhole) (a3 : Memref sig .tc .vmem S4000x1 .f32) (h3 : a3.IsWhole) (a4 : Memref sig .tc .vmem S2x128 .f32) (h4 : a4.IsWhole) (a5 : Memref sig .tc .vmem S1x128 .f32) (h5 : a5.IsWhole) (a6 : Memref sig .tc .vmem S1x1 .f32) (h6 : a6.IsWhole) (a7 : Memref sig .tc .vmem S1x1 .f32) (h7 : a7.IsWhole) (hc : ¬cond0_0 i) (x0 : Vec F S4000x2 .f32) (x1 : Vec F S4000x2 .f32) (x2 : Vec F S4000x1 .f32) (x3 : Vec F S2x128 .f32) (x4 : Vec F S1x128 .f32) (xo5 xo6 : Vec F S1x1 .f32) :
    out0_B_5 c i a1 h1 a2 h2 a3 h3 a4 h4 a5 h5 a6 h6 a7 h7 hc x0 x1 x2 x3 x4 xo5 xo6 = k0_pay1 (k0_pay6 x0 x1 x2 x3 x4) xo5 := by
  unfold out0_B_5
  rw [View.read_writes_eq_canon _ _ _ (cover0_B_5 c i a1 h1 a2 h2 a3 h3 a4 h4 a5 h5 a6 h6 a7 h7 hc x0 x1 x2 x3 x4 xo5 xo6)]
  unfold kernelRun0_B
  dsimp only
  sl_unfold_words
  rw [View.canon_unit_zero (S := S1x1) hz]
  simp only [View.readAt_eq_ld, h1.read_unread, h2.read_unread, h3.read_unread, h4.read_unread, h5.read_unread, h6.read_unread,
    View.ld_unit_zero (S := S4000x2) hz, View.ld_unit_zero (S := S4000x1) hz, View.ld_unit_zero (S := S2x128) hz,
    View.ld_unit_zero (S := S1x128) hz, View.ld_unit_zero (S := S1x1) hz]

/-- A later point, second accumulator: the tile's sum of squares added to the running contents. -/
theorem out_B_6 (c : Dev nD) (i : grid0.Coords) (a1 : Memref sig .tc .vmem S4000x2 .f32) (h1 : a1.IsWhole) (a2 : Memref sig .tc .vmem S4000x2 .f32) (h2 : a2.IsWhole) (a3 : Memref sig .tc .vmem S4000x1 .f32) (h3 : a3.IsWhole) (a4 : Memref sig .tc .vmem S2x128 .f32) (h4 : a4.IsWhole) (a5 : Memref sig .tc .vmem S1x128 .f32) (h5 : a5.IsWhole) (a6 : Memref sig .tc .vmem S1x1 .f32) (h6 : a6.IsWhole) (a7 : Memref sig .tc .vmem S1x1 .f32) (h7 : a7.IsWhole) (hc : ¬cond0_0 i) (x0 : Vec F S4000x2 .f32) (x1 : Vec F S4000x2 .f32) (x2 : Vec F S4000x1 .f32) (x3 : Vec F S2x128 .f32) (x4 : Vec F S1x128 .f32) (xo5 xo6 : Vec F S1x1 .f32) :
    out0_B_6 c i a1 h1 a2 h2 a3 h3 a4 h4 a5 h5 a6 h6 a7 h7 hc x0 x1 x2 x3 x4 xo5 xo6 = k0_pay2 (k0_pay7 x0 x1 x2 x3 x4) xo6 := by
  unfold out0_B_6
  rw [View.read_writes_eq_canon _ _ _ (cover0_B_6 c i a1 h1 a2 h2 a3 h3 a4 h4 a5 h5 a6 h6 a7 h7 hc x0 x1 x2 x3 x4 xo5 xo6)]
  unfold kernelRun0_B
  dsimp only
  sl_unfold_words
  rw [View.canon_unit_zero (S := S1x1) hz]
  simp only [View.readAt_eq_ld, h1.read_unread, h2.read_unread, h3.read_unread, h4.read_unread, h5.read_unread, h7.read_unread,
    View.ld_unit_zero (S := S4000x2) hz, View.ld_unit_zero (S := S4000x1) hz, View.ld_unit_zero (S := S2x128) hz,
    View.ld_unit_zero (S := S1x128) hz, View.ld_unit_zero (S := S1x1) hz]

/-! ## A window's block read at an entry: the array at block index × block size + the entry's coordinate -/

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

variable (V : (c : Dev nD) → (b : Ref sig .tc) → Buf (Elt F) ((c : Thread nD τ).loc b))

/-- The feature block at point t, entry (r, u): row t · 4000 + r of the features. -/
theorem blk0_0 (c : Dev nD) (t : Fin cfg0.N) (r : Fin 4000) (u : Fin 2) (n : Fin 100000)
    (hn : n.val = t.val * 4000 + r.val) :
    (iblk0 V c 0 t : S4000x2.Idx → F .f32) (ix2 r u) = (V c main_arg0 : S100000x2.Idx → F .f32) (ix2 n u) := by
  unfold iblk0
  rw [View.read_apply]
  show V c main_arg0 _ = V c main_arg0 _
  congr 1
  funext a
  apply Fin.ext
  match a with
  | ⟨0, _⟩ => show win0_0.index t 0 * 4000 + 1 * r.val = n.val; rw [(idx0_0 t).1]; omega
  | ⟨1, _⟩ => show win0_0.index t 1 * 2 + 1 * u.val = u.val; rw [(idx0_0 t).2]; omega

/-- The aggregate block at point t, entry (r, u): row t · 4000 + r of the aggregated raw channels. -/
theorem blk0_1 (c : Dev nD) (t : Fin cfg0.N) (r : Fin 4000) (u : Fin 2) (n : Fin 100000)
    (hn : n.val = t.val * 4000 + r.val) :
    (iblk0 V c 1 t : S4000x2.Idx → F .f32) (ix2 r u) = (V c main_v40 : S100000x2.Idx → F .f32) (ix2 n u) := by
  unfold iblk0
  rw [View.read_apply]
  show V c main_v40 _ = V c main_v40 _
  congr 1
  funext a
  apply Fin.ext
  match a with
  | ⟨0, _⟩ => show win0_1.index t 0 * 4000 + 1 * r.val = n.val; rw [(idx0_1 t).1]; omega
  | ⟨1, _⟩ => show win0_1.index t 1 * 2 + 1 * u.val = u.val; rw [(idx0_1 t).2]; omega

/-- The weight column's block at point t, entry (r, 0): row t · 4000 + r of the column. -/
theorem blk0_2 (c : Dev nD) (t : Fin cfg0.N) (r : Fin 4000) (u : Fin 1) (n : Fin 100000)
    (hn : n.val = t.val * 4000 + r.val) :
    (iblk0 V c 2 t : S4000x1.Idx → F .f32) (ix2 r u) = (V c main_v12 : S100000x1.Idx → F .f32) (ix2 n u) := by
  unfold iblk0
  rw [View.read_apply]
  show V c main_v12 _ = V c main_v12 _
  congr 1
  funext a
  apply Fin.ext
  match a with
  | ⟨0, _⟩ => show win0_2.index t 0 * 4000 + 1 * r.val = n.val; rw [(idx0_2 t).1]; omega
  | ⟨1, _⟩ => show win0_2.index t 1 * 1 + 1 * u.val = u.val; rw [(idx0_2 t).2]; omega

/-- The projection's block is the whole projection at every point. -/
theorem blk0_3 (c : Dev nD) (t : Fin cfg0.N) (u : Fin 2) (k : Fin 128) :
    (iblk0 V c 3 t : S2x128.Idx → F .f32) (ix2 u k) = (V c main_arg3 : S2x128.Idx → F .f32) (ix2 u k) := by
  unfold iblk0
  rw [View.read_apply]
  show V c main_arg3 _ = V c main_arg3 _
  congr 1
  funext a
  apply Fin.ext
  match a with
  | ⟨0, _⟩ => show win0_3.index t 0 * 2 + 1 * u.val = u.val; rw [(idx0_3 t).1]; omega
  | ⟨1, _⟩ => show win0_3.index t 1 * 128 + 1 * k.val = k.val; rw [(idx0_3 t).2]; omega

/-- The bias row's block is the whole row at every point. -/
theorem blk0_4 (c : Dev nD) (t : Fin cfg0.N) (u : Fin 1) (k : Fin 128) :
    (iblk0 V c 4 t : S1x128.Idx → F .f32) (ix2 u k) = (V c main_v41 : S1x128.Idx → F .f32) (ix2 u k) := by
  unfold iblk0
  rw [View.read_apply]
  show V c main_v41 _ = V c main_v41 _
  congr 1
  funext a
  apply Fin.ext
  match a with
  | ⟨0, _⟩ => show win0_4.index t 0 * 1 + 1 * u.val = u.val; rw [(idx0_4 t).1]; omega
  | ⟨1, _⟩ => show win0_4.index t 1 * 128 + 1 * k.val = k.val; rw [(idx0_4 t).2]; omega

end Pieces

end Cert.KernelIdeal.Stats

end
-- ==== Proof.KStats.lean ====
/-
  The value of the statistics kernel: after its 25 grid points its two single-entry outputs hold the sum and the
  sum of squares of the activation over all 100000 rows and 128 channels.

  Point t recomputes tile t of the activation — rows t · 4000 … t · 4000 + 3999 — from the blocks of the five arrays
  it reads, and its two partial statistics are the double sums over that tile.  The accumulators after point n are
  therefore the sums of the partial statistics of tiles 0 … n (induction on the point), and after the last point
  the sums over all 25 tiles, which are the sums over all rows.  Both outputs are written back once, after the
  last point, and that one block is the whole output.
-/
import proofs.«123483_j33887291965745_2_alg».proof.Proof.KStatsRun

noncomputable section

namespace Cert.KernelIdeal.Stats

open Idealize.ShloMosaic Idealize.ShloMosaic.TcCoe Idealize.ShloMosaic.ValueIdx Idealize.SL.Sem Cert.KernelIdeal Cert.KernelIdeal.Gen
open Idealize.ShloMosaic.Pipeline (Dat)
open Cert.GcnPool (tot totSq)

/-! ## The partial statistics of a tile -/

/-- Row r of tile s. -/
def rowOf (s : Nat) (hs : s < 25) (r : Fin 4000) : Fin 100000 := ⟨s * 4000 + r.val, by have := r.isLt; omega⟩

/-- The sum of tile s of X (zero past the 25 tiles). -/
def tile (X : Fin 100000 → Fin 128 → EReal) (s : Nat) : EReal :=
  if hs : s < 25 then ∑ r : Fin 4000, ∑ k : Fin 128, X (rowOf s hs r) k else 0

/-- The sum of squares of tile s of X (zero past the 25 tiles). -/
def tileSq (X : Fin 100000 → Fin 128 → EReal) (s : Nat) : EReal :=
  if hs : s < 25 then ∑ r : Fin 4000, ∑ k : Fin 128, X (rowOf s hs r) k * X (rowOf s hs r) k else 0

/-- The 25 tiles' sums add up to the sum over all rows. -/
theorem sum_tiles (X : Fin 100000 → Fin 128 → EReal) : ∑ s ∈ Finset.range 25, tile X s = tot X := by
  unfold Cert.GcnPool.tot
  rw [Cert.LibBlockSum.sum_blocks (show 25 * 4000 = 100000 from rfl), Finset.sum_range]
  refine Finset.sum_congr rfl fun t _ => ?_
  unfold tile
  rw [dif_pos t.isLt]
  rfl

/-- The 25 tiles' sums of squares add up to the sum of squares over all rows. -/
theorem sum_tilesSq (X : Fin 100000 → Fin 128 → EReal) : ∑ s ∈ Finset.range 25, tileSq X s = totSq X := by
  unfold Cert.GcnPool.totSq
  rw [Cert.LibBlockSum.sum_blocks (show 25 * 4000 = 100000 from rfl), Finset.sum_range]
  refine Finset.sum_congr rfl fun t _ => ?_
  unfold tileSq
  rw [dif_pos t.isLt]
  rfl

/-! ## The accumulating additions and the zero fill, at the one entry -/

theorem pay1_apply (v35 : FVec Ideal S1x1 .f32) (v41 : Vec Ideal S1x1 .f32) (j : S1x1.Idx) :
    (k0_pay1 v35 v41 : S1x1.Idx → EReal) j = v41 j + v35 j := by
  unfold k0_pay1
  rw [shapeCast_self]
  rfl

theorem pay2_apply (v40 : FVec Ideal S1x1 .f32) (v45 : Vec Ideal S1x1 .f32) (j : S1x1.Idx) :
    (k0_pay2 v40 v45 : S1x1.Idx → EReal) j = v45 j + v40 j := by
  unfold k0_pay2
  rw [shapeCast_self]
  rfl

theorem pay3_apply (j : S1x1.Idx) : (k0_pay3 (F := Ideal) : S1x1.Idx → EReal) j = 0 := by
  unfold k0_pay3
  exact Ideal.ofBits_zero_f32

theorem pay4_apply (j : S1x1.Idx) : (k0_pay4 (F := Ideal) : S1x1.Idx → EReal) j = 0 := by
  unfold k0_pay4
  exact Ideal.ofBits_zero_f32

variable (V : (c : Dev nD) → (b : Ref sig .tc) → Buf (Elt Ideal) ((c : Thread nD τ).loc b))

/-! ## Point t's tile is tile t of the activation -/

/-- Entry (r, k) of the tile point t recomputes is the activation at row t · 4000 + r. -/
theorem tile_entry (c : Dev nD) (t : Fin cfg0.N) (r : Fin 4000) (k : Fin 128) (n : Fin 100000)
    (hn : n.val = t.val * 4000 + r.val) :
    (k0_pay5 (iblk0 V c 0 t) (iblk0 V c 1 t) (iblk0 V c 2 t) (iblk0 V c 3 t) (iblk0 V c 4 t) : S4000x128.Idx → EReal) (ix2 r k) = KAct.X V c n k := by
  refine (pay5_apply _ _ _ _ _ r k).trans ?_
  rw [blk0_0 V c t r 0 n hn, blk0_0 V c t r 1 n hn, blk0_1 V c t r 0 n hn, blk0_1 V c t r 1 n hn,
    blk0_2 V c t r 0 n hn, blk0_3 V c t 0 k, blk0_3 V c t 1 k, blk0_4 V c t 0 k]
  rfl

theorem lt25 (t : Fin cfg0.N) : t.val < 25 := lt_of_lt_of_eq t.isLt (show cfg0.N = 25 from N_0)

/-- Point t's partial sum is tile t's sum. -/
theorem tile_pay6 (c : Dev nD) (t : Fin cfg0.N) (j : S1x1.Idx) :
    (k0_pay6 (iblk0 V c 0 t) (iblk0 V c 1 t) (iblk0 V c 2 t) (iblk0 V c 3 t) (iblk0 V c 4 t) : S1x1.Idx → EReal) j = tile (KAct.X V c) t.val := by
  refine (pay6_apply _ _ _ _ _ j).trans ?_
  unfold tile
  rw [dif_pos (lt25 t)]
  exact Finset.sum_congr rfl fun r _ => Finset.sum_congr rfl fun k _ =>
    tile_entry V c t r k (rowOf t.val (lt25 t) r) rfl

/-- Point t's partial sum of squares is tile t's sum of squares. -/
theorem tile_pay7 (c : Dev nD) (t : Fin cfg0.N) (j : S1x1.Idx) :
    (k0_pay7 (iblk0 V c 0 t) (iblk0 V c 1 t) (iblk0 V c 2 t) (iblk0 V c 3 t) (iblk0 V c 4 t) : S1x1.Idx → EReal) j = tileSq (KAct.X V c) t.val := by
  refine (pay7_apply _ _ _ _ _ j).trans ?_
  unfold tileSq
  rw [dif_pos (lt25 t)]
  exact Finset.sum_congr rfl fun r _ => Finset.sum_congr rfl fun k _ =>
    congrArg₂ (· * ·) (tile_entry V c t r k (rowOf t.val (lt25 t) r) rfl) (tile_entry V c t r k (rowOf t.val (lt25 t) r) rfl)

/-! ## The accumulators point by point -/

/-- At the first point both accumulators hold the first tile's statistics. -/
theorem at_A (c : Dev nD) (t : Fin cfg0.N) (h0 : t.val % 25 = 0) (j : S1x1.Idx) :
    ((outsAt0 V c t.val t.isLt).1 : S1x1.Idx → EReal) j = tile (KAct.X V c) t.val
    ∧ ((outsAt0 V c t.val t.isLt).2 : S1x1.Idx → EReal) j = tileSq (KAct.X V c) t.val := by
  rw [outsAt0_A V c t h0]
  dsimp only
  constructor
  · refine (congrFun (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) j).trans ?_
    rw [pay1_apply, pay3_apply, zero_add]
    exact tile_pay6 V c t j
  · refine (congrFun (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) j).trans ?_
    rw [pay2_apply, pay4_apply, zero_add]
    exact tile_pay7 V c t j

/-- At a later point each accumulator holds what the point before left plus the point's tile's statistic. -/
theorem at_B (c : Dev nD) (t : Fin cfg0.N) (h0 : ¬t.val % 25 = 0) (j : S1x1.Idx) :
    ((outsAt0 V c t.val t.isLt).1 : S1x1.Idx → EReal) j
        = ((outsAt0 V c (t.val - 1) (Nat.lt_of_le_of_lt (Nat.sub_le _ _) t.isLt)).1 : S1x1.Idx → EReal) j + tile (KAct.X V c) t.val
    ∧ ((outsAt0 V c t.val t.isLt).2 : S1x1.Idx → EReal) j
        = ((outsAt0 V c (t.val - 1) (Nat.lt_of_le_of_lt (Nat.sub_le _ _) t.isLt)).2 : S1x1.Idx → EReal) j + tileSq (KAct.X V c) t.val := by
  rw [outsAt0_B V c t h0]
  dsimp only
  constructor
  · refine (congrFun (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) j).trans ?_
    rw [pay1_apply]
    exact congrArg (_ + ·) (tile_pay6 V c t j)
  · refine (congrFun (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) j).trans ?_
    rw [pay2_apply]
    exact congrArg (_ + ·) (tile_pay7 V c t j)

/-- After point n the accumulators hold the statistics of tiles 0 … n. -/
theorem outs_eq (c : Dev nD) : ∀ (n : ℕ) (hn : n < cfg0.N) (j : S1x1.Idx),
    ((outsAt0 V c n hn).1 : S1x1.Idx → EReal) j = ∑ s ∈ Finset.range (n + 1), tile (KAct.X V c) s
    ∧ ((outsAt0 V c n hn).2 : S1x1.Idx → EReal) j = ∑ s ∈ Finset.range (n + 1), tileSq (KAct.X V c) s
  | 0, hn, j => by
    rw [Finset.sum_range_one, Finset.sum_range_one]
    exact at_A V c ⟨0, hn⟩ rfl j
  | n + 1, hn, j => by
    have hN : cfg0.N = 25 := N_0
    have hB : ¬(⟨n + 1, hn⟩ : Fin cfg0.N).val % 25 = 0 := by dsimp only; omega
    have hs := at_B V c ⟨n + 1, hn⟩ hB j
    have ih := outs_eq c n (Nat.lt_of_succ_lt hn) j
    rw [Finset.sum_range_succ _ (n + 1), Finset.sum_range_succ _ (n + 1)]
    exact ⟨hs.1.trans (congrArg (· + _) ih.1), hs.2.trans (congrArg (· + _) ih.2)⟩

/-! ## From the last point to the output arrays -/

/-- The last point. -/
def tLast : Fin cfg0.N := ⟨24, by rw [show cfg0.N = 25 from N_0]; decide⟩

theorem geo0_5 : ∀ t : Fin cfg0.N, ∀ a : Fin 2, win0_5.index t a * win0_5.size a = 0 ∧ win0_5.xsize (grid0.coords t) a = 1 :=
  (by decide +kernel : ∀ t : Fin grid0.N, ∀ a : Fin 2, win0_5.index t a * win0_5.size a = 0 ∧ win0_5.xsize (grid0.coords t) a = 1)
theorem geo0_6 : ∀ t : Fin cfg0.N, ∀ a : Fin 2, win0_6.index t a * win0_6.size a = 0 ∧ win0_6.xsize (grid0.coords t) a = 1 :=
  (by decide +kernel : ∀ t : Fin grid0.N, ∀ a : Fin 2, win0_6.index t a * win0_6.size a = 0 ∧ win0_6.xsize (grid0.coords t) a = 1)

/-- A constant read through an output's block is that constant. -/
theorem read_const5 (t : Fin cfg0.N) (y : ((cfg0.win 5).xblock (cfg0.grid.coords t)).Idx) (T : EReal) :
    ((cfg0.win 5).blk t).view.read (Elt Ideal) (fun _ => T) y = T := by
  rw [View.read_apply]
  rfl

theorem read_const6 (t : Fin cfg0.N) (y : ((cfg0.win 6).xblock (cfg0.grid.coords t)).Idx) (T : EReal) :
    ((cfg0.win 6).blk t).view.read (Elt Ideal) (fun _ => T) y = T := by
  rw [View.read_apply]
  rfl

/-- What the one write-back of the first output writes is the constant total. -/
theorem flushed5 (c : Dev nD) (t : Fin cfg0.N) (hf : (cfg0.win 5).flush t = true) :
    (dat0 V c).flushed 5 t = ((cfg0.win 5).blk t).view.read (Elt Ideal) (fun _ => tot (KAct.X V c)) := by
  have h24 : t.val % 25 = 24 := (flush0_5 t).mp hf
  have hN := lt25 t
  funext y
  refine Eq.trans ?_ (read_const5 t y _).symm
  show ((dat0 V c).after 5 t) ((cfg0.win 5).xinj (cfg0.grid.coords t) y) = _
  rw [after0_5]
  refine ((outs_eq V c t.val t.isLt _).1).trans ?_
  rw [show t.val + 1 = 25 by omega]
  exact sum_tiles _

/-- What the one write-back of the second output writes is the constant total of squares. -/
theorem flushed6 (c : Dev nD) (t : Fin cfg0.N) (hf : (cfg0.win 6).flush t = true) :
    (dat0 V c).flushed 6 t = ((cfg0.win 6).blk t).view.read (Elt Ideal) (fun _ => totSq (KAct.X V c)) := by
  have h24 : t.val % 25 = 24 := (flush0_6 t).mp hf
  have hN := lt25 t
  funext y
  refine Eq.trans ?_ (read_const6 t y _).symm
  show ((dat0 V c).after 6 t) ((cfg0.win 6).xinj (cfg0.grid.coords t) y) = _
  rw [after0_6]
  refine ((outs_eq V c t.val t.isLt _).2).trans ?_
  rw [show t.val + 1 = 25 by omega]
  exact sum_tilesSq _

/-- The first output after the run: the sum of the activation over all rows and channels. -/
theorem sum_eq (c : Dev nD) (j : S1x1.Idx) :
    ((dat0 (F := Ideal) V c).arrAt 5 cfg0.N : S1x1.Idx → EReal) j = tot (KAct.X V c) := by
  have h := (dat0 (F := Ideal) V c).arrAt_eq_of_cover 5 (fun _ => tot (KAct.X V c)) (flushed5 V c) fun i =>
    ⟨tLast, (flush0_5 tLast).mpr rfl, by
      show i ∈ ((View.whole main_v42_0).slice (win0_5.rect tLast)).set
      rw [View.set_slice_whole, Rect.mem_set_unit]
      intro a
      have hi : (i a : Nat) < 1 := by
        match a with
        | ⟨0, _⟩ => exact (i 0).isLt
        | ⟨1, _⟩ => exact (i 1).isLt
      show win0_5.index tLast a * win0_5.size a ≤ (i a : Nat) ∧ (i a : Nat) < win0_5.index tLast a * win0_5.size a + win0_5.xsize (grid0.coords tLast) a
      rw [(geo0_5 tLast a).1, (geo0_5 tLast a).2]
      omega⟩
  exact congrFun h j

/-- The second output after the run: the sum of the squared activation over all rows and channels. -/
theorem sumsq_eq (c : Dev nD) (j : S1x1.Idx) :
    ((dat0 (F := Ideal) V c).arrAt 6 cfg0.N : S1x1.Idx → EReal) j = totSq (KAct.X V c) := by
  have h := (dat0 (F := Ideal) V c).arrAt_eq_of_cover 6 (fun _ => totSq (KAct.X V c)) (flushed6 V c) fun i =>
    ⟨tLast, (flush0_6 tLast).mpr rfl, by
      show i ∈ ((View.whole main_v42_1).slice (win0_6.rect tLast)).set
      rw [View.set_slice_whole, Rect.mem_set_unit]
      intro a
      have hi : (i a : Nat) < 1 := by
        match a with
        | ⟨0, _⟩ => exact (i 0).isLt
        | ⟨1, _⟩ => exact (i 1).isLt
      show win0_6.index tLast a * win0_6.size a ≤ (i a : Nat) ∧ (i a : Nat) < win0_6.index tLast a * win0_6.size a + win0_6.xsize (grid0.coords tLast) a
      rw [(geo0_6 tLast a).1, (geo0_6 tLast a).2]
      omega⟩
  exact congrFun h j

end Cert.KernelIdeal.Stats

end
-- ==== Proof.KPoolPay.lean ====
/-
  The three values the normalise-and-pool kernel stores, read entry by entry at the exact values.

  * the activation tile: entry (r, k) of relu((agg + feat · d) · w + b) on a block of 4000 rows;
  * the accumulator update: channel k of the new accumulator row is the old one plus the sum over the 4000 rows of the
    block of (x − mean) · factor · scale_k + shift_k;
  * the reset: every channel of the zero row is 0.
-/
import proofs.«123483_j33887291965745_2_alg».proof.Proof.Gen.KernelIdeal.Skeleton
import proofs.«123483_j33887291965745_2_alg».proof.Proof.LibRowOps
import Idealize.ShloMosaic.Lib.ValueIdx
import Idealize.ShloMosaic.Lib.ValueLayout
import Idealize.ShloMosaic.Lib.Pipeline.Value

noncomputable section

namespace Cert.KernelIdeal.Pool

open Idealize.ShloMosaic Idealize.ShloMosaic.ValueIdx Idealize.SL.Sem Cert.KernelIdeal Cert.KernelIdeal.Gen

/-- In a matrix reduced along its columns, column `k` with row `r` put back is the entry (r, k). -/
theorem lift_col {n m : Nat} (h : (⟨2, ![n, m]⟩ : Shape).Reduces [0] ⟨1, ![m]⟩) (k : Fin m) (r : Fin n) :
    h.lift (ix1 k) r = ix2 r k := by
  funext a; apply Fin.ext; fin_cases a <;> rfl

/-- The sum down the columns of a matrix, from the zero accumulator, at column `k`: the sum of the column's entries. -/
theorem vec_colSum {n m : Nat} (v : FVec Ideal ⟨2, ![n, m]⟩ .f32) (h : (⟨2, ![n, m]⟩ : Shape).Reduces [0] ⟨1, ![m]⟩)
    (hφ : FKind.Formats .f32) (hacc : (0x00000000#32 : BitVec 32) = 0x00000000#32) (k : Fin m) :
    multiReduction .add [0] ⟨1, ![m]⟩ v 0x00000000#32 h hφ hacc (ix1 k) = ∑ r : Fin n, v (ix2 r k) :=
  (Ideal.multiReduction_add_single v 0x00000000#32 h hφ hacc (ix1 k)).trans
    (Finset.sum_congr rfl fun r _ => congrArg v (lift_col h k r))

/-- A one-entry array broadcast to a matrix reads that entry everywhere. -/
theorem bcast11 {α : Type} {a b : Nat} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The accumulator update at channel `k`: the old value plus the block's column sum of the normalised, scaled and
    shifted tile. -/
theorem pay1_apply (v31 : FVec Ideal S4000x128 .f32) (v33 v35 : FVec Ideal S1x1 .f32) (v37 : FVec Ideal S1x128 .f32)
    (v38 v48 : Vec Ideal S1x128 .f32) (k : Fin 128) :
    k1_pay1 v31 v33 v35 v37 v38 v48 (ix2 (0 : Fin 1) k)
      = v48 (ix2 (0 : Fin 1) k) + ∑ r : Fin 4000,
          ((v31 (ix2 r k) - v33 (ix2 (0 : Fin 1) (0 : Fin 1))) * v35 (ix2 (0 : Fin 1) (0 : Fin 1)) * v37 (ix2 (0 : Fin 1) k)
            + v38 (ix2 (0 : Fin 1) k)) := by
  unfold k1_pay1
  refine (addf_apply _ _ _).trans ?_
  refine congrArg₂ (· + ·) (congrFun (shapeCast_self v48 _) _) ?_
  refine (shapeCast_a_1a_apply _ _ 0 k).trans ?_
  refine (vec_colSum _ _ _ _ k).trans ?_
  refine Finset.sum_congr rfl fun r _ => ?_
  refine (addf_apply _ _ _).trans ?_
  refine congrArg₂ (· + ·) ?_ ?_
  · refine (mulf_apply _ _ _).trans ?_
    refine congrArg₂ (· * ·) ?_ (broadcastTo_1b_ab_apply _ _ r k)
    refine (mulf_apply _ _ _).trans ?_
    refine congrArg₂ (· * ·) ?_ (bcast11 _ _ r k)
    refine (subf_apply _ _ _).trans ?_
    exact congrArg₂ (· - ·) rfl (bcast11 _ _ r k)
  · refine (broadcastTo_1b_ab_apply _ _ r k).trans ?_
    exact congrFun (shapeCast_self v38 _) _

/-- The reset row is zero at every channel. -/
theorem pay2_apply (j : S1x128.Idx) : k1_pay2 (F := Ideal) j = 0 := by
  unfold k1_pay2
  exact Ideal.ofBits_zero_f32

/-- The activation tile at (r, k). -/
theorem pay3_apply (x0 x1 : Vec Ideal S4000x2 .f32) (x2 : Vec Ideal S4000x1 .f32) (x3 : Vec Ideal S2x128 .f32)
    (x4 : Vec Ideal S1x128 .f32) (r : Fin 4000) (k : Fin 128) :
    k1_pay3 x0 x1 x2 x3 x4 (ix2 r k)
      = max (((x1 (ix2 r (0 : Fin 2)) + x0 (ix2 r (0 : Fin 2)) * x2 (ix2 r (0 : Fin 1))) * x3 (ix2 (0 : Fin 2) k)
              + (x1 (ix2 r (1 : Fin 2)) + x0 (ix2 r (1 : Fin 2)) * x2 (ix2 r (0 : Fin 1))) * x3 (ix2 (1 : Fin 2) k))
             + x4 (ix2 (0 : Fin 1) k)) 0 := by
  unfold k1_pay3
  refine (maximumf_apply _ _ _).trans ?_
  refine congrArg₂ max ?_ Ideal.ofBits_zero_f32
  refine (addf_apply _ _ _).trans ?_
  refine congrArg₂ (· + ·) ?_ ((broadcastTo_1b_ab_apply _ _ r k).trans (congrFun (shapeCast_self x4 _) _))
  refine (addf_apply _ _ _).trans ?_
  refine congrArg₂ (· + ·) ?_ ?_
  · refine (mulf_apply _ _ _).trans ?_
    refine congrArg₂ (· * ·) ?_ ?_
    · refine (Cert.Lib.RowOps.vec_colBroadcast _ _ r k).trans ?_
      refine (addf_apply _ _ _).trans ?_
      refine congrArg₂ (· + ·) ?_ ?_
      · refine (slice2_axis1_apply 0 _ _ r (0 : Fin 1) (0 : Fin 2) rfl).trans ?_
        exact congrFun (shapeCast_self x1 _) _
      · refine (mulf_apply _ _ _).trans ?_
        refine congrArg₂ (· * ·) (slice2_axis1_apply 0 _ _ r (0 : Fin 1) (0 : Fin 2) rfl) ?_
        exact congrFun (shapeCast_self x2 _) _
    · refine (broadcastTo_1b_ab_apply _ _ r k).trans ?_
      exact slice2_axis0_apply 0 _ _ (0 : Fin 1) k (0 : Fin 2) rfl
  · refine (mulf_apply _ _ _).trans ?_
    refine congrArg₂ (· * ·) ?_ ?_
    · refine (Cert.Lib.RowOps.vec_colBroadcast _ _ r k).trans ?_
      refine (addf_apply _ _ _).trans ?_
      refine congrArg₂ (· + ·) ?_ ?_
      · refine (slice2_axis1_apply 1 _ _ r (0 : Fin 1) (1 : Fin 2) rfl).trans ?_
        exact congrFun (shapeCast_self x1 _) _
      · refine (mulf_apply _ _ _).trans ?_
        refine congrArg₂ (· * ·) (slice2_axis1_apply 1 _ _ r (0 : Fin 1) (1 : Fin 2) rfl) ?_
        exact congrFun (shapeCast_self x2 _) _
    · refine (broadcastTo_1b_ab_apply _ _ r k).trans ?_
      exact slice2_axis0_apply 1 _ _ (0 : Fin 1) k (1 : Fin 2) rfl

end Cert.KernelIdeal.Pool

end
-- ==== Proof.KPoolRun.lean ====
/-
  The pooled row the normalise-and-pool kernel leaves, as a function of the arrays it finds.

  The kernel visits 25 row tiles of 4000 nodes.  At the first tile it zeroes its [1, 128] accumulator row, and at every
  tile it adds to channel k of that row the sum over the tile's nodes of (x − mean) · factor · scale_k + shift_k, where
  x is the rectified graph convolution recomputed on the tile.  So after tile n the row holds the sum over the nodes of
  tiles 0 … n, and after the last tile the sum over all 100000 nodes: addition of extended reals is commutative and
  associative, and 25 · 4000 = 100000.  The row is written back once, after the last tile, and is the whole result array.
-/
import proofs.«123483_j33887291965745_2_alg».proof.Proof.Gen.KernelIdeal.Frame
import proofs.«123483_j33887291965745_2_alg».proof.Proof.KPoolPay
import proofs.«123483_j33887291965745_2_alg».proof.Proof.KAct
import proofs.«123483_j33887291965745_2_alg».proof.Proof.Spec
import proofs.«123483_j33887291965745_2_alg».proof.Proof.LibBlockSum
import Idealize.ShloMosaic.Lib.Pipeline.Value
import Idealize.ShloMosaic.Lib.Tactic

noncomputable section

namespace Cert.KernelIdeal.Pool

open Idealize.ShloMosaic Idealize.ShloMosaic.TcCoe Idealize.ShloMosaic.ValueIdx Idealize.SL.Sem Cert.KernelIdeal Cert.KernelIdeal.Gen
open Idealize.ShloMosaic.Pipeline (Dat)

/-! ## What one tile leaves in the accumulator row, for any float values -/

section Pieces
variable {F : FTy → Type} [FloatOps F]

theorem hz : (![0, 0] : Fin 2 → Nat) = fun _ => 0 := funext fun a => by fin_cases a <;> rfl

/-- A later tile: the old accumulator row plus the tile's contribution. -/
theorem out_B (c : Dev nD) (i : grid1.Coords) (a1 : Memref sig .tc .vmem S4000x2 .f32) (h1 : a1.IsWhole) (a2 : Memref sig .tc .vmem S4000x2 .f32) (h2 : a2.IsWhole) (a3 : Memref sig .tc .vmem S4000x1 .f32) (h3 : a3.IsWhole) (a4 : Memref sig .tc .vmem S2x128 .f32) (h4 : a4.IsWhole) (a5 : Memref sig .tc .vmem S1x128 .f32) (h5 : a5.IsWhole) (a6 : Memref sig .tc .vmem S1x1 .f32) (h6 : a6.IsWhole) (a7 : Memref sig .tc .vmem S1x1 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S4000x2 .f32) (x1 : Vec F S4000x2 .f32) (x2 : Vec F S4000x1 .f32) (x3 : Vec F S2x128 .f32) (x4 : Vec F S1x128 .f32) (x5 : Vec F S1x1 .f32) (x6 : Vec F S1x1 .f32) (x7 : Vec F S1x128 .f32) (x8 : Vec F S1x128 .f32) (xo : Vec F S1x128 .f32) :
    out1_B_9 c i a1 h1 a2 h2 a3 h3 a4 h4 a5 h5 a6 h6 a7 h7 a8 h8 a9 h9 a10 h10 hc x0 x1 x2 x3 x4 x5 x6 x7 x8 xo
      = k1_pay1 (k1_pay3 x0 x1 x2 x3 x4) (k1_pay4 x5) (k1_pay5 x6) (k1_pay6 x7) x8 xo := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 x7 x8 xo)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S4000x2) hz, View.ld_unit_zero (S := S4000x1) hz, View.ld_unit_zero (S := S2x128) hz, View.ld_unit_zero (S := S1x128) hz, View.ld_unit_zero (S := S1x1) hz, h10.read_unread]

/-- The first tile: the zero row plus the tile's contribution. -/
theorem out_A (c : Dev nD) (i : grid1.Coords) (a1 : Memref sig .tc .vmem S4000x2 .f32) (h1 : a1.IsWhole) (a2 : Memref sig .tc .vmem S4000x2 .f32) (h2 : a2.IsWhole) (a3 : Memref sig .tc .vmem S4000x1 .f32) (h3 : a3.IsWhole) (a4 : Memref sig .tc .vmem S2x128 .f32) (h4 : a4.IsWhole) (a5 : Memref sig .tc .vmem S1x128 .f32) (h5 : a5.IsWhole) (a6 : Memref sig .tc .vmem S1x1 .f32) (h6 : a6.IsWhole) (a7 : Memref sig .tc .vmem S1x1 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S4000x2 .f32) (x1 : Vec F S4000x2 .f32) (x2 : Vec F S4000x1 .f32) (x3 : Vec F S2x128 .f32) (x4 : Vec F S1x128 .f32) (x5 : Vec F S1x1 .f32) (x6 : Vec F S1x1 .f32) (x7 : Vec F S1x128 .f32) (x8 : Vec F S1x128 .f32) :
    out1_A_9 c i a1 h1 a2 h2 a3 h3 a4 h4 a5 h5 a6 h6 a7 h7 a8 h8 a9 h9 a10 h10 hc x0 x1 x2 x3 x4 x5 x6 x7 x8
      = k1_pay1 (k1_pay3 x0 x1 x2 x3 x4) (k1_pay4 x5) (k1_pay5 x6) (k1_pay6 x7) x8 (k1_pay2 (F := F)) := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6 x7 x8)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S4000x2) hz, View.ld_unit_zero (S := S4000x1) hz, View.ld_unit_zero (S := S2x128) hz, View.ld_unit_zero (S := S1x128) hz, View.ld_unit_zero (S := S1x1) hz]

theorem pay4_eq (v : Vec F S1x1 .f32) : k1_pay4 v = v := by unfold k1_pay4; exact shapeCast_self v _
theorem pay5_eq (v : Vec F S1x1 .f32) : k1_pay5 v = v := by unfold k1_pay5; exact shapeCast_self v _
theorem pay6_eq (v : Vec F S1x128 .f32) : k1_pay6 v = v := by unfold k1_pay6; exact shapeCast_self v _

variable (V : (c : Dev nD) → (b : Ref sig .tc) → Buf (Elt F) ((c : Thread nD τ).loc b))

/-! ## The tiles the windows read: rows t · 4000 … of the node arrays, the small arrays whole -/

theorem iblk_0 (c : Dev nD) (t : Fin cfg1.N) (r : Fin 4000) (j : Fin 2) (n : Fin 100000) (hn : n.val = t.val * 4000 + r.val) :
    (iblk1 V c 0 t : Vec F S4000x2 .f32) (ix2 r j) = (V c main_arg0 : S100000x2.Idx → Elt F .f32) (ix2 n j) := by
  have hi := (by decide +kernel : ∀ t : Fin grid1.N, win1_0.index t (0 : Fin 2) = t.val ∧ win1_0.index t (1 : Fin 2) = 0) t
  unfold iblk1
  rw [View.read_apply]
  show V c main_arg0 _ = V c main_arg0 _
  congr 1
  funext a
  apply Fin.ext
  match a with
  | ⟨0, _⟩ => show win1_0.index t 0 * 4000 + 1 * r.val = n.val; rw [hi.1, hn]; omega
  | ⟨1, _⟩ => show win1_0.index t 1 * 2 + 1 * j.val = j.val; rw [hi.2]; omega

theorem iblk_1 (c : Dev nD) (t : Fin cfg1.N) (r : Fin 4000) (j : Fin 2) (n : Fin 100000) (hn : n.val = t.val * 4000 + r.val) :
    (iblk1 V c 1 t : Vec F S4000x2 .f32) (ix2 r j) = (V c main_v40 : S100000x2.Idx → Elt F .f32) (ix2 n j) := by
  have hi := (by decide +kernel : ∀ t : Fin grid1.N, win1_1.index t (0 : Fin 2) = t.val ∧ win1_1.index t (1 : Fin 2) = 0) t
  unfold iblk1
  rw [View.read_apply]
  show V c main_v40 _ = V c main_v40 _
  congr 1
  funext a
  apply Fin.ext
  match a with
  | ⟨0, _⟩ => show win1_1.index t 0 * 4000 + 1 * r.val = n.val; rw [hi.1, hn]; omega
  | ⟨1, _⟩ => show win1_1.index t 1 * 2 + 1 * j.val = j.val; rw [hi.2]; omega

theorem iblk_2 (c : Dev nD) (t : Fin cfg1.N) (r : Fin 4000) (j : Fin 1) (n : Fin 100000) (hn : n.val = t.val * 4000 + r.val) :
    (iblk1 V c 2 t : Vec F S4000x1 .f32) (ix2 r j) = (V c main_v12 : S100000x1.Idx → Elt F .f32) (ix2 n j) := by
  have hi := (by decide +kernel : ∀ t : Fin grid1.N, win1_2.index t (0 : Fin 2) = t.val ∧ win1_2.index t (1 : Fin 2) = 0) t
  unfold iblk1
  rw [View.read_apply]
  show V c main_v12 _ = V c main_v12 _
  congr 1
  funext a
  apply Fin.ext
  match a with
  | ⟨0, _⟩ => show win1_2.index t 0 * 4000 + 1 * r.val = n.val; rw [hi.1, hn]; omega
  | ⟨1, _⟩ => show win1_2.index t 1 * 1 + 1 * j.val = j.val; rw [hi.2]; omega

theorem iblk_3 (c : Dev nD) (t : Fin cfg1.N) (r : Fin 2) (j : Fin 128) :
    (iblk1 V c 3 t : Vec F S2x128 .f32) (ix2 r j) = (V c main_arg3 : S2x128.Idx → Elt F .f32) (ix2 r j) := by
  have hi := (by decide +kernel : ∀ t : Fin grid1.N, win1_3.index t (0 : Fin 2) = 0 ∧ win1_3.index t (1 : Fin 2) = 0) t
  unfold iblk1
  rw [View.read_apply]
  show V c main_arg3 _ = V c main_arg3 _
  congr 1
  funext a
  apply Fin.ext
  match a with
  | ⟨0, _⟩ => show win1_3.index t 0 * 2 + 1 * r.val = r.val; rw [hi.1]; omega
  | ⟨1, _⟩ => show win1_3.index t 1 * 128 + 1 * j.val = j.val; rw [hi.2]; omega

theorem iblk_4 (c : Dev nD) (t : Fin cfg1.N) (r : Fin 1) (j : Fin 128) :
    (iblk1 V c 4 t : Vec F S1x128 .f32) (ix2 r j) = (V c main_v41 : S1x128.Idx → Elt F .f32) (ix2 r j) := by
  have hi := (by decide +kernel : ∀ t : Fin grid1.N, win1_4.index t (0 : Fin 2) = 0 ∧ win1_4.index t (1 : Fin 2) = 0) t
  unfold iblk1
  rw [View.read_apply]
  show V c main_v41 _ = V c main_v41 _
  congr 1
  funext a
  apply Fin.ext
  match a with
  | ⟨0, _⟩ => show win1_4.index t 0 * 1 + 1 * r.val = r.val; rw [hi.1]; omega
  | ⟨1, _⟩ => show win1_4.index t 1 * 128 + 1 * j.val = j.val; rw [hi.2]; omega

theorem iblk_5 (c : Dev nD) (t : Fin cfg1.N) (r : Fin 1) (j : Fin 1) :
    (iblk1 V c 5 t : Vec F S1x1 .f32) (ix2 r j) = (V c main_v44 : S1x1.Idx → Elt F .f32) (ix2 r j) := by
  have hi := (by decide +kernel : ∀ t : Fin grid1.N, win1_5.index t (0 : Fin 2) = 0 ∧ win1_5.index t (1 : Fin 2) = 0) t
  unfold iblk1
  rw [View.read_apply]
  show V c main_v44 _ = V c main_v44 _
  congr 1
  funext a
  apply Fin.ext
  match a with
  | ⟨0, _⟩ => show win1_5.index t 0 * 1 + 1 * r.val = r.val; rw [hi.1]; omega
  | ⟨1, _⟩ => show win1_5.index t 1 * 1 + 1 * j.val = j.val; rw [hi.2]; omega

theorem iblk_6 (c : Dev nD) (t : Fin cfg1.N) (r : Fin 1) (j : Fin 1) :
    (iblk1 V c 6 t : Vec F S1x1 .f32) (ix2 r j) = (V c main_v53 : S1x1.Idx → Elt F .f32) (ix2 r j) := by
  have hi := (by decide +kernel : ∀ t : Fin grid1.N, win1_6.index t (0 : Fin 2) = 0 ∧ win1_6.index t (1 : Fin 2) = 0) t
  unfold iblk1
  rw [View.read_apply]
  show V c main_v53 _ = V c main_v53 _
  congr 1
  funext a
  apply Fin.ext
  match a with
  | ⟨0, _⟩ => show win1_6.index t 0 * 1 + 1 * r.val = r.val; rw [hi.1]; omega
  | ⟨1, _⟩ => show win1_6.index t 1 * 1 + 1 * j.val = j.val; rw [hi.2]; omega

theorem iblk_7 (c : Dev nD) (t : Fin cfg1.N) (r : Fin 1) (j : Fin 128) :
    (iblk1 V c 7 t : Vec F S1x128 .f32) (ix2 r j) = (V c main_v54 : S1x128.Idx → Elt F .f32) (ix2 r j) := by
  have hi := (by decide +kernel : ∀ t : Fin grid1.N, win1_7.index t (0 : Fin 2) = 0 ∧ win1_7.index t (1 : Fin 2) = 0) t
  unfold iblk1
  rw [View.read_apply]
  show V c main_v54 _ = V c main_v54 _
  congr 1
  funext a
  apply Fin.ext
  match a with
  | ⟨0, _⟩ => show win1_7.index t 0 * 1 + 1 * r.val = r.val; rw [hi.1]; omega
  | ⟨1, _⟩ => show win1_7.index t 1 * 128 + 1 * j.val = j.val; rw [hi.2]; omega

theorem iblk_8 (c : Dev nD) (t : Fin cfg1.N) (r : Fin 1) (j : Fin 128) :
    (iblk1 V c 8 t : Vec F S1x128 .f32) (ix2 r j) = (V c main_v55 : S1x128.Idx → Elt F .f32) (ix2 r j) := by
  have hi := (by decide +kernel : ∀ t : Fin grid1.N, win1_8.index t (0 : Fin 2) = 0 ∧ win1_8.index t (1 : Fin 2) = 0) t
  unfold iblk1
  rw [View.read_apply]
  show V c main_v55 _ = V c main_v55 _
  congr 1
  funext a
  apply Fin.ext
  match a with
  | ⟨0, _⟩ => show win1_8.index t 0 * 1 + 1 * r.val = r.val; rw [hi.1]; omega
  | ⟨1, _⟩ => show win1_8.index t 1 * 128 + 1 * j.val = j.val; rw [hi.2]; omega

/-- The accumulator row after the first tile. -/
theorem outsAt_first (c : Dev nD) (t : Fin cfg1.N) (h0 : t.val % 25 = 0) :
    outsAt1 V c t.val t.isLt = k1_pay1 (k1_pay3 (iblk1 V c 0 t) (iblk1 V c 1 t) (iblk1 V c 2 t) (iblk1 V c 3 t) (iblk1 V c 4 t)) (k1_pay4 (iblk1 V c 5 t)) (k1_pay5 (iblk1 V c 6 t)) (k1_pay6 (iblk1 V c 7 t)) (iblk1 V c 8 t) (k1_pay2 (F := F)) :=
  (outsAt1_A V c t h0).trans
    (out_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t))

/-- The accumulator row after a later tile, from the row after the tile before. -/
theorem outsAt_next (c : Dev nD) (t : Fin cfg1.N) (h0 : ¬t.val % 25 = 0) :
    outsAt1 V c t.val t.isLt
      = k1_pay1 (k1_pay3 (iblk1 V c 0 t) (iblk1 V c 1 t) (iblk1 V c 2 t) (iblk1 V c 3 t) (iblk1 V c 4 t)) (k1_pay4 (iblk1 V c 5 t)) (k1_pay5 (iblk1 V c 6 t)) (k1_pay6 (iblk1 V c 7 t)) (iblk1 V c 8 t) (outsAt1 V c (t.val - 1) (Nat.lt_of_le_of_lt (Nat.sub_le _ _) t.isLt)) :=
  (outsAt1_B V c t h0).trans
    (out_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _)

end Pieces

end Cert.KernelIdeal.Pool

end
-- ==== Proof.KPool.lean ====
/-
  The pooled row the normalise-and-pool kernel leaves, at the exact values: channel k of the result array is the sum
  over all 100000 nodes of (x − mean) · factor · scale_k + shift_k, where x is the rectified graph convolution of the
  arrays the kernel finds, and mean, factor, scale and shift are read off the small arrays it finds.

  After tile n the accumulator row holds the sum over the nodes of tiles 0 … n (induction on the tile; the first tile
  starts from the zero row).  The sum over tiles 0 … 24 of the sums over the 4000 nodes of each is the sum over all
  nodes, since 25 · 4000 = 100000.  The row is written back once, after the last tile, and is the whole array.
-/
import proofs.«123483_j33887291965745_2_alg».proof.Proof.KPoolRun

noncomputable section

namespace Cert.KernelIdeal.Pool

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- Node n's contribution to channel k. -/
def term (c : Dev nD) (n : Fin 100000) (k : Fin 128) : EReal :=
  (KAct.X V c n k - (V c main_v44 : S1x1.Idx → EReal) (ix2 0 0)) * (V c main_v53 : S1x1.Idx → EReal) (ix2 0 0)
    * (V c main_v54 : S1x128.Idx → EReal) (ix2 0 k) + (V c main_v55 : S1x128.Idx → EReal) (ix2 0 k)

/-- The same, over the naturals (zero past the last node). -/
def termN (c : Dev nD) (m : ℕ) (k : Fin 128) : EReal := if h : m < 100000 then term V c ⟨m, h⟩ k else 0

/-- One tile's update of the accumulator row at channel k. -/
theorem tile_eq (c : Dev nD) (t : Fin cfg1.N) (acc : Vec Ideal S1x128 .f32) (k : Fin 128) :
    (k1_pay1 (k1_pay3 (iblk1 V c 0 t) (iblk1 V c 1 t) (iblk1 V c 2 t) (iblk1 V c 3 t) (iblk1 V c 4 t)) (k1_pay4 (iblk1 V c 5 t)) (k1_pay5 (iblk1 V c 6 t)) (k1_pay6 (iblk1 V c 7 t)) (iblk1 V c 8 t) acc) (ix2 (0 : Fin 1) k)
      = acc (ix2 (0 : Fin 1) k) + ∑ r : Fin 4000, termN V c (t.val * 4000 + r.val) k := by
  have hN : t.val < 25 := lt_of_lt_of_eq t.isLt (show cfg1.N = 25 from N_1)
  refine (pay1_apply _ _ _ _ _ _ k).trans ?_
  refine congrArg (acc (ix2 (0 : Fin 1) k) + ·) (Finset.sum_congr rfl fun r _ => ?_)
  have hlt : t.val * 4000 + r.val < 100000 := by have := r.isLt; omega
  unfold termN
  rw [dif_pos hlt, pay4_eq, pay5_eq, pay6_eq, pay3_apply]
  rw [iblk_0 V c t r 0 ⟨_, hlt⟩ rfl, iblk_0 V c t r 1 ⟨_, hlt⟩ rfl, iblk_1 V c t r 0 ⟨_, hlt⟩ rfl, iblk_1 V c t r 1 ⟨_, hlt⟩ rfl,
    iblk_2 V c t r 0 ⟨_, hlt⟩ rfl, iblk_3 V c t 0 k, iblk_3 V c t 1 k, iblk_4 V c t 0 k, iblk_5 V c t 0 0, iblk_6 V c t 0 0,
    iblk_7 V c t 0 k, iblk_8 V c t 0 k]
  rfl

/-- After tile n the accumulator row holds the contributions of the nodes of tiles 0 … n. -/
theorem outsAt_eq (c : Dev nD) (k : Fin 128) : ∀ (n : ℕ) (hn : n < cfg1.N),
    outsAt1 V c n hn (ix2 (0 : Fin 1) k) = ∑ t ∈ Finset.range (n + 1), ∑ r : Fin 4000, termN V c (t * 4000 + r.val) k
  | 0, hn => by
    rw [outsAt_first V c ⟨0, hn⟩ rfl, tile_eq V c ⟨0, hn⟩ _ k, pay2_apply, zero_add, Finset.sum_range_one]
  | n + 1, hn => by
    have hN : cfg1.N = 25 := N_1
    have hB : ¬(⟨n + 1, hn⟩ : Fin cfg1.N).val % 25 = 0 := by dsimp only; omega
    rw [outsAt_next V c ⟨n + 1, hn⟩ hB, tile_eq V c ⟨n + 1, hn⟩ _ k, Finset.sum_range_succ _ (n + 1)]
    exact congrArg (· + _) (outsAt_eq c k n (Nat.lt_of_succ_lt hn))

/-! ## From the last tile to the result array -/

/-- The last tile. -/
def tLast : Fin cfg1.N := ⟨24, by rw [show cfg1.N = 25 from N_1]; decide⟩

/-- The one write-back, after the last tile, writes the accumulator row as that tile leaves it: the row is block (0, 0)
    of the [1, 128] result array, which is the whole array. -/
theorem flushed_eq (c : Dev nD) (t : Fin cfg1.N) (hf : (cfg1.win 9).flush t = true) :
    (dat1 V c).flushed 9 t = ((cfg1.win 9).blk t).view.read (Elt Ideal) (outsAt1 V c 24 tLast.isLt) := by
  have hN : cfg1.N = 25 := N_1
  have h24 : t.val = 24 := by have := (flush1_9 t).mp hf; have := t.isLt; omega
  obtain rfl : t = tLast := Fin.ext h24
  show (cfg1.win 9).cut (grid1.coords tLast) ((dat1 V c).after 9 tLast) = _
  rw [after1_9]
  have hz' : (fun a => win1_9.index tLast a * main_v56.ty.shape.size a) = fun _ => 0 := funext fun a => by fin_cases a <;> decide +kernel
  exact (Memref.read_access_unit_zero (Elt Ideal) main_v56 hz' (fun a => by rw [congrFun hz' a]; simp) (outsAt1 V c 24 tLast.isLt)).symm

/-- So the result array ends holding the accumulator row after the last tile. -/
theorem final_o (c : Dev nD) : (dat1 V c).arrAt 9 cfg1.N = outsAt1 V c 24 tLast.isLt :=
  (dat1 V c).arrAt_eq_of_cover 9 (outsAt1 V c 24 tLast.isLt) (flushed_eq V c) fun i =>
    ⟨tLast, (flush1_9 tLast).mpr rfl, by
      show i ∈ ((View.whole main_v56).slice (win1_9.rect tLast)).set
      rw [View.set_slice_whole, Rect.mem_set_unit]
      intro a
      have h0 : (i 0 : Nat) < 1 := (i 0).isLt
      have h1 : (i 1 : Nat) < 128 := (i 1).isLt
      match a with
      | ⟨0, _⟩ => show win1_9.index tLast 0 * win1_9.size 0 ≤ (i 0 : Nat) ∧ (i 0 : Nat) < win1_9.index tLast 0 * win1_9.size 0 + win1_9.xsize (grid1.coords tLast) 0
                  rw [show win1_9.index tLast 0 * win1_9.size 0 = 0 from by decide +kernel, show win1_9.xsize (grid1.coords tLast) 0 = 1 from by decide +kernel]; omega
      | ⟨1, _⟩ => show win1_9.index tLast 1 * win1_9.size 1 ≤ (i 1 : Nat) ∧ (i 1 : Nat) < win1_9.index tLast 1 * win1_9.size 1 + win1_9.xsize (grid1.coords tLast) 1
                  rw [show win1_9.index tLast 1 * win1_9.size 1 = 0 from by decide +kernel, show win1_9.xsize (grid1.coords tLast) 1 = 128 from by decide +kernel]; omega⟩

/-- The result array at channel k: the sum over all nodes of the normalised, scaled and shifted activation. -/
theorem pooled_eq (c : Dev nD) (k : Fin 128) :
    ((Gen.dat1 (F := Ideal) V c).arrAt 9 cfg1.N) (ix2 (0 : Fin 1) k)
      = Cert.GcnPool.poolWith (KAct.X V c) ((V c main_v44 : S1x1.Idx → EReal) (ix2 0 0)) ((V c main_v53 : S1x1.Idx → EReal) (ix2 0 0))
          (fun k => (V c main_v54 : S1x128.Idx → EReal) (ix2 0 k)) (fun k => (V c main_v55 : S1x128.Idx → EReal) (ix2 0 k)) k := by
  refine (congrFun (final_o V c) _).trans ?_
  refine (outsAt_eq V c k 24 tLast.isLt).trans ?_
  unfold Cert.GcnPool.poolWith
  rw [Cert.LibBlockSum.sum_blocks (show 25 * 4000 = 100000 from rfl), Finset.sum_range]
  refine Finset.sum_congr rfl fun t _ => Finset.sum_congr rfl fun r _ => ?_
  have hlt : t.val * 4000 + r.val < 100000 := by have := t.isLt; have := r.isLt; omega
  unfold termN
  rw [dif_pos hlt]
  rfl

end Cert.KernelIdeal.Pool

end
-- ==== Proof.KValue.lean ====
/-
  The kernel program's pooled row as a function of the argument arrays.
  Both pallas_calls recompute the same activation x from the same five arrays; the first leaves the two moments Σx and
  Σx², the host turns them into the mean and the factor 1/(σ + ε), and the second leaves, per channel, the sum over the
  nodes of (x − mean) · factor · scale + shift.  With the host terms read at an index this is `poolK` of the activation
  in the kernel's arrangement (`actK`: the two raw channels aggregated over the edges first, projected after).
-/
import proofs.«123483_j33887291965745_2_alg».proof.Proof.KHost0
import proofs.«123483_j33887291965745_2_alg».proof.Proof.KHost1
import proofs.«123483_j33887291965745_2_alg».proof.Proof.KRead
import proofs.«123483_j33887291965745_2_alg».proof.Proof.KXm
import proofs.«123483_j33887291965745_2_alg».proof.Proof.KStats
import proofs.«123483_j33887291965745_2_alg».proof.Proof.KPool

noncomputable section

namespace Cert.KernelIdeal.KValue

open Idealize.ShloMosaic Idealize.ShloMosaic.TcCoe Idealize.ShloMosaic.ValueIdx Idealize.SL.Sem Cert.KernelIdeal Cert.KernelIdeal.Gen
open Cert.GcnPool Cert.KernelIdeal.KXm

variable (m : (ℓ : Loc nD τ sig) → Buf (Elt Idealize.ShloMosaic.Ideal) ℓ) (ρ : Dev nD → PrngReg) (c : Dev nD)

/-- What the first call finds is the activation of the arguments. -/
theorem X_first : KAct.X (V1 m ρ) c
    = Xm (m ((c : Thread nD τ).loc main_arg0)) (m ((c : Thread nD τ).loc main_arg1)) (m ((c : Thread nD τ).loc main_arg3))
        (m ((c : Thread nD τ).loc main_arg4)) := by
  unfold KAct.X Xm
  rw [KHost.V1_arg0, KHost.V1_arg3, KHost.V1_v40, KHost.V1_v12, KHost.V1_v41]
  funext n k
  unfold actK
  simp only [KRead.agg2_apply, KRead.dis2_apply, KRead.row_apply]

/-- The second call finds the same activation. -/
theorem X_second : KAct.X (V3 m ρ) c = KAct.X (V1 m ρ) c := by
  unfold KAct.X
  rw [KHost.V3_arg0, KHost.V3_v40, KHost.V3_v12, KHost.V3_arg3, KHost.V3_v41]

/-- The mean the second call is given. -/
theorem mean_eq : (V3 m ρ c main_v44 : S1x1.Idx → EReal) (ix2 (0 : Fin 1) (0 : Fin 1)) = meanK (KAct.X (V1 m ρ) c) := by
  rw [KHost.V3_v44, KRead.perEntry_apply, Stats.sum_eq]
  rfl

/-- The factor 1/(σ + ε) the second call is given. -/
theorem inv_eq : (V3 m ρ c main_v53 : S1x1.Idx → EReal) (ix2 (0 : Fin 1) (0 : Fin 1)) = invK (KAct.X (V1 m ρ) c) := by
  rw [KHost.V3_v53, KRead.invStd_apply, Stats.sum_eq, Stats.sumsq_eq]
  rfl

/-- The pooled row after the second call. -/
theorem pooled (k : Fin 128) :
    ((dat1 (V3 m ρ) c).arrAt 9 cfg1.N) (ix2 (0 : Fin 1) k)
      = poolK (Xm (m ((c : Thread nD τ).loc main_arg0)) (m ((c : Thread nD τ).loc main_arg1)) (m ((c : Thread nD τ).loc main_arg3))
            (m ((c : Thread nD τ).loc main_arg4)))
          (fun k => (m ((c : Thread nD τ).loc main_arg5) : S128.Idx → EReal) (ix1 k))
          (fun k => (m ((c : Thread nD τ).loc main_arg6) : S128.Idx → EReal) (ix1 k)) k := by
  rw [Pool.pooled_eq (V3 m ρ) c k, X_second, mean_eq, inv_eq, X_first, KHost.V3_v54, KHost.V3_v55]
  unfold poolK
  simp only [KRead.row_apply]

end Cert.KernelIdeal.KValue

end
-- ==== Proof.LibFinite.lean ====
/-
  FINITENESS ON THE EXTENDED REALS.  An entry is finite when it is a real number.  Sums, differences, products and
  maxima of finite entries are finite; a finite sum of finite entries is finite; the reciprocal square root of a
  positive real is finite; and  select (d > 0, rsqrt d, 0)  is finite for EVERY extended real d (the degree's
  reciprocal square root, guarded: at +∞ the reciprocal square root is 0, and where d is not positive the zero is
  taken).  An accumulating scatter into finite entries of finite updates is finite wherever the updates land, because
  each entry is the old entry plus a finite sum of updates.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, by simp⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max {x y : EReal} (hx : IsReal x) (hy : IsReal y) : IsReal (max x y) := by
  rcases le_total x y with h | h
  · rw [max_eq_right h]; exact hy
  · rw [max_eq_left h]; exact hx

/-- A finite sum of finite entries is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The float zero is finite. -/
theorem isReal_zeroWord : IsReal (Ideal.ofBits .f32 0x00000000#32) := by rw [Ideal.ofBits_zero_f32]; exact isReal_zero

/-- The float 1e-5 is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The reciprocal square root of a positive real is finite. -/
theorem isReal_rsqrt_pos {v : ℝ} (hv : 0 < v) : IsReal (Ideal.rsqrt (v : EReal)) := by
  rw [Ideal.rsqrt_coe, if_neg (not_lt.2 hv.le), if_neg hv.ne']
  exact ⟨_, rfl⟩

/-- A quotient of a real by the float 100000.0 is finite. -/
theorem isReal_div_1e5 {x : EReal} (hx : IsReal x) : IsReal (Ideal.div x (Ideal.ofBits .f32 0x47C35000#32)) := by
  obtain ⟨a, rfl⟩ := hx
  have h : Ideal.ofBits .f32 0x47C35000#32 = ((100000 : ℝ) : EReal) := by
    simp [Ideal.ofBits, Ideal.ieee, -EReal.coe_mul]; norm_num
  rw [h, Ideal.div_coe (by norm_num : (100000 : ℝ) ≠ 0), ← EReal.coe_mul]
  exact ⟨_, rfl⟩

/-- The guarded reciprocal square root is finite at every extended real. -/
theorem isReal_guarded (d z z' : EReal) (hz : z = 0) (hz' : IsReal z') :
    IsReal (Scalar.select (Ideal.cmp .ogt d z) (Ideal.rsqrt d) z') := by
  unfold Scalar.select
  split
  · rename_i h
    have hd : (0 : EReal) < d := by
      subst hz
      unfold Ideal.cmp at h
      by_contra hn
      simp [hn] at h
    induction d using EReal.rec with
    | bot => exact absurd hd (by simp)
    | top => rw [Ideal.rsqrt_top]; exact isReal_zero
    | coe r => exact isReal_rsqrt_pos (by exact_mod_cast hd)
  · exact hz'

/-- An accumulating scatter of finite updates into finite entries is finite. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- An extended real that is a nonnegative real number. -/
def IsNN (x : EReal) : Prop := ∃ r : ℝ, 0 ≤ r ∧ x = (r : EReal)

theorem IsNN.isReal {x : EReal} : IsNN x → IsReal x | ⟨r, _, h⟩ => ⟨r, h⟩

/-- The square of a finite entry is a nonnegative real. -/
theorem IsReal.mul_self {x : EReal} : IsReal x → IsNN (x * x)
  | ⟨a, ha⟩ => ⟨a * a, mul_self_nonneg a, by rw [ha, EReal.coe_mul]⟩

theorem IsNN.add {x y : EReal} : IsNN x → IsNN y → IsNN (x + y)
  | ⟨a, ha0, ha⟩, ⟨b, hb0, hb⟩ => ⟨a + b, add_nonneg ha0 hb0, by rw [ha, hb, EReal.coe_add]⟩

theorem isNN_zero : IsNN 0 := ⟨0, le_refl 0, by simp⟩
theorem isNN_zeroWord : IsNN (Ideal.ofBits .f32 0x00000000#32) := by rw [Ideal.ofBits_zero_f32]; exact isNN_zero

/-- A finite sum of nonnegative reals is a nonnegative real. -/
theorem isNN_sum {ι : Type*} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- A nonnegative real divided by the float 100000.0 is a nonnegative real. -/
theorem IsNN.div_1e5 {x : EReal} : IsNN x → IsNN (Ideal.div x (Ideal.ofBits .f32 0x47C35000#32))
  | ⟨a, ha0, ha⟩ => by
    have h : Ideal.ofBits .f32 0x47C35000#32 = ((100000 : ℝ) : EReal) := by
      simp [Ideal.ofBits, Ideal.ieee, -EReal.coe_mul]; norm_num
    rw [ha, h, Ideal.div_coe (by norm_num : (100000 : ℝ) ≠ 0), ← EReal.coe_mul]
    exact ⟨_, mul_nonneg ha0 (by norm_num), rfl⟩

/-- The reciprocal square root of a nonnegative real plus the float 1e-5 is finite. -/
theorem IsNN.rsqrt_add_eps {v : EReal} : IsNN v → IsReal (Ideal.rsqrt (v + Ideal.ofBits .f32 0x3727C5AC#32))
  | ⟨a, ha0, ha⟩ => by
    obtain ⟨e, he0, he⟩ := eps_pos
    rw [ha, he, ← EReal.coe_add]
    exact isReal_rsqrt_pos (by linarith)

/-! ## Whole arrays of finite entries -/

/-- Every entry is finite. -/
def AllReal {ι : Type} (f : ι → EReal) : Prop := ∀ i, IsReal (f i)

/-- A broadcast's entries are entries of its operand. -/
theorem AllReal.bcast {s t : Shape} {x : s.Idx → EReal} (hx : AllReal x) (dims : Fin s.rank → Fin t.rank)
    (h : s.BroadcastsInDim t dims) : AllReal (broadcastInDim t dims h x) := fun _ => hx _

/-- A gather's entries are entries of its operand. -/
theorem AllReal.gather {s si t : Shape} {w : Nat} {x : s.Idx → EReal} (hx : AllReal x) (d : GatherDims s si t) (idx : IVec si w) :
    AllReal (Host.gather d x idx) := fun _ => hx _

/-- A reshape's entries are entries of its operand. -/
theorem AllReal.cast {s t : Shape} {x : s.Idx → EReal} (hx : AllReal x) (h : s.ShapeCasts t) : AllReal (shapeCast t x h) :=
  fun _ => hx _

theorem AllReal.mulf {s : Shape} {φ : FTy} {x y : FVec Ideal s φ} (hx : AllReal x) (hy : AllReal y) : AllReal (mulf x y) :=
  fun i => (hx i).mul (hy i)
theorem AllReal.addf {s : Shape} {φ : FTy} {x y : FVec Ideal s φ} (hx : AllReal x) (hy : AllReal y) : AllReal (addf x y) :=
  fun i => (hx i).add (hy i)

/-- The zero array. -/
theorem allReal_zeros {s : Shape} (dims : Fin (⟨0, ![]⟩ : Shape).rank → Fin s.rank) (h : (⟨0, ![]⟩ : Shape).BroadcastsInDim s dims) :
    AllReal (broadcastInDim s dims h (constant (F := Ideal) ⟨0, ![]⟩ .f32 0x00000000#32)) :=
  fun _ => isReal_zeroWord

/-- An accumulating scatter of finite updates into finite entries. -/
theorem AllReal.scatterAdd {s si su : Shape} {w : Nat} {x : FVec Ideal s .f32} {u : FVec Ideal su .f32} (hx : AllReal x) (hu : AllReal u)
    (d : ScatterDims s si su) (idx : IVec si w) : AllReal (Host.scatterAdd d x idx u) :=
  fun i => isReal_scatterAdd d x idx u hx hu i

/-- A matrix product (any contraction) of finite arrays. -/
theorem AllReal.dot {sl sr so : Shape} {φ₁ φ₂ : FTy} {a : FVec Ideal sl φ₁} {b : FVec Ideal sr φ₂} (ha : AllReal a) (hb : AllReal b)
    (d : DotDims sl sr so) (prec : Option ContractPrecision) : AllReal (Host.dotGeneral d prec a b) := fun j => by
  show IsReal (FloatOps.dotGeneral d prec .single a b j)
  rw [Ideal.dotGeneral_apply]
  exact isReal_sum _ _ fun k _ => (ha _).mul (hb _)

/-- The guarded reciprocal square root of ANY array: select (deg > 0, rsqrt deg, 0). -/
theorem allReal_guard {s : Shape} (deg z z' : FVec Ideal s .f32) (hz : ∀ i, z i = 0) (hz' : AllReal z') :
    AllReal (select (cmpf .ogt deg z) (Host.rsqrt deg) z') := fun i =>
  isReal_guarded (deg i) (z i) (z' i) (hz i) (hz' i)

end Cert.Finite

end
-- ==== Proof.KReal.lean ====
/-
  FINITENESS OF THE DEGREE WEIGHTS.  The degree of a node is 1 plus the number of edges landing on it: an accumulating
  scatter of ones into zeros, which is zero plus a finite sum of ones, a nonnegative real, plus one more.  So the degree
  is a real number >= 1 > 0 whatever the edge index holds, its reciprocal square root is a real number, and the
  per-edge weight, a product of two entries of that array read through gathers, is a real number.
-/
import proofs.«123483_j33887291965745_2_alg».proof.Proof.KVal
import proofs.«123483_j33887291965745_2_alg».proof.Proof.LibFinite

noncomputable section

open scoped BigOperators

namespace Cert.KernelIdeal.KReal

open Idealize.ShloMosaic Cert.KernelIdeal Cert.Finite

/-- An accumulating scatter of nonnegative reals into nonnegative reals is a nonnegative real at every entry. -/
theorem isNN_scatterAdd {s si su : Shape} (d : ScatterDims s si su) {w : Nat} (x : s.Idx → EReal) (idx : IVec si w)
    (upd : su.Idx → EReal) (hx : ∀ i, IsNN (x i)) (hu : ∀ j, IsNN (upd j)) (i : s.Idx) :
    IsNN (Ideal.hostScatterAdd d x idx upd i) := by
  unfold Ideal.hostScatterAdd
  exact (hx i).add (isNN_sum _ _ fun j _ => hu j)

/-- The float word of 1.0 is the real 1. -/
theorem oneWord : Ideal.ofBits .f32 0x3F800000#32 = ((1 : ℝ) : EReal) := by
  simp [Ideal.ofBits, Ideal.ieee, -EReal.coe_mul]; norm_num

/-- A nonnegative real plus one is a positive real. -/
theorem addf_one_pos {s : Shape} (x one : FVec Ideal s .f32) (hx : ∀ i, IsNN (x i)) (h1 : ∀ i, one i = ((1 : ℝ) : EReal))
    (i : s.Idx) : ∃ v : ℝ, 0 < v ∧ addf x one i = (v : EReal) := by
  obtain ⟨a, ha0, ha⟩ := hx i
  refine ⟨a + 1, by linarith, ?_⟩
  show x i + one i = _
  rw [ha, h1 i, ← EReal.coe_add]

/-- The host's accumulating scatter, in the spelling the program uses. -/
theorem isNN_hostScatter {s si su : Shape} {w : Nat} {x : FVec Ideal s .f32} {u : FVec Ideal su .f32}
    (hx : ∀ i, IsNN (x i)) (hu : ∀ j, IsNN (u j)) (d : ScatterDims s si su) (idx : IVec si w) (i : s.Idx) :
    IsNN (Host.scatterAdd d x idx u i) :=
  isNN_scatterAdd d x idx u hx hu i

/-- An entry of a broadcast scalar constant is the constant. -/
theorem bcast_const_apply {s : Shape} (dims : Fin (⟨0, ![]⟩ : Shape).rank → Fin s.rank)
    (h : (⟨0, ![]⟩ : Shape).BroadcastsInDim s dims) (w : BitVec 32) (i : s.Idx) :
    broadcastInDim s dims h (constant (F := Ideal) ⟨0, ![]⟩ .f32 w) i = Ideal.ofBits .f32 w := rfl

/-- The degree is a positive real. -/
theorem deg_pos (ei : KVal.IA S2x1600000) (i : S100000.Idx) : ∃ v : ℝ, 0 < v ∧ KVal.deg ei i = (v : EReal) := by
  unfold KVal.deg
  refine addf_one_pos _ _ (fun i => ?_) (fun i => ?_) i
  · refine isNN_hostScatter ?_ ?_ _ _ i
    · intro i
      rw [bcast_const_apply]
      exact isNN_zeroWord
    · intro j
      rw [bcast_const_apply]
      exact ⟨1, zero_le_one, oneWord⟩
  · rw [bcast_const_apply]
    exact oneWord

/-- An entry of the host's reciprocal square root of an array is the reciprocal square root of the entry. -/
theorem hostRsqrt_apply {s : Shape} (x : FVec Ideal s .f32) (i : s.Idx) : Host.rsqrt x i = Ideal.rsqrt (x i) := rfl

/-- deg^(-1/2) is a real number at every node. -/
theorem dis_real (ei : KVal.IA S2x1600000) (i : S100000.Idx) : IsReal (KVal.dis ei i) := by
  obtain ⟨v, hv, h⟩ := deg_pos ei i
  unfold KVal.dis
  rw [hostRsqrt_apply, h]
  exact isReal_rsqrt_pos hv

/-- The per-edge weight is a real number at every edge. -/
theorem norm_real (ei : KVal.IA S2x1600000) (i : S1600000.Idx) : IsReal (KVal.norm ei i) := by
  have hd : AllReal (KVal.dis ei) := dis_real ei
  unfold KVal.norm
  exact AllReal.mulf (AllReal.gather hd _ _) (AllReal.gather hd _ _) i

end Cert.KernelIdeal.KReal

end
-- ==== Proof.KPre.lean ====
/-
  FROM THE PRECONDITION TO "EVERY ENTRY IS A REAL NUMBER".  The precondition is the conjunction, over the ten float
  arguments, of  all(|x| < +inf).  A conjunction of one-bit words is 1 only if both are; an "all" is 1 only if every
  compared entry gave 1; and  max x (-x) < +inf  on the extended reals excludes both infinities, so x is a real number.
  Read off here for the node features, the convolution weights and the convolution bias.
-/
import proofs.«123483_j33887291965745_2_alg».proof.Defs
import proofs.«123483_j33887291965745_2_alg».proof.Proof.LibFinite
import Idealize.ShloMosaic.Lib.ReduceAll
import Idealize.ShloMosaic.Lib.ValueIdx

noncomputable section

namespace Cert.KernelIdeal.KPre

open Idealize.ShloMosaic Idealize.SL.Sem Cert.Finite

instance : Subsingleton (⟨0, ![]⟩ : Shape).Idx := ⟨fun _ _ => funext fun d => d.elim0⟩

/-- The float word 0x7F800000 is +inf. -/
theorem infWord : Ideal.ofBits .f32 0x7F800000#32 = ⊤ := by simp [Ideal.ofBits, Ideal.ieee]

/-- An extended real whose absolute value is below +inf is a real number. -/
theorem isReal_of_abs_lt (x : EReal) (h : Ideal.cmp .olt (max x (-x)) (Ideal.ofBits .f32 0x7F800000#32) = 1#1) :
    IsReal x := by
  rw [infWord] at h
  have hlt : max x (-x) < ⊤ := by
    unfold Ideal.cmp at h
    by_contra hn
    simp [hn] at h
  induction x using EReal.rec with
  | bot => simp at hlt
  | top => simp at hlt
  | coe r => exact ⟨r, rfl⟩

/-- One "all(|x| < +inf)" that came out 1 makes every entry of x a real number. -/
theorem allReal_of_all {s : Shape} {axes : List (Fin s.rank)} (x : FVec Ideal s .f32)
    (dims : Fin (⟨0, ![]⟩ : Shape).rank → Fin s.rank) (hb : (⟨0, ![]⟩ : Shape).BroadcastsInDim s dims)
    (hr : s.ReducesTo axes ⟨0, ![]⟩) (hu : 0 < (⟨0, ![]⟩ : Shape).numel)
    (e : Host.reduce IntOp.andi (cmpf .olt (Host.absf x) (broadcastInDim s dims hb (constant ⟨0, ![]⟩ .f32 0x7F800000#32)))
      (constantI ⟨0, ![]⟩ 1 1#1) hr hu ValueIdx.ix0 = 1#1) (i : s.Idx) : IsReal (x i) :=
  isReal_of_abs_lt (x i) (Host.reduce_andi_all _ _ hr hu _ e i)

/-- A conjunction of two one-bit arrays that is 1 at an index has both 1 there. -/
theorem andi_one {s : Shape} (x y : IVec s 1) (i : s.Idx) (h : andi x y i = 1#1) : x i = 1#1 ∧ y i = 1#1 :=
  IntOp.andi_eq_one.1 h

open Cert.Pre_finite_inputs in
/-- The whole conjunction, read off for the three arrays the convolution uses. -/
theorem split [Cert.Pre_finite_inputs.Facts]
    (a0 : FVec Ideal Cert.Pre_finite_inputs.S100000x2 .f32) (a1 : IVec Cert.Pre_finite_inputs.S2x1600000 32)
    (a2 : FVec Ideal Cert.Pre_finite_inputs.S1x500 .f32) (a3 : FVec Ideal Cert.Pre_finite_inputs.S2x128 .f32)
    (a4 a5 a6 : FVec Ideal Cert.Pre_finite_inputs.S128 .f32) (a7 : FVec Ideal Cert.Pre_finite_inputs.S628x128 .f32)
    (a8 : FVec Ideal Cert.Pre_finite_inputs.S128 .f32) (a9 : FVec Ideal Cert.Pre_finite_inputs.S128x16 .f32)
    (a10 : FVec Ideal Cert.Pre_finite_inputs.S16 .f32)
    (h : Cert.Pre_finite_inputs.fn (F := Ideal) a0 a1 a2 a3 a4 a5 a6 a7 a8 a9 a10 ValueIdx.ix0 = 1#1) :
    (∀ i, IsReal (a0 i)) ∧ (∀ i, IsReal (a3 i)) ∧ (∀ i, IsReal (a4 i)) := by
  dsimp only [Cert.Pre_finite_inputs.fn, Cert.Pre_finite_inputs.fn_part1, Cert.Pre_finite_inputs.fn_part2] at h
  have h43 := (andi_one _ _ _ h).1
  have h38 := (andi_one _ _ _ h43).1
  have h33 := (andi_one _ _ _ h38).1
  have h28 := (andi_one _ _ _ h33).1
  have h23 := (andi_one _ _ _ h28).1
  have h18 := (andi_one _ _ _ h23).1
  have h13 := (andi_one _ _ _ h18).1
  have h17 := (andi_one _ _ _ h18).2
  have h8 := (andi_one _ _ _ h13).1
  have h12 := (andi_one _ _ _ h13).2
  have h3 := (andi_one _ _ _ h8).1
  exact ⟨allReal_of_all a0 _ _ _ _ h3, allReal_of_all a3 _ _ _ _ h12, allReal_of_all a4 _ _ _ _ h17⟩

/-- Every node feature is a real number. -/
theorem arg0_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S100000x2.Idx) :
    IsReal ((m ((c.tc : Thread Cert.KernelIdeal.nD Cert.KernelIdeal.τ).loc Cert.KernelIdeal.main_arg0)
      : Cert.KernelIdeal.S100000x2.Idx → EReal) i) := by
  have h0 := congrFun (h c) ValueIdx.ix0
  exact (split _ _ _ _ _ _ _ _ _ _ _ h0).1 i

/-- Every convolution weight is a real number. -/
theorem arg3_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2x128.Idx) :
    IsReal ((m ((c.tc : Thread Cert.KernelIdeal.nD Cert.KernelIdeal.τ).loc Cert.KernelIdeal.main_arg3)
      : Cert.KernelIdeal.S2x128.Idx → EReal) i) := by
  have h0 := congrFun (h c) ValueIdx.ix0
  exact (split _ _ _ _ _ _ _ _ _ _ _ h0).2.1 i

/-- Every entry of the convolution bias is a real number. -/
theorem arg4_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    IsReal ((m ((c.tc : Thread Cert.KernelIdeal.nD Cert.KernelIdeal.τ).loc Cert.KernelIdeal.main_arg4)
      : Cert.KernelIdeal.S128.Idx → EReal) i) := by
  have h0 := congrFun (h c) ValueIdx.ix0
  exact (split _ _ _ _ _ _ _ _ _ _ _ h0).2.2 i

end Cert.KernelIdeal.KPre

end
-- ==== Proof.RefOps.lean ====
import proofs.«123483_j33887291965745_2_alg».proof.ReferenceIdeal
import proofs.«123483_j33887291965745_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-! The reference program's entry function as a straight line of host operations.  The outlined functions
    (the two rectifiers, the variance with its inner select, the log-softmax) are listed inline at their call
    sites, each over the buffers of that call and stated at the buffers' own array types: a call of an outlined function is its body run on the operands.
    The line is cut where the program text is cut: `ops0` up to the first rectifier and the zero that seeds
    the mean, `ops1` from the mean to the log-softmax. -/

/-- Operations 1 … 62: edge endpoints, the node projection, symmetric degree normalisation, the scatter of the
    scaled neighbour rows, the self term, the bias, the rectifier, and the zero the next reduction starts from. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x2_S2x128_S100000x128_1_0_0_1_n_n none l r) : (⟨S100000x2, .f32⟩ : BufTy).Contents (Elt F) → (⟨S2x128, .f32⟩ : BufTy).Contents (Elt F) → (⟨S100000x128, .f32⟩ : BufTy).Contents (Elt F)),
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v42 main_v43 (mulf : (⟨S100000x128, .f32⟩ : BufTy).Contents (Elt F) → (⟨S100000x128, .f32⟩ : BufTy).Contents (Elt F) → (⟨S100000x128, .f32⟩ : BufTy).Contents (Elt F)),
    StableHlo.binary main_v39 main_v43 main_v44 (addf : (⟨S100000x128, .f32⟩ : BufTy).Contents (Elt F) → (⟨S100000x128, .f32⟩ : BufTy).Contents (Elt F) → (⟨S100000x128, .f32⟩ : BufTy).Contents (Elt F)),
    StableHlo.unary main_arg4 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.nullary main_call0_cst ((constant S_ .f32 0x00000000#32) : (⟨S_, .f32⟩ : BufTy).Contents (Elt F)),
    StableHlo.unary main_call0_cst main_call0_v0 ((broadcastInDim S100000x128 ![] bcast_S_S100000x128) : (⟨S_, .f32⟩ : BufTy).Contents (Elt F) → (⟨S100000x128, .f32⟩ : BufTy).Contents (Elt F)),
    StableHlo.binary main_v47 main_call0_v0 main_v48 (maximumf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32) ]

/-- Operations 63 … 127: the mean and the centred activations, the variance (with the select guarding a zero
    divisor), the normalisation, scale and shift, the column sums, the concatenation with the side features,
    two dense layers with a rectifier between them, and the log-softmax. -/
abbrev ops1 : List (HloOp τ sig (Elt F)) :=
  [ StableHlo.binary main_v48 main_cst_8 main_v49 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.nullary main_cst_9 (constant S_ .f32 0x4B435000#32),
    StableHlo.binary main_v49 main_cst_9 main_v50 (Host.divf : (⟨S_, .f32⟩ : BufTy).Contents (Elt F) → (⟨S_, .f32⟩ : BufTy).Contents (Elt F) → (⟨S_, .f32⟩ : BufTy).Contents (Elt F)),
    StableHlo.unary main_v50 main_v51 (broadcastInDim S100000x128 ![] bcast_S_S100000x128 : (⟨S_, .f32⟩ : BufTy).Contents (Elt F) → (⟨S100000x128, .f32⟩ : BufTy).Contents (Elt F)),
    StableHlo.binary main_v48 main_v51 main_v52 (subf : (⟨S100000x128, .f32⟩ : BufTy).Contents (Elt F) → (⟨S100000x128, .f32⟩ : BufTy).Contents (Elt F) → (⟨S100000x128, .f32⟩ : BufTy).Contents (Elt F)),
    StableHlo.nullary main_c_10 (constantI S_ 32 0#32),
    StableHlo.nullary main_call1_cst ((constant S_ .f32 0x00000000#32) : (⟨S_, .f32⟩ : BufTy).Contents (Elt F)),
    StableHlo.binary main_v52 main_call1_cst main_call1_v0 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.unary main_call1_v0 main_call1_v1 ((broadcastInDim S1x1 ![] bcast_S_S1x1) : (⟨S_, .f32⟩ : BufTy).Contents (Elt F) → (⟨S1x1, .f32⟩ : BufTy).Contents (Elt F)),
    StableHlo.nullary main_call1_cst_0 ((constant S_ .f32 0x4B435000#32) : (⟨S_, .f32⟩ : BufTy).Contents (Elt F)),
    StableHlo.unary main_call1_cst_0 main_call1_v2 ((broadcastInDim S1x1 ![] bcast_S_S1x1) : (⟨S_, .f32⟩ : BufTy).Contents (Elt F) → (⟨S1x1, .f32⟩ : BufTy).Contents (Elt F)),
    StableHlo.binary main_call1_v1 main_call1_v2 main_call1_v3 (Host.divf : (⟨S1x1, .f32⟩ : BufTy).Contents (Elt F) → (⟨S1x1, .f32⟩ : BufTy).Contents (Elt F) → (⟨S1x1, .f32⟩ : BufTy).Contents (Elt F)),
    StableHlo.unary main_call1_v3 main_call1_v4 ((broadcastInDim S100000x128 ![0, 1] bcast_S1x1_S100000x128_0_1) : (⟨S1x1, .f32⟩ : BufTy).Contents (Elt F) → (⟨S100000x128, .f32⟩ : BufTy).Contents (Elt F)),
    StableHlo.binary main_v52 main_call1_v4 main_call1_v5 (subf : (⟨S100000x128, .f32⟩ : BufTy).Contents (Elt F) → (⟨S100000x128, .f32⟩ : BufTy).Contents (Elt F) → (⟨S100000x128, .f32⟩ : BufTy).Contents (Elt F)),
    StableHlo.binary main_call1_v5 main_call1_v5 main_call1_v6 (mulf : (⟨S100000x128, .f32⟩ : BufTy).Contents (Elt F) → (⟨S100000x128, .f32⟩ : BufTy).Contents (Elt F) → (⟨S100000x128, .f32⟩ : BufTy).Contents (Elt F)),
    StableHlo.unary main_c_10 main_call1_v7 ((sitofp .f32) : (⟨S_, .i32⟩ : BufTy).Contents (Elt F) → (⟨S_, .f32⟩ : BufTy).Contents (Elt F)),
    StableHlo.nullary main_call1_cst_1 ((constant S_ .f32 0x4B435000#32) : (⟨S_, .f32⟩ : BufTy).Contents (Elt F)),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 ((constant S_ .f32 0x00000000#32) : (⟨S_, .f32⟩ : BufTy).Contents (Elt F)),
    StableHlo.binary main_call1_v6 main_call1_cst_2 main_call1_v9 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.binary main_call1_v9 main_call1_v8 main_call1_v10 (Host.divf : (⟨S_, .f32⟩ : BufTy).Contents (Elt F) → (⟨S_, .f32⟩ : BufTy).Contents (Elt F) → (⟨S_, .f32⟩ : BufTy).Contents (Elt F)),
    StableHlo.nullary main_call1_cst_3 ((constant S_ .f32 0x00000000#32) : (⟨S_, .f32⟩ : BufTy).Contents (Elt F)),
    StableHlo.binary main_call1_v8 main_call1_cst_3 main_call1_v11 ((cmpf .ogt) : (⟨S_, .f32⟩ : BufTy).Contents (Elt F) → (⟨S_, .f32⟩ : BufTy).Contents (Elt F) → (⟨S_, .i1⟩ : BufTy).Contents (Elt F)),
    StableHlo.nullary main_call1_cst_4 ((constant S_ .f32 0x7FC00000#32) : (⟨S_, .f32⟩ : BufTy).Contents (Elt F)),
    StableHlo.unary main_call1_cst_4 main_call1_call0_v0 (id : (⟨S_, .f32⟩ : BufTy).Contents (Elt F) → (⟨S_, .f32⟩ : BufTy).Contents (Elt F)),
    StableHlo.ternary main_call1_v11 main_call1_v10 main_call1_call0_v0 main_v53 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
    StableHlo.unary main_v53 main_v54 (Host.sqrt : (⟨S_, .f32⟩ : BufTy).Contents (Elt F) → (⟨S_, .f32⟩ : BufTy).Contents (Elt F)),
    StableHlo.nullary main_cst_11 (constant S_ .f32 0x3727C5AC#32),
    StableHlo.binary main_v54 main_cst_11 main_v55 (addf : (⟨S_, .f32⟩ : BufTy).Contents (Elt F) → (⟨S_, .f32⟩ : BufTy).Contents (Elt F) → (⟨S_, .f32⟩ : BufTy).Contents (Elt F)),
    StableHlo.unary main_v55 main_v56 (broadcastInDim S100000x128 ![] bcast_S_S100000x128 : (⟨S_, .f32⟩ : BufTy).Contents (Elt F) → (⟨S100000x128, .f32⟩ : BufTy).Contents (Elt F)),
    StableHlo.binary main_v52 main_v56 main_v57 (Host.divf : (⟨S100000x128, .f32⟩ : BufTy).Contents (Elt F) → (⟨S100000x128, .f32⟩ : BufTy).Contents (Elt F) → (⟨S100000x128, .f32⟩ : BufTy).Contents (Elt F)),
    StableHlo.unary main_arg5 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg6 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.binary main_v63 main_cst_12 main_v64 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v64 main_v65 (broadcastInDim S1x128 ![1] bcast_S128_S1x128_1 : (⟨S128, .f32⟩ : BufTy).Contents (Elt F) → (⟨S1x128, .f32⟩ : BufTy).Contents (Elt F)),
    StableHlo.binary main_v65 main_arg2 main_v66 ((fun a b => concatenate S1x628 1 [⟨S1x128, a⟩, ⟨S1x500, b⟩] concatenates_S1x128_S1x500_S1x628_d1) : (⟨S1x128, .f32⟩ : BufTy).Contents (Elt F) → (⟨S1x500, .f32⟩ : BufTy).Contents (Elt F) → (⟨S1x628, .f32⟩ : BufTy).Contents (Elt F)),
    StableHlo.binary main_v66 main_arg7 main_v67 ((fun l r => Host.dotGeneral dot_S1x628_S628x128_S1x128_1_0_0_1_n_n none l r) : (⟨S1x628, .f32⟩ : BufTy).Contents (Elt F) → (⟨S628x128, .f32⟩ : BufTy).Contents (Elt F) → (⟨S1x128, .f32⟩ : BufTy).Contents (Elt F)),
    StableHlo.unary main_arg8 main_v68 (broadcastInDim S1x128 ![1] bcast_S128_S1x128_1 : (⟨S128, .f32⟩ : BufTy).Contents (Elt F) → (⟨S1x128, .f32⟩ : BufTy).Contents (Elt F)),
    StableHlo.binary main_v67 main_v68 main_v69 (addf : (⟨S1x128, .f32⟩ : BufTy).Contents (Elt F) → (⟨S1x128, .f32⟩ : BufTy).Contents (Elt F) → (⟨S1x128, .f32⟩ : BufTy).Contents (Elt F)),
    StableHlo.nullary main_call2_cst ((constant S_ .f32 0x00000000#32) : (⟨S_, .f32⟩ : BufTy).Contents (Elt F)),
    StableHlo.unary main_call2_cst main_call2_v0 ((broadcastInDim S1x128 ![] bcast_S_S1x128) : (⟨S_, .f32⟩ : BufTy).Contents (Elt F) → (⟨S1x128, .f32⟩ : BufTy).Contents (Elt F)),
    StableHlo.binary main_v69 main_call2_v0 main_v70 (maximumf : (⟨S1x128, .f32⟩ : BufTy).Contents (Elt F) → (⟨S1x128, .f32⟩ : BufTy).Contents (Elt F) → (⟨S1x128, .f32⟩ : BufTy).Contents (Elt F)),
    StableHlo.binary main_v70 main_arg9 main_v71 ((fun l r => Host.dotGeneral dot_S1x128_S128x16_S1x16_1_0_0_1_n_n none l r) : (⟨S1x128, .f32⟩ : BufTy).Contents (Elt F) → (⟨S128x16, .f32⟩ : BufTy).Contents (Elt F) → (⟨S1x16, .f32⟩ : BufTy).Contents (Elt F)),
    StableHlo.unary main_arg10 main_v72 (broadcastInDim S1x16 ![1] bcast_S16_S1x16_1 : (⟨S16, .f32⟩ : BufTy).Contents (Elt F) → (⟨S1x16, .f32⟩ : BufTy).Contents (Elt F)),
    StableHlo.binary main_v71 main_v72 main_v73 (addf : (⟨S1x16, .f32⟩ : BufTy).Contents (Elt F) → (⟨S1x16, .f32⟩ : BufTy).Contents (Elt F) → (⟨S1x16, .f32⟩ : BufTy).Contents (Elt F)),
    StableHlo.nullary main_call3_cst ((constant S_ .f32 0xFF800000#32) : (⟨S_, .f32⟩ : BufTy).Contents (Elt F)),
    StableHlo.binary main_v73 main_call3_cst main_call3_v0 ((fun x v => Host.reduce FloatOps.maximumf x v reducesTo_S1x16_S1_d1 h_S_) : (⟨S1x16, .f32⟩ : BufTy).Contents (Elt F) → (⟨S_, .f32⟩ : BufTy).Contents (Elt F) → (⟨S1, .f32⟩ : BufTy).Contents (Elt F)),
    StableHlo.nullary main_call3_cst_0 ((constant S_ .f32 0xFF800000#32) : (⟨S_, .f32⟩ : BufTy).Contents (Elt F)),
    StableHlo.unary main_call3_cst_0 main_call3_v1 ((broadcastInDim S1 ![] bcast_S_S1) : (⟨S_, .f32⟩ : BufTy).Contents (Elt F) → (⟨S1, .f32⟩ : BufTy).Contents (Elt F)),
    StableHlo.binary main_call3_v1 main_call3_v0 main_call3_v2 (maximumf : (⟨S1, .f32⟩ : BufTy).Contents (Elt F) → (⟨S1, .f32⟩ : BufTy).Contents (Elt F) → (⟨S1, .f32⟩ : BufTy).Contents (Elt F)),
    StableHlo.unary main_call3_v2 main_call3_v3 ((broadcastInDim S1x1 ![0] bcast_S1_S1x1_0) : (⟨S1, .f32⟩ : BufTy).Contents (Elt F) → (⟨S1x1, .f32⟩ : BufTy).Contents (Elt F)),
    StableHlo.unary main_call3_v3 main_call3_v4 ((broadcastInDim S1x16 ![0, 1] bcast_S1x1_S1x16_0_1) : (⟨S1x1, .f32⟩ : BufTy).Contents (Elt F) → (⟨S1x16, .f32⟩ : BufTy).Contents (Elt F)),
    StableHlo.binary main_v73 main_call3_v4 main_call3_v5 (subf : (⟨S1x16, .f32⟩ : BufTy).Contents (Elt F) → (⟨S1x16, .f32⟩ : BufTy).Contents (Elt F) → (⟨S1x16, .f32⟩ : BufTy).Contents (Elt F)),
    StableHlo.unary main_call3_v5 main_call3_v6 (Host.exp : (⟨S1x16, .f32⟩ : BufTy).Contents (Elt F) → (⟨S1x16, .f32⟩ : BufTy).Contents (Elt F)),
    StableHlo.nullary main_call3_cst_1 ((constant S_ .f32 0x00000000#32) : (⟨S_, .f32⟩ : BufTy).Contents (Elt F)),
    StableHlo.binary main_call3_v6 main_call3_cst_1 main_call3_v7 ((fun x v => Host.reduceAdd x v reducesTo_S1x16_S1_d1 h_S_) : (⟨S1x16, .f32⟩ : BufTy).Contents (Elt F) → (⟨S_, .f32⟩ : BufTy).Contents (Elt F) → (⟨S1, .f32⟩ : BufTy).Contents (Elt F)),
    StableHlo.unary main_call3_v7 main_call3_v8 ((broadcastInDim S1x1 ![0] bcast_S1_S1x1_0) : (⟨S1, .f32⟩ : BufTy).Contents (Elt F) → (⟨S1x1, .f32⟩ : BufTy).Contents (Elt F)),
    StableHlo.unary main_call3_v8 main_call3_v9 (Host.log : (⟨S1x1, .f32⟩ : BufTy).Contents (Elt F) → (⟨S1x1, .f32⟩ : BufTy).Contents (Elt F)),
    StableHlo.unary main_call3_v9 main_call3_v10 ((broadcastInDim S1x16 ![0, 1] bcast_S1x1_S1x16_0_1) : (⟨S1x1, .f32⟩ : BufTy).Contents (Elt F) → (⟨S1x16, .f32⟩ : BufTy).Contents (Elt F)),
    StableHlo.binary main_call3_v5 main_call3_v10 main_v74 (subf : (⟨S1x16, .f32⟩ : BufTy).Contents (Elt F) → (⟨S1x16, .f32⟩ : BufTy).Contents (Elt F) → (⟨S1x16, .f32⟩ : BufTy).Contents (Elt F)) ]

theorem part0_eq (c : Dev nD) : main_part0 (F := F) c = seq ops0 := rfl
theorem part1_eq (c : Dev nD) : main_part1 (F := F) c = seq ops1 := rfl

/-- The whole line. -/
abbrev ops : List (HloOp τ sig (Elt F)) := ops0 ++ ops1

/-- The entry function is the whole line: its two halves run one after the other. -/
theorem main_eq (c : Dev nD) : main (F := F) c = seq ops := by
  rw [seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub ..⟩

theorem ops1_sub : (ops1 : List (HloOp τ sig (Elt F))).Forall fun op => op.bufs ⊆ tcRefs τ sig :=
  ⟨binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_append.mpr ⟨ops0_sub, ops1_sub⟩

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

/-- Running two lines in turn is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- From any memory with zero counters every weakly fair execution of the entry function terminates, and each
    buffer ends at the fold of the second half over the fold of the first half over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops1 (after ops0 (launchContents m c)) (b : DevRef τ sig) :=
  (θ_run defs _ _).mono (fun _ h c b => (h c b).trans (congrFun (after_app ops0 ops1 _) _))
    (run_seq scopedRefs_eq scopedSems_eq defs main (fun _ => ops) main_eq (fun _ => ops_sub) m ρ
      (fun _ op h => (List.mem_append.mp h).elim (ops0_fresh op) (ops1_fresh op)))

end Cert.ReferenceIdeal.RefRun

end
-- ==== Proof.RefVal.lean ====
/-
  The reference program's value, stage by stage, as pure terms of its argument arrays: each definition is the literal
  composition, in program order, of the pure functions the program applies, from the arguments to the named intermediate.
  Nothing is simplified here; reading these terms at an index is done elsewhere.
-/
import proofs.«123483_j33887291965745_2_alg».proof.ReferenceIdeal
import Idealize.ShloMosaic.PureOps.Ideal

noncomputable section

namespace Cert.ReferenceIdeal.RefVal

open Idealize.ShloMosaic Cert.ReferenceIdeal
open Facts₀ Facts

variable [Facts]

/-- A float array of shape `s`, every entry an extended real. -/
abbrev A (s : Shape) : Type := (⟨s, .f32⟩ : BufTy).Contents (Elt Ideal)
/-- A 32-bit integer array of shape `s`. -/
abbrev AI (s : Shape) : Type := (⟨s, .i32⟩ : BufTy).Contents (Elt Ideal)

/-- The float zero, one, the entry count 12800000, the small ε, −∞ and the quiet NaN word, as scalars. -/
abbrev zeroS : A S_ := constant (F := Ideal) S_ .f32 0x00000000#32
abbrev oneS : A S_ := constant (F := Ideal) S_ .f32 0x3F800000#32
abbrev cntS : A S_ := constant (F := Ideal) S_ .f32 0x4B435000#32
abbrev epsS : A S_ := constant (F := Ideal) S_ .f32 0x3727C5AC#32
abbrev negInfS : A S_ := constant (F := Ideal) S_ .f32 0xFF800000#32
abbrev nanS : A S_ := constant (F := Ideal) S_ .f32 0x7FC00000#32

/-- Row 0 of the edge list: the source node of every edge. -/
def src (ei : AI S2x1600000) : AI S1600000 :=
  shapeCast S1600000 (extractStridedSlice S1x1600000 ![0, 0] ei slices_S2x1600000_S1x1600000_0_0) shapeCasts_S1x1600000_S1600000

/-- Row 1 of the edge list: the destination node of every edge. -/
def dst (ei : AI S2x1600000) : AI S1600000 :=
  shapeCast S1600000 (extractStridedSlice S1x1600000 ![1, 0] ei slices_S2x1600000_S1x1600000_1_0) shapeCasts_S1x1600000_S1600000

/-- The scatter index column: the destinations as a [E,1] array. -/
def sdst (ei : AI S2x1600000) : AI S1600000x1 :=
  broadcastInDim S1600000x1 ![0] bcast_S1600000_S1600000x1_0 (dst ei)

/-- The degree with the self loop: ones scattered onto the destinations, plus one. -/
def deg (ei : AI S2x1600000) : A S100000 :=
  addf (F := Ideal) (φ := .f32)
    (Host.scatterAdd (F := Ideal) (φ := .f32) scatter_S100000_S1600000x1_S1600000_n_0_0_1
      (broadcastInDim S100000 ![] bcast_S_S100000 zeroS) (sdst ei) (broadcastInDim S1600000 ![] bcast_S_S1600000 oneS))
    (broadcastInDim S100000 ![] bcast_S_S100000 oneS)

/-- deg^(-1/2). -/
def dis (ei : AI S2x1600000) : A S100000 := Host.rsqrt (F := Ideal) (φ := .f32) (deg ei)

/-- A signed node number wrapped once: n + 100000 where n < 0, else n. -/
def wrap (v : AI S1600000) : AI S1600000 :=
  select (cmpi .slt v (broadcastInDim S1600000 ![] bcast_S_S1600000 (constantI S_ 32 0#32)))
    (addi v (broadcastInDim S1600000 ![] bcast_S_S1600000 (constantI S_ 32 100000#32))) v

/-- The gather start-index column of the sources. -/
def gsrc (ei : AI S2x1600000) : AI S1600000x1 :=
  broadcastInDim S1600000x1 ![0] bcast_S1600000_S1600000x1_0 (wrap (src ei))

/-- The gather start-index column of the destinations. -/
def gdst (ei : AI S2x1600000) : AI S1600000x1 :=
  broadcastInDim S1600000x1 ![0] bcast_S1600000_S1600000x1_0 (wrap (dst ei))

/-- The symmetric normalisation weight of every edge. -/
def norm (ei : AI S2x1600000) : A S1600000 :=
  mulf (F := Ideal) (φ := .f32)
    (Host.gather (α := Ideal .f32) gather_S100000_S1600000x1_S1600000_n_0_n_n_0_1_1 (dis ei) (gsrc ei))
    (Host.gather (α := Ideal .f32) gather_S100000_S1600000x1_S1600000_n_0_n_n_0_1_1 (dis ei) (gdst ei))

/-- The projected features. -/
def h (nf : A S100000x2) (w : A S2x128) : A S100000x128 :=
  Host.dotGeneral (F := Ideal) (φ₁ := .f32) (φ₂ := .f32) dot_S100000x2_S2x128_S100000x128_1_0_0_1_n_n none nf w

/-- The message of every edge: the source's projected row times the edge weight. -/
def msg (nf : A S100000x2) (ei : AI S2x1600000) (w : A S2x128) : A S1600000x128 :=
  mulf (F := Ideal) (φ := .f32)
    (Host.gather (α := Ideal .f32) gather_S100000x128_S1600000x1_S1600000x128_1_0_n_n_0_1_1128 (h nf w) (gsrc ei))
    (broadcastInDim S1600000x128 ![0, 1] bcast_S1600000x1_S1600000x128_0_1
      (broadcastInDim S1600000x1 ![0] bcast_S1600000_S1600000x1_0 (norm ei)))

/-- The messages summed onto their destinations. -/
def agg (nf : A S100000x2) (ei : AI S2x1600000) (w : A S2x128) : A S100000x128 :=
  Host.scatterAdd (F := Ideal) (φ := .f32) scatter_S100000x128_S1600000x1_S1600000x128_1_0_0_1
    (broadcastInDim S100000x128 ![] bcast_S_S100000x128 zeroS) (sdst ei) (msg nf ei w)

/-- The convolution before the rectifier: aggregate + self loop + bias. -/
def pre (nf : A S100000x2) (ei : AI S2x1600000) (w : A S2x128) (b : A S128) : A S100000x128 :=
  addf (F := Ideal) (φ := .f32)
    (addf (F := Ideal) (φ := .f32) (agg nf ei w)
      (mulf (F := Ideal) (φ := .f32) (h nf w)
        (broadcastInDim S100000x128 ![0, 1] bcast_S100000x1_S100000x128_0_1
          (broadcastInDim S100000x1 ![0] bcast_S100000_S100000x1_0 (mulf (F := Ideal) (φ := .f32) (dis ei) (dis ei))))))
    (broadcastInDim S100000x128 ![0, 1] bcast_S1x128_S100000x128_0_1 (broadcastInDim S1x128 ![1] bcast_S128_S1x128_1 b))

/-- The rectified convolution. -/
def x (nf : A S100000x2) (ei : AI S2x1600000) (w : A S2x128) (b : A S128) : A S100000x128 :=
  maximumf (F := Ideal) (φ := .f32) (pre nf ei w b) (broadcastInDim S100000x128 ![] bcast_S_S100000x128 zeroS)

/-- The mean of all entries. -/
def mean (nf : A S100000x2) (ei : AI S2x1600000) (w : A S2x128) (b : A S128) : A S_ :=
  Host.divf (F := Ideal) (φ := .f32) (Host.reduceAdd (F := Ideal) (φ := .f32) (x nf ei w b) zeroS reducesTo_S100000x128_S_d0_1 h_S_) cntS

/-- The centred array. -/
def y (nf : A S100000x2) (ei : AI S2x1600000) (w : A S2x128) (b : A S128) : A S100000x128 :=
  subf (F := Ideal) (φ := .f32) (x nf ei w b) (broadcastInDim S100000x128 ![] bcast_S_S100000x128 (mean nf ei w b))

/-- Inside the variance: the array minus its own mean (kept as a [1,1] array on the way). -/
def varCentred (Y : A S100000x128) : A S100000x128 :=
  subf (F := Ideal) (φ := .f32) Y
    (broadcastInDim S100000x128 ![0, 1] bcast_S1x1_S100000x128_0_1
      (Host.divf (F := Ideal) (φ := .f32)
        (broadcastInDim S1x1 ![] bcast_S_S1x1 (Host.reduceAdd (F := Ideal) (φ := .f32) Y zeroS reducesTo_S100000x128_S_d0_1 h_S_))
        (broadcastInDim S1x1 ![] bcast_S_S1x1 cntS)))

/-- The divisor of the variance: the entry count minus the correction, as floats. -/
def varDiv (c : AI S_) : A S_ := subf (F := Ideal) (φ := .f32) cntS (sitofp (F := Ideal) .f32 c)

/-- The variance with correction `c`: the summed squares over the divisor where the divisor is positive, else NaN. -/
def varOf (Y : A S100000x128) (c : AI S_) : A S_ :=
  select (cmpf (F := Ideal) (φ := .f32) .ogt (varDiv c) zeroS)
    (Host.divf (F := Ideal) (φ := .f32)
      (Host.reduceAdd (F := Ideal) (φ := .f32) (mulf (F := Ideal) (φ := .f32) (varCentred Y) (varCentred Y)) zeroS reducesTo_S100000x128_S_d0_1 h_S_)
      (varDiv c))
    (id nanS)

/-- The variance of the centred array, correction 0. -/
def var (nf : A S100000x2) (ei : AI S2x1600000) (w : A S2x128) (b : A S128) : A S_ :=
  varOf (y nf ei w b) (constantI S_ 32 0#32)

/-- σ + ε. -/
def den (nf : A S100000x2) (ei : AI S2x1600000) (w : A S2x128) (b : A S128) : A S_ :=
  addf (F := Ideal) (φ := .f32) (Host.sqrt (F := Ideal) (φ := .f32) (var nf ei w b)) epsS

/-- The normalised, scaled and shifted array summed over the nodes, as a [1,128] row. -/
def pooled (nf : A S100000x2) (ei : AI S2x1600000) (w : A S2x128) (b lw lb : A S128) : A S1x128 :=
  broadcastInDim S1x128 ![1] bcast_S128_S1x128_1
    (Host.reduceAdd (F := Ideal) (φ := .f32)
      (addf (F := Ideal) (φ := .f32)
        (mulf (F := Ideal) (φ := .f32)
          (Host.divf (F := Ideal) (φ := .f32) (y nf ei w b) (broadcastInDim S100000x128 ![] bcast_S_S100000x128 (den nf ei w b)))
          (broadcastInDim S100000x128 ![0, 1] bcast_S1x128_S100000x128_0_1 (broadcastInDim S1x128 ![1] bcast_S128_S1x128_1 lw)))
        (broadcastInDim S100000x128 ![0, 1] bcast_S1x128_S100000x128_0_1 (broadcastInDim S1x128 ![1] bcast_S128_S1x128_1 lb)))
      zeroS reducesTo_S100000x128_S128_d0 h_S_)

/-- Inside the log-softmax: the row minus its maximum. -/
def lsShift (z : A S1x16) : A S1x16 :=
  subf (F := Ideal) (φ := .f32) z
    (broadcastInDim S1x16 ![0, 1] bcast_S1x1_S1x16_0_1
      (broadcastInDim S1x1 ![0] bcast_S1_S1x1_0
        (maximumf (F := Ideal) (φ := .f32) (broadcastInDim S1 ![] bcast_S_S1 negInfS)
          (Host.reduce (FloatOps.maximumf (F := Ideal) (φ := .f32)) z negInfS reducesTo_S1x16_S1_d1 h_S_))))

/-- The log-softmax of a row. -/
def logSoftmax (z : A S1x16) : A S1x16 :=
  subf (F := Ideal) (φ := .f32) (lsShift z)
    (broadcastInDim S1x16 ![0, 1] bcast_S1x1_S1x16_0_1
      (Host.log (F := Ideal) (φ := .f32)
        (broadcastInDim S1x1 ![0] bcast_S1_S1x1_0
          (Host.reduceAdd (F := Ideal) (φ := .f32) (Host.exp (F := Ideal) (φ := .f32) (lsShift z)) zeroS reducesTo_S1x16_S1_d1 h_S_))))

/-- Everything after the pooled row: concatenate, first dense layer, rectifier, second dense layer, log-softmax. -/
def tail (p : A S1x128) (esn : A S1x500) (fc1w : A S628x128) (fc1b : A S128) (fc2w : A S128x16) (fc2b : A S16) : A S1x16 :=
  logSoftmax
    (addf (F := Ideal) (φ := .f32)
      (Host.dotGeneral (F := Ideal) (φ₁ := .f32) (φ₂ := .f32) dot_S1x128_S128x16_S1x16_1_0_0_1_n_n none
        (maximumf (F := Ideal) (φ := .f32)
          (addf (F := Ideal) (φ := .f32)
            (Host.dotGeneral (F := Ideal) (φ₁ := .f32) (φ₂ := .f32) dot_S1x628_S628x128_S1x128_1_0_0_1_n_n none
              (concatenate (α := Ideal .f32) S1x628 1 [⟨S1x128, p⟩, ⟨S1x500, esn⟩] concatenates_S1x128_S1x500_S1x628_d1) fc1w)
            (broadcastInDim S1x128 ![1] bcast_S128_S1x128_1 fc1b))
          (broadcastInDim S1x128 ![] bcast_S_S1x128 zeroS))
        fc2w)
      (broadcastInDim S1x16 ![1] bcast_S16_S1x16_1 fc2b))

/-- The program's result. -/
def out (nf : A S100000x2) (ei : AI S2x1600000) (esn : A S1x500) (w : A S2x128) (b lw lb : A S128)
    (fc1w : A S628x128) (fc1b : A S128) (fc2w : A S128x16) (fc2b : A S16) : A S1x16 :=
  tail (pooled nf ei w b lw lb) esn fc1w fc1b fc2w fc2b

end Cert.ReferenceIdeal.RefVal

end
-- ==== Proof.RefRead0.lean ====
import proofs.«123483_j33887291965745_2_alg».proof.Proof.RefOps
import proofs.«123483_j33887291965745_2_alg».proof.Proof.RefVal

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.ReferenceIdeal.RefVal (A AI zeroS oneS cntS epsS negInfS nanS)

/-! The first half of the reference line read back: what its buffers hold once the sixty-two operations have run,
    as the staged pure terms of the argument arrays.  Every operation's result at its own buffer is its function of
    its operands' contents and any other buffer keeps what it held, so a buffer's final contents is the composed
    term; that term is the staged definition by unfolding the stages. -/

/-- After the first half the rectified convolution's buffer holds the rectified convolution of the node
    features, the edge list, the projection and the bias. -/
theorem x_eq (V : Valuation τ sig (Elt Idealize.ShloMosaic.Ideal)) :
    after (ops0 (F := Idealize.ShloMosaic.Ideal)) V (main_v48 : DevRef τ sig)
      = RefVal.x (V (main_arg0 : DevRef τ sig)) (V (main_arg1 : DevRef τ sig)) (V (main_arg3 : DevRef τ sig)) (V (main_arg4 : DevRef τ sig)) := by
  after_results_simp
  rfl

/-- The scalar the mean's reduction starts from is the float zero. -/
theorem cst8_eq (V : Valuation τ sig (Elt Idealize.ShloMosaic.Ideal)) :
    after (ops0 (F := Idealize.ShloMosaic.Ideal)) V (main_cst_8 : DevRef τ sig) = zeroS := by
  after_results_simp

/-- The first half writes no argument: argument 0 keeps its contents. -/
theorem arg0_0 (V : Valuation τ sig (Elt Idealize.ShloMosaic.Ideal)) :
    after (ops0 (F := Idealize.ShloMosaic.Ideal)) V (main_arg0 : DevRef τ sig) = V (main_arg0 : DevRef τ sig) := by
  after_results_simp

/-- The first half writes no argument: argument 1 keeps its contents. -/
theorem arg1_0 (V : Valuation τ sig (Elt Idealize.ShloMosaic.Ideal)) :
    after (ops0 (F := Idealize.ShloMosaic.Ideal)) V (main_arg1 : DevRef τ sig) = V (main_arg1 : DevRef τ sig) := by
  after_results_simp

/-- The first half writes no argument: argument 2 keeps its contents. -/
theorem arg2_0 (V : Valuation τ sig (Elt Idealize.ShloMosaic.Ideal)) :
    after (ops0 (F := Idealize.ShloMosaic.Ideal)) V (main_arg2 : DevRef τ sig) = V (main_arg2 : DevRef τ sig) := by
  after_results_simp

/-- The first half writes no argument: argument 3 keeps its contents. -/
theorem arg3_0 (V : Valuation τ sig (Elt Idealize.ShloMosaic.Ideal)) :
    after (ops0 (F := Idealize.ShloMosaic.Ideal)) V (main_arg3 : DevRef τ sig) = V (main_arg3 : DevRef τ sig) := by
  after_results_simp

/-- The first half writes no argument: argument 4 keeps its contents. -/
theorem arg4_0 (V : Valuation τ sig (Elt Idealize.ShloMosaic.Ideal)) :
    after (ops0 (F := Idealize.ShloMosaic.Ideal)) V (main_arg4 : DevRef τ sig) = V (main_arg4 : DevRef τ sig) := by
  after_results_simp

/-- The first half writes no argument: argument 5 keeps its contents. -/
theorem arg5_0 (V : Valuation τ sig (Elt Idealize.ShloMosaic.Ideal)) :
    after (ops0 (F := Idealize.ShloMosaic.Ideal)) V (main_arg5 : DevRef τ sig) = V (main_arg5 : DevRef τ sig) := by
  after_results_simp

/-- The first half writes no argument: argument 6 keeps its contents. -/
theorem arg6_0 (V : Valuation τ sig (Elt Idealize.ShloMosaic.Ideal)) :
    after (ops0 (F := Idealize.ShloMosaic.Ideal)) V (main_arg6 : DevRef τ sig) = V (main_arg6 : DevRef τ sig) := by
  after_results_simp

/-- The first half writes no argument: argument 7 keeps its contents. -/
theorem arg7_0 (V : Valuation τ sig (Elt Idealize.ShloMosaic.Ideal)) :
    after (ops0 (F := Idealize.ShloMosaic.Ideal)) V (main_arg7 : DevRef τ sig) = V (main_arg7 : DevRef τ sig) := by
  after_results_simp

/-- The first half writes no argument: argument 8 keeps its contents. -/
theorem arg8_0 (V : Valuation τ sig (Elt Idealize.ShloMosaic.Ideal)) :
    after (ops0 (F := Idealize.ShloMosaic.Ideal)) V (main_arg8 : DevRef τ sig) = V (main_arg8 : DevRef τ sig) := by
  after_results_simp

/-- The first half writes no argument: argument 9 keeps its contents. -/
theorem arg9_0 (V : Valuation τ sig (Elt Idealize.ShloMosaic.Ideal)) :
    after (ops0 (F := Idealize.ShloMosaic.Ideal)) V (main_arg9 : DevRef τ sig) = V (main_arg9 : DevRef τ sig) := by
  after_results_simp

/-- The first half writes no argument: argument 10 keeps its contents. -/
theorem arg10_0 (V : Valuation τ sig (Elt Idealize.ShloMosaic.Ideal)) :
    after (ops0 (F := Idealize.ShloMosaic.Ideal)) V (main_arg10 : DevRef τ sig) = V (main_arg10 : DevRef τ sig) := by
  after_results_simp

end Cert.ReferenceIdeal.RefRun

end
-- ==== Proof.RefRead1.lean ====
/-
  The second half of the reference program's straight line, read back: from any buffer contents W the result buffer
  ends at the dense head and log-softmax of the pooled row, where the pooled row is the graph-wide normalisation of
  the rectified convolution W holds, scaled, shifted and summed over the nodes; the program's arguments are not
  written.  The mean is the host sum of the rectified convolution started from the zero W holds, over the entry
  count; the variance is that of the centred array with correction 0.

  The line is read in two stretches: up to the pooled row, and from the pooled row to the log-softmax.
-/
import proofs.«123483_j33887291965745_2_alg».proof.Proof.RefOps
import proofs.«123483_j33887291965745_2_alg».proof.Proof.RefVal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo
open Cert.ReferenceIdeal.RefVal (A AI zeroS cntS epsS)

section Stretches
variable {F : FTy → Type} [FloatOps F]

/-- The first 40 operations of the second half: the mean, the centred array, its variance, the normalisation, scale
    and shift, and the sum over the nodes kept as a row. -/
abbrev opsPool : List (HloOp τ sig (Elt F)) :=
  [ StableHlo.binary main_v48 main_cst_8 main_v49 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.nullary main_cst_9 (constant S_ .f32 0x4B435000#32),
    StableHlo.binary main_v49 main_cst_9 main_v50 (Host.divf : (⟨S_, .f32⟩ : BufTy).Contents (Elt F) → (⟨S_, .f32⟩ : BufTy).Contents (Elt F) → (⟨S_, .f32⟩ : BufTy).Contents (Elt F)),
    StableHlo.unary main_v50 main_v51 (broadcastInDim S100000x128 ![] bcast_S_S100000x128 : (⟨S_, .f32⟩ : BufTy).Contents (Elt F) → (⟨S100000x128, .f32⟩ : BufTy).Contents (Elt F)),
    StableHlo.binary main_v48 main_v51 main_v52 (subf : (⟨S100000x128, .f32⟩ : BufTy).Contents (Elt F) → (⟨S100000x128, .f32⟩ : BufTy).Contents (Elt F) → (⟨S100000x128, .f32⟩ : BufTy).Contents (Elt F)),
    StableHlo.nullary main_c_10 (constantI S_ 32 0#32),
    StableHlo.nullary main_call1_cst ((constant S_ .f32 0x00000000#32) : (⟨S_, .f32⟩ : BufTy).Contents (Elt F)),
    StableHlo.binary main_v52 main_call1_cst main_call1_v0 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.unary main_call1_v0 main_call1_v1 ((broadcastInDim S1x1 ![] bcast_S_S1x1) : (⟨S_, .f32⟩ : BufTy).Contents (Elt F) → (⟨S1x1, .f32⟩ : BufTy).Contents (Elt F)),
    StableHlo.nullary main_call1_cst_0 ((constant S_ .f32 0x4B435000#32) : (⟨S_, .f32⟩ : BufTy).Contents (Elt F)),
    StableHlo.unary main_call1_cst_0 main_call1_v2 ((broadcastInDim S1x1 ![] bcast_S_S1x1) : (⟨S_, .f32⟩ : BufTy).Contents (Elt F) → (⟨S1x1, .f32⟩ : BufTy).Contents (Elt F)),
    StableHlo.binary main_call1_v1 main_call1_v2 main_call1_v3 (Host.divf : (⟨S1x1, .f32⟩ : BufTy).Contents (Elt F) → (⟨S1x1, .f32⟩ : BufTy).Contents (Elt F) → (⟨S1x1, .f32⟩ : BufTy).Contents (Elt F)),
    StableHlo.unary main_call1_v3 main_call1_v4 ((broadcastInDim S100000x128 ![0, 1] bcast_S1x1_S100000x128_0_1) : (⟨S1x1, .f32⟩ : BufTy).Contents (Elt F) → (⟨S100000x128, .f32⟩ : BufTy).Contents (Elt F)),
    StableHlo.binary main_v52 main_call1_v4 main_call1_v5 (subf : (⟨S100000x128, .f32⟩ : BufTy).Contents (Elt F) → (⟨S100000x128, .f32⟩ : BufTy).Contents (Elt F) → (⟨S100000x128, .f32⟩ : BufTy).Contents (Elt F)),
    StableHlo.binary main_call1_v5 main_call1_v5 main_call1_v6 (mulf : (⟨S100000x128, .f32⟩ : BufTy).Contents (Elt F) → (⟨S100000x128, .f32⟩ : BufTy).Contents (Elt F) → (⟨S100000x128, .f32⟩ : BufTy).Contents (Elt F)),
    StableHlo.unary main_c_10 main_call1_v7 ((sitofp .f32) : (⟨S_, .i32⟩ : BufTy).Contents (Elt F) → (⟨S_, .f32⟩ : BufTy).Contents (Elt F)),
    StableHlo.nullary main_call1_cst_1 ((constant S_ .f32 0x4B435000#32) : (⟨S_, .f32⟩ : BufTy).Contents (Elt F)),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 ((constant S_ .f32 0x00000000#32) : (⟨S_, .f32⟩ : BufTy).Contents (Elt F)),
    StableHlo.binary main_call1_v6 main_call1_cst_2 main_call1_v9 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    StableHlo.binary main_call1_v9 main_call1_v8 main_call1_v10 (Host.divf : (⟨S_, .f32⟩ : BufTy).Contents (Elt F) → (⟨S_, .f32⟩ : BufTy).Contents (Elt F) → (⟨S_, .f32⟩ : BufTy).Contents (Elt F)),
    StableHlo.nullary main_call1_cst_3 ((constant S_ .f32 0x00000000#32) : (⟨S_, .f32⟩ : BufTy).Contents (Elt F)),
    StableHlo.binary main_call1_v8 main_call1_cst_3 main_call1_v11 ((cmpf .ogt) : (⟨S_, .f32⟩ : BufTy).Contents (Elt F) → (⟨S_, .f32⟩ : BufTy).Contents (Elt F) → (⟨S_, .i1⟩ : BufTy).Contents (Elt F)),
    StableHlo.nullary main_call1_cst_4 ((constant S_ .f32 0x7FC00000#32) : (⟨S_, .f32⟩ : BufTy).Contents (Elt F)),
    StableHlo.unary main_call1_cst_4 main_call1_call0_v0 (id : (⟨S_, .f32⟩ : BufTy).Contents (Elt F) → (⟨S_, .f32⟩ : BufTy).Contents (Elt F)),
    StableHlo.ternary main_call1_v11 main_call1_v10 main_call1_call0_v0 main_v53 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
    StableHlo.unary main_v53 main_v54 (Host.sqrt : (⟨S_, .f32⟩ : BufTy).Contents (Elt F) → (⟨S_, .f32⟩ : BufTy).Contents (Elt F)),
    StableHlo.nullary main_cst_11 (constant S_ .f32 0x3727C5AC#32),
    StableHlo.binary main_v54 main_cst_11 main_v55 (addf : (⟨S_, .f32⟩ : BufTy).Contents (Elt F) → (⟨S_, .f32⟩ : BufTy).Contents (Elt F) → (⟨S_, .f32⟩ : BufTy).Contents (Elt F)),
    StableHlo.unary main_v55 main_v56 (broadcastInDim S100000x128 ![] bcast_S_S100000x128 : (⟨S_, .f32⟩ : BufTy).Contents (Elt F) → (⟨S100000x128, .f32⟩ : BufTy).Contents (Elt F)),
    StableHlo.binary main_v52 main_v56 main_v57 (Host.divf : (⟨S100000x128, .f32⟩ : BufTy).Contents (Elt F) → (⟨S100000x128, .f32⟩ : BufTy).Contents (Elt F) → (⟨S100000x128, .f32⟩ : BufTy).Contents (Elt F)),
    StableHlo.unary main_arg5 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg6 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.binary main_v63 main_cst_12 main_v64 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v64 main_v65 (broadcastInDim S1x128 ![1] bcast_S128_S1x128_1 : (⟨S128, .f32⟩ : BufTy).Contents (Elt F) → (⟨S1x128, .f32⟩ : BufTy).Contents (Elt F)) ]

/-- The last 25 operations: the concatenation with the side features, the two dense layers with the rectifier
    between them, and the log-softmax. -/
abbrev opsHead : List (HloOp τ sig (Elt F)) :=
  [ StableHlo.binary main_v65 main_arg2 main_v66 ((fun a b => concatenate S1x628 1 [⟨S1x128, a⟩, ⟨S1x500, b⟩] concatenates_S1x128_S1x500_S1x628_d1) : (⟨S1x128, .f32⟩ : BufTy).Contents (Elt F) → (⟨S1x500, .f32⟩ : BufTy).Contents (Elt F) → (⟨S1x628, .f32⟩ : BufTy).Contents (Elt F)),
    StableHlo.binary main_v66 main_arg7 main_v67 ((fun l r => Host.dotGeneral dot_S1x628_S628x128_S1x128_1_0_0_1_n_n none l r) : (⟨S1x628, .f32⟩ : BufTy).Contents (Elt F) → (⟨S628x128, .f32⟩ : BufTy).Contents (Elt F) → (⟨S1x128, .f32⟩ : BufTy).Contents (Elt F)),
    StableHlo.unary main_arg8 main_v68 (broadcastInDim S1x128 ![1] bcast_S128_S1x128_1 : (⟨S128, .f32⟩ : BufTy).Contents (Elt F) → (⟨S1x128, .f32⟩ : BufTy).Contents (Elt F)),
    StableHlo.binary main_v67 main_v68 main_v69 (addf : (⟨S1x128, .f32⟩ : BufTy).Contents (Elt F) → (⟨S1x128, .f32⟩ : BufTy).Contents (Elt F) → (⟨S1x128, .f32⟩ : BufTy).Contents (Elt F)),
    StableHlo.nullary main_call2_cst ((constant S_ .f32 0x00000000#32) : (⟨S_, .f32⟩ : BufTy).Contents (Elt F)),
    StableHlo.unary main_call2_cst main_call2_v0 ((broadcastInDim S1x128 ![] bcast_S_S1x128) : (⟨S_, .f32⟩ : BufTy).Contents (Elt F) → (⟨S1x128, .f32⟩ : BufTy).Contents (Elt F)),
    StableHlo.binary main_v69 main_call2_v0 main_v70 (maximumf : (⟨S1x128, .f32⟩ : BufTy).Contents (Elt F) → (⟨S1x128, .f32⟩ : BufTy).Contents (Elt F) → (⟨S1x128, .f32⟩ : BufTy).Contents (Elt F)),
    StableHlo.binary main_v70 main_arg9 main_v71 ((fun l r => Host.dotGeneral dot_S1x128_S128x16_S1x16_1_0_0_1_n_n none l r) : (⟨S1x128, .f32⟩ : BufTy).Contents (Elt F) → (⟨S128x16, .f32⟩ : BufTy).Contents (Elt F) → (⟨S1x16, .f32⟩ : BufTy).Contents (Elt F)),
    StableHlo.unary main_arg10 main_v72 (broadcastInDim S1x16 ![1] bcast_S16_S1x16_1 : (⟨S16, .f32⟩ : BufTy).Contents (Elt F) → (⟨S1x16, .f32⟩ : BufTy).Contents (Elt F)),
    StableHlo.binary main_v71 main_v72 main_v73 (addf : (⟨S1x16, .f32⟩ : BufTy).Contents (Elt F) → (⟨S1x16, .f32⟩ : BufTy).Contents (Elt F) → (⟨S1x16, .f32⟩ : BufTy).Contents (Elt F)),
    StableHlo.nullary main_call3_cst ((constant S_ .f32 0xFF800000#32) : (⟨S_, .f32⟩ : BufTy).Contents (Elt F)),
    StableHlo.binary main_v73 main_call3_cst main_call3_v0 ((fun x v => Host.reduce FloatOps.maximumf x v reducesTo_S1x16_S1_d1 h_S_) : (⟨S1x16, .f32⟩ : BufTy).Contents (Elt F) → (⟨S_, .f32⟩ : BufTy).Contents (Elt F) → (⟨S1, .f32⟩ : BufTy).Contents (Elt F)),
    StableHlo.nullary main_call3_cst_0 ((constant S_ .f32 0xFF800000#32) : (⟨S_, .f32⟩ : BufTy).Contents (Elt F)),
    StableHlo.unary main_call3_cst_0 main_call3_v1 ((broadcastInDim S1 ![] bcast_S_S1) : (⟨S_, .f32⟩ : BufTy).Contents (Elt F) → (⟨S1, .f32⟩ : BufTy).Contents (Elt F)),
    StableHlo.binary main_call3_v1 main_call3_v0 main_call3_v2 (maximumf : (⟨S1, .f32⟩ : BufTy).Contents (Elt F) → (⟨S1, .f32⟩ : BufTy).Contents (Elt F) → (⟨S1, .f32⟩ : BufTy).Contents (Elt F)),
    StableHlo.unary main_call3_v2 main_call3_v3 ((broadcastInDim S1x1 ![0] bcast_S1_S1x1_0) : (⟨S1, .f32⟩ : BufTy).Contents (Elt F) → (⟨S1x1, .f32⟩ : BufTy).Contents (Elt F)),
    StableHlo.unary main_call3_v3 main_call3_v4 ((broadcastInDim S1x16 ![0, 1] bcast_S1x1_S1x16_0_1) : (⟨S1x1, .f32⟩ : BufTy).Contents (Elt F) → (⟨S1x16, .f32⟩ : BufTy).Contents (Elt F)),
    StableHlo.binary main_v73 main_call3_v4 main_call3_v5 (subf : (⟨S1x16, .f32⟩ : BufTy).Contents (Elt F) → (⟨S1x16, .f32⟩ : BufTy).Contents (Elt F) → (⟨S1x16, .f32⟩ : BufTy).Contents (Elt F)),
    StableHlo.unary main_call3_v5 main_call3_v6 (Host.exp : (⟨S1x16, .f32⟩ : BufTy).Contents (Elt F) → (⟨S1x16, .f32⟩ : BufTy).Contents (Elt F)),
    StableHlo.nullary main_call3_cst_1 ((constant S_ .f32 0x00000000#32) : (⟨S_, .f32⟩ : BufTy).Contents (Elt F)),
    StableHlo.binary main_call3_v6 main_call3_cst_1 main_call3_v7 ((fun x v => Host.reduceAdd x v reducesTo_S1x16_S1_d1 h_S_) : (⟨S1x16, .f32⟩ : BufTy).Contents (Elt F) → (⟨S_, .f32⟩ : BufTy).Contents (Elt F) → (⟨S1, .f32⟩ : BufTy).Contents (Elt F)),
    StableHlo.unary main_call3_v7 main_call3_v8 ((broadcastInDim S1x1 ![0] bcast_S1_S1x1_0) : (⟨S1, .f32⟩ : BufTy).Contents (Elt F) → (⟨S1x1, .f32⟩ : BufTy).Contents (Elt F)),
    StableHlo.unary main_call3_v8 main_call3_v9 (Host.log : (⟨S1x1, .f32⟩ : BufTy).Contents (Elt F) → (⟨S1x1, .f32⟩ : BufTy).Contents (Elt F)),
    StableHlo.unary main_call3_v9 main_call3_v10 ((broadcastInDim S1x16 ![0, 1] bcast_S1x1_S1x16_0_1) : (⟨S1x1, .f32⟩ : BufTy).Contents (Elt F) → (⟨S1x16, .f32⟩ : BufTy).Contents (Elt F)),
    StableHlo.binary main_call3_v5 main_call3_v10 main_v74 (subf : (⟨S1x16, .f32⟩ : BufTy).Contents (Elt F) → (⟨S1x16, .f32⟩ : BufTy).Contents (Elt F) → (⟨S1x16, .f32⟩ : BufTy).Contents (Elt F)) ]

theorem ops1_split : (ops1 : List (HloOp τ sig (Elt F))) = opsPool ++ opsHead := rfl

end Stretches

/-- The array X minus its mean, the mean being the host sum of X started from z over the entry count. -/
def yOf (X : A S100000x128) (z : A S_) : A S100000x128 :=
  subf (F := Ideal) (φ := .f32) X
    (broadcastInDim S100000x128 ![] bcast_S_S100000x128
      (Host.divf (F := Ideal) (φ := .f32) (Host.reduceAdd (F := Ideal) (φ := .f32) X z reducesTo_S100000x128_S_d0_1 h_S_) cntS))

/-- The centred array over σ + ε of its variance, scaled and shifted per channel, summed over the nodes, as a row. -/
def pooledOf (X : A S100000x128) (z : A S_) (lw lb : A S128) : A S1x128 :=
  broadcastInDim S1x128 ![1] bcast_S128_S1x128_1
    (Host.reduceAdd (F := Ideal) (φ := .f32)
      (addf (F := Ideal) (φ := .f32)
        (mulf (F := Ideal) (φ := .f32)
          (Host.divf (F := Ideal) (φ := .f32) (yOf X z)
            (broadcastInDim S100000x128 ![] bcast_S_S100000x128
              (addf (F := Ideal) (φ := .f32) (Host.sqrt (F := Ideal) (φ := .f32) (RefVal.varOf (yOf X z) (constantI S_ 32 0#32))) epsS)))
          (broadcastInDim S100000x128 ![0, 1] bcast_S1x128_S100000x128_0_1 (broadcastInDim S1x128 ![1] bcast_S128_S1x128_1 lw)))
        (broadcastInDim S100000x128 ![0, 1] bcast_S1x128_S100000x128_0_1 (broadcastInDim S1x128 ![1] bcast_S128_S1x128_1 lb)))
      zeroS reducesTo_S100000x128_S128_d0 h_S_)

/-- On the rectified convolution, with the zero as the sum's start, it is the reference's pooled row. -/
theorem pooledOf_x (nf : A S100000x2) (ei : AI S2x1600000) (w : A S2x128) (b lw lb : A S128) :
    pooledOf (RefVal.x nf ei w b) zeroS lw lb = RefVal.pooled nf ei w b lw lb := by
  unfold pooledOf yOf RefVal.pooled RefVal.den RefVal.var RefVal.y RefVal.mean
  with_reducible rfl

/-- The pooled row after the first stretch. -/
theorem pool_read (W : Valuation τ sig (Elt Idealize.ShloMosaic.Ideal)) :
    after (opsPool (F := Idealize.ShloMosaic.Ideal)) W (main_v65 : DevRef τ sig)
      = pooledOf (W (main_v48 : DevRef τ sig)) (W (main_cst_8 : DevRef τ sig)) (W (main_arg5 : DevRef τ sig)) (W (main_arg6 : DevRef τ sig)) := by
  dsimp only [opsPool]; after_results_simp
  unfold pooledOf yOf RefVal.varOf RefVal.varCentred RefVal.varDiv
  with_reducible rfl

/-- The first stretch writes none of the arguments the second reads. -/
theorem head_arg2 (W : Valuation τ sig (Elt Idealize.ShloMosaic.Ideal)) :
    after (opsPool (F := Idealize.ShloMosaic.Ideal)) W (main_arg2 : DevRef τ sig) = W (main_arg2 : DevRef τ sig) := by
  dsimp only [opsPool]; after_results_simp
theorem head_arg7 (W : Valuation τ sig (Elt Idealize.ShloMosaic.Ideal)) :
    after (opsPool (F := Idealize.ShloMosaic.Ideal)) W (main_arg7 : DevRef τ sig) = W (main_arg7 : DevRef τ sig) := by
  dsimp only [opsPool]; after_results_simp
theorem head_arg8 (W : Valuation τ sig (Elt Idealize.ShloMosaic.Ideal)) :
    after (opsPool (F := Idealize.ShloMosaic.Ideal)) W (main_arg8 : DevRef τ sig) = W (main_arg8 : DevRef τ sig) := by
  dsimp only [opsPool]; after_results_simp
theorem head_arg9 (W : Valuation τ sig (Elt Idealize.ShloMosaic.Ideal)) :
    after (opsPool (F := Idealize.ShloMosaic.Ideal)) W (main_arg9 : DevRef τ sig) = W (main_arg9 : DevRef τ sig) := by
  dsimp only [opsPool]; after_results_simp
theorem head_arg10 (W : Valuation τ sig (Elt Idealize.ShloMosaic.Ideal)) :
    after (opsPool (F := Idealize.ShloMosaic.Ideal)) W (main_arg10 : DevRef τ sig) = W (main_arg10 : DevRef τ sig) := by
  dsimp only [opsPool]; after_results_simp

/-- The result after the second stretch, from any contents. -/
theorem head_read (W : Valuation τ sig (Elt Idealize.ShloMosaic.Ideal)) :
    after (opsHead (F := Idealize.ShloMosaic.Ideal)) W (main_v74 : DevRef τ sig)
      = RefVal.tail (W (main_v65 : DevRef τ sig)) (W (main_arg2 : DevRef τ sig)) (W (main_arg7 : DevRef τ sig)) (W (main_arg8 : DevRef τ sig))
          (W (main_arg9 : DevRef τ sig)) (W (main_arg10 : DevRef τ sig)) := by
  dsimp only [opsHead]; after_results_simp
  unfold RefVal.tail RefVal.logSoftmax RefVal.lsShift
  with_reducible rfl

/-- The result buffer after the second half. -/
theorem tail_eq (W : Valuation τ sig (Elt Idealize.ShloMosaic.Ideal)) :
    after (ops1 (F := Idealize.ShloMosaic.Ideal)) W (main_v74 : DevRef τ sig)
      = RefVal.tail (pooledOf (W (main_v48 : DevRef τ sig)) (W (main_cst_8 : DevRef τ sig)) (W (main_arg5 : DevRef τ sig)) (W (main_arg6 : DevRef τ sig)))
          (W (main_arg2 : DevRef τ sig)) (W (main_arg7 : DevRef τ sig)) (W (main_arg8 : DevRef τ sig)) (W (main_arg9 : DevRef τ sig)) (W (main_arg10 : DevRef τ sig)) := by
  rw [ops1_split, after_app, head_read, pool_read, head_arg2, head_arg7, head_arg8, head_arg9, head_arg10]

/-! ## The arguments are not written -/

theorem arg0_1 (W : Valuation τ sig (Elt Idealize.ShloMosaic.Ideal)) :
    after (ops1 (F := Idealize.ShloMosaic.Ideal)) W (main_arg0 : DevRef τ sig) = W (main_arg0 : DevRef τ sig) := by
  dsimp only [ops1]; after_results_simp
theorem arg1_1 (W : Valuation τ sig (Elt Idealize.ShloMosaic.Ideal)) :
    after (ops1 (F := Idealize.ShloMosaic.Ideal)) W (main_arg1 : DevRef τ sig) = W (main_arg1 : DevRef τ sig) := by
  dsimp only [ops1]; after_results_simp
theorem arg2_1 (W : Valuation τ sig (Elt Idealize.ShloMosaic.Ideal)) :
    after (ops1 (F := Idealize.ShloMosaic.Ideal)) W (main_arg2 : DevRef τ sig) = W (main_arg2 : DevRef τ sig) := by
  dsimp only [ops1]; after_results_simp
theorem arg3_1 (W : Valuation τ sig (Elt Idealize.ShloMosaic.Ideal)) :
    after (ops1 (F := Idealize.ShloMosaic.Ideal)) W (main_arg3 : DevRef τ sig) = W (main_arg3 : DevRef τ sig) := by
  dsimp only [ops1]; after_results_simp
theorem arg4_1 (W : Valuation τ sig (Elt Idealize.ShloMosaic.Ideal)) :
    after (ops1 (F := Idealize.ShloMosaic.Ideal)) W (main_arg4 : DevRef τ sig) = W (main_arg4 : DevRef τ sig) := by
  dsimp only [ops1]; after_results_simp
theorem arg5_1 (W : Valuation τ sig (Elt Idealize.ShloMosaic.Ideal)) :
    after (ops1 (F := Idealize.ShloMosaic.Ideal)) W (main_arg5 : DevRef τ sig) = W (main_arg5 : DevRef τ sig) := by
  dsimp only [ops1]; after_results_simp
theorem arg6_1 (W : Valuation τ sig (Elt Idealize.ShloMosaic.Ideal)) :
    after (ops1 (F := Idealize.ShloMosaic.Ideal)) W (main_arg6 : DevRef τ sig) = W (main_arg6 : DevRef τ sig) := by
  dsimp only [ops1]; after_results_simp
theorem arg7_1 (W : Valuation τ sig (Elt Idealize.ShloMosaic.Ideal)) :
    after (ops1 (F := Idealize.ShloMosaic.Ideal)) W (main_arg7 : DevRef τ sig) = W (main_arg7 : DevRef τ sig) := by
  dsimp only [ops1]; after_results_simp
theorem arg8_1 (W : Valuation τ sig (Elt Idealize.ShloMosaic.Ideal)) :
    after (ops1 (F := Idealize.ShloMosaic.Ideal)) W (main_arg8 : DevRef τ sig) = W (main_arg8 : DevRef τ sig) := by
  dsimp only [ops1]; after_results_simp
theorem arg9_1 (W : Valuation τ sig (Elt Idealize.ShloMosaic.Ideal)) :
    after (ops1 (F := Idealize.ShloMosaic.Ideal)) W (main_arg9 : DevRef τ sig) = W (main_arg9 : DevRef τ sig) := by
  dsimp only [ops1]; after_results_simp
theorem arg10_1 (W : Valuation τ sig (Elt Idealize.ShloMosaic.Ideal)) :
    after (ops1 (F := Idealize.ShloMosaic.Ideal)) W (main_arg10 : DevRef τ sig) = W (main_arg10 : DevRef τ sig) := by
  dsimp only [ops1]; after_results_simp

end Cert.ReferenceIdeal.RefRun

end
-- ==== Proof.RefRun.lean ====
import proofs.«123483_j33887291965745_2_alg».proof.Proof.RefRead0
import proofs.«123483_j33887291965745_2_alg».proof.Proof.RefRead1

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.ReferenceIdeal.RefVal (A AI zeroS)

/-! The reference program's run: the two halves' read-backs joined.  The second half's result is the staged tail of
    the pooled row of whatever the first half leaves in the rectified array's buffer and in the zero scalar's, and
    the first half leaves there the rectified convolution of the arguments and the float zero; no argument is
    written by either half. -/

/-- After the whole line the result buffer holds the staged value of the eleven arguments. -/
theorem out_eq (V : Valuation τ sig (Elt Idealize.ShloMosaic.Ideal)) :
    after (ops1 (F := Idealize.ShloMosaic.Ideal)) (after (ops0 (F := Idealize.ShloMosaic.Ideal)) V) (main_v74 : DevRef τ sig)
      = RefVal.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [tail_eq, x_eq, cst8_eq, arg2_0, arg5_0, arg6_0, arg7_0, arg8_0, arg9_0, arg10_0, pooledOf_x]
  rfl

theorem arg0_eq (V : Valuation τ sig (Elt Idealize.ShloMosaic.Ideal)) :
    after (ops1 (F := Idealize.ShloMosaic.Ideal)) (after (ops0 (F := Idealize.ShloMosaic.Ideal)) V) (main_arg0 : DevRef τ sig) = V (main_arg0 : DevRef τ sig) :=
  (arg0_1 _).trans (arg0_0 V)
theorem arg1_eq (V : Valuation τ sig (Elt Idealize.ShloMosaic.Ideal)) :
    after (ops1 (F := Idealize.ShloMosaic.Ideal)) (after (ops0 (F := Idealize.ShloMosaic.Ideal)) V) (main_arg1 : DevRef τ sig) = V (main_arg1 : DevRef τ sig) :=
  (arg1_1 _).trans (arg1_0 V)
theorem arg2_eq (V : Valuation τ sig (Elt Idealize.ShloMosaic.Ideal)) :
    after (ops1 (F := Idealize.ShloMosaic.Ideal)) (after (ops0 (F := Idealize.ShloMosaic.Ideal)) V) (main_arg2 : DevRef τ sig) = V (main_arg2 : DevRef τ sig) :=
  (arg2_1 _).trans (arg2_0 V)
theorem arg3_eq (V : Valuation τ sig (Elt Idealize.ShloMosaic.Ideal)) :
    after (ops1 (F := Idealize.ShloMosaic.Ideal)) (after (ops0 (F := Idealize.ShloMosaic.Ideal)) V) (main_arg3 : DevRef τ sig) = V (main_arg3 : DevRef τ sig) :=
  (arg3_1 _).trans (arg3_0 V)
theorem arg4_eq (V : Valuation τ sig (Elt Idealize.ShloMosaic.Ideal)) :
    after (ops1 (F := Idealize.ShloMosaic.Ideal)) (after (ops0 (F := Idealize.ShloMosaic.Ideal)) V) (main_arg4 : DevRef τ sig) = V (main_arg4 : DevRef τ sig) :=
  (arg4_1 _).trans (arg4_0 V)
theorem arg5_eq (V : Valuation τ sig (Elt Idealize.ShloMosaic.Ideal)) :
    after (ops1 (F := Idealize.ShloMosaic.Ideal)) (after (ops0 (F := Idealize.ShloMosaic.Ideal)) V) (main_arg5 : DevRef τ sig) = V (main_arg5 : DevRef τ sig) :=
  (arg5_1 _).trans (arg5_0 V)
theorem arg6_eq (V : Valuation τ sig (Elt Idealize.ShloMosaic.Ideal)) :
    after (ops1 (F := Idealize.ShloMosaic.Ideal)) (after (ops0 (F := Idealize.ShloMosaic.Ideal)) V) (main_arg6 : DevRef τ sig) = V (main_arg6 : DevRef τ sig) :=
  (arg6_1 _).trans (arg6_0 V)
theorem arg7_eq (V : Valuation τ sig (Elt Idealize.ShloMosaic.Ideal)) :
    after (ops1 (F := Idealize.ShloMosaic.Ideal)) (after (ops0 (F := Idealize.ShloMosaic.Ideal)) V) (main_arg7 : DevRef τ sig) = V (main_arg7 : DevRef τ sig) :=
  (arg7_1 _).trans (arg7_0 V)
theorem arg8_eq (V : Valuation τ sig (Elt Idealize.ShloMosaic.Ideal)) :
    after (ops1 (F := Idealize.ShloMosaic.Ideal)) (after (ops0 (F := Idealize.ShloMosaic.Ideal)) V) (main_arg8 : DevRef τ sig) = V (main_arg8 : DevRef τ sig) :=
  (arg8_1 _).trans (arg8_0 V)
theorem arg9_eq (V : Valuation τ sig (Elt Idealize.ShloMosaic.Ideal)) :
    after (ops1 (F := Idealize.ShloMosaic.Ideal)) (after (ops0 (F := Idealize.ShloMosaic.Ideal)) V) (main_arg9 : DevRef τ sig) = V (main_arg9 : DevRef τ sig) :=
  (arg9_1 _).trans (arg9_0 V)
theorem arg10_eq (V : Valuation τ sig (Elt Idealize.ShloMosaic.Ideal)) :
    after (ops1 (F := Idealize.ShloMosaic.Ideal)) (after (ops0 (F := Idealize.ShloMosaic.Ideal)) V) (main_arg10 : DevRef τ sig) = V (main_arg10 : DevRef τ sig) :=
  (arg10_1 _).trans (arg10_0 V)

/-- From any memory with zero counters every weakly fair execution of the reference's entry function terminates
    with the result buffer at the staged value of the argument arrays' launch contents, and the arguments unchanged. -/
theorem run (m : (ℓ : Loc nD τ sig) → Buf (Elt Idealize.ShloMosaic.Ideal) ℓ) (ρ : Dev nD → PrngReg) :
    θ_run (defs (F := Idealize.ShloMosaic.Ideal)) (onTc (τ := τ) (main (F := Idealize.ShloMosaic.Ideal))) ⟨m, fun _ => 0, ρ⟩ (fun r => ∀ c : Dev nD,
      r.2.mem ((c.tc : Thread nD τ).loc main_v74)
        = RefVal.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))) :=
  (θ_run defs _ _).mono (fun _ h c => ⟨(h c main_v74).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.Twin.lean ====
/-
  The two programs compute their shared host values by the same operations: the source and destination rows of the
  edge list, the degree and its inverse square root, the per-edge weight, the index columns of the gathers and of the
  scatters, and the dense head after the pooled row.  Each program states these over its own copies of the shape
  names and of the operations' dimension records, which are the same literal shapes and the same literal records, so
  the two terms are one term.
-/
import proofs.«123483_j33887291965745_2_alg».proof.Proof.KValB
import proofs.«123483_j33887291965745_2_alg».proof.Proof.RefVal
import proofs.«123483_j33887291965745_2_alg».proof.Proof.Gen.ReferenceIdeal
import proofs.«123483_j33887291965745_2_alg».proof.Proof.Gen.KernelIdeal

noncomputable section

namespace Cert.Twin

open Idealize.ShloMosaic

set_option maxHeartbeats 400000 in
theorem sdst_eq (ei : Cert.KernelIdeal.KVal.IA Cert.KernelIdeal.S2x1600000) :
    Cert.KernelIdeal.KVal.sdst ei = Cert.ReferenceIdeal.RefVal.sdst ei := rfl

set_option maxHeartbeats 400000 in
theorem gsrc_eq (ei : Cert.KernelIdeal.KVal.IA Cert.KernelIdeal.S2x1600000) :
    Cert.KernelIdeal.KVal.gsrc ei = Cert.ReferenceIdeal.RefVal.gsrc ei := rfl

set_option maxHeartbeats 400000 in
theorem dis_eq (ei : Cert.KernelIdeal.KVal.IA Cert.KernelIdeal.S2x1600000) :
    Cert.KernelIdeal.KVal.dis ei = Cert.ReferenceIdeal.RefVal.dis ei := rfl

set_option maxHeartbeats 400000 in
theorem norm_eq (ei : Cert.KernelIdeal.KVal.IA Cert.KernelIdeal.S2x1600000) :
    Cert.KernelIdeal.KVal.norm ei = Cert.ReferenceIdeal.RefVal.norm ei := rfl

set_option maxHeartbeats 400000 in
theorem lsShift_eq (z : Cert.KernelIdeal.KVal.FA Cert.KernelIdeal.S1x16) :
    Cert.KernelIdeal.KVal.lsShift z = Cert.ReferenceIdeal.RefVal.lsShift z := rfl

set_option maxHeartbeats 400000 in
theorem logSoftmax_eq (z : Cert.KernelIdeal.KVal.FA Cert.KernelIdeal.S1x16) :
    Cert.KernelIdeal.KVal.logSoftmax z = Cert.ReferenceIdeal.RefVal.logSoftmax z := rfl

set_option maxHeartbeats 400000 in
theorem tail_eq (p : Cert.KernelIdeal.KVal.FA Cert.KernelIdeal.S1x128) (esn : Cert.KernelIdeal.KVal.FA Cert.KernelIdeal.S1x500) (w1 : Cert.KernelIdeal.KVal.FA Cert.KernelIdeal.S628x128)
    (b1 : Cert.KernelIdeal.KVal.FA Cert.KernelIdeal.S128) (w2 : Cert.KernelIdeal.KVal.FA Cert.KernelIdeal.S128x16) (b2 : Cert.KernelIdeal.KVal.FA Cert.KernelIdeal.S16) :
    Cert.KernelIdeal.KVal.tail p esn w1 b1 w2 b2 = Cert.ReferenceIdeal.RefVal.tail p esn w1 b1 w2 b2 := rfl

end Cert.Twin

end
-- ==== Proof.RefRead.lean ====
/-
  The reference's rectified convolution and its pooled row READ AT AN INDEX, in the normal form of Spec.lean.

  Pure reading, operation by operation: a broadcast reads its operand at the coordinates it keeps, the projection is a
  two-term sum, the gather reads the clamped row, the accumulating scatter adds the updates of the edges landing on the
  row, a host sum is its initial value plus the sum of the entries.  No finiteness is used anywhere.
-/
import proofs.«123483_j33887291965745_2_alg».proof.Proof.RefVal
import proofs.«123483_j33887291965745_2_alg».proof.Proof.Spec
import proofs.«123483_j33887291965745_2_alg».proof.Proof.LibRowIndex
import proofs.«123483_j33887291965745_2_alg».proof.Proof.LibScatterRows
import proofs.«123483_j33887291965745_2_alg».proof.Proof.LibBlockSum
import proofs.«123483_j33887291965745_2_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefRead

open Idealize.ShloMosaic Idealize.ShloMosaic.ValueIdx Cert.ReferenceIdeal
open Cert.ReferenceIdeal.Facts₀ Cert.ReferenceIdeal.Facts

variable [Facts]

/-! ## Broadcasts along one axis, read at an index -/

section Bcast
variable {α : Type} {n m : Nat}

/-- A vector laid out as a column reads, at (c, 0), its entry c. -/
theorem bc_col (v : (⟨1, ![n]⟩ : Shape).Idx → α) (h : (⟨1, ![n]⟩ : Shape).BroadcastsInDim ⟨2, ![n, 1]⟩ ![0])
    (c : Fin n) (u : Fin 1) : broadcastInDim ⟨2, ![n, 1]⟩ ![0] h v (ix2 c u) = v (ix1 c) := by
  refine broadcastInDim_apply _ h v (ix2 c u) (ix1 c) fun a => ?_
  match a with
  | ⟨0, _⟩ =>
    show c.val = if n = 1 then 0 else c.val
    split
    · have := c.isLt; omega
    · rfl

/-- A column repeated over m columns reads, at (c, k), the column's entry c. -/
theorem bc_colB (w : (⟨2, ![n, 1]⟩ : Shape).Idx → α) (h : (⟨2, ![n, 1]⟩ : Shape).BroadcastsInDim ⟨2, ![n, m]⟩ ![0, 1])
    (c : Fin n) (k : Fin m) : broadcastInDim ⟨2, ![n, m]⟩ ![0, 1] h w (ix2 c k) = w (ix2 c (0 : Fin 1)) := by
  refine broadcastInDim_apply _ h w (ix2 c k) (ix2 c (0 : Fin 1)) fun a => ?_
  match a with
  | ⟨0, _⟩ =>
    show c.val = if n = 1 then 0 else c.val
    split
    · have := c.isLt; omega
    · rfl
  | ⟨1, _⟩ =>
    show (0 : Nat) = if (1 : Nat) = 1 then 0 else k.val
    rw [if_pos rfl]

/-- A vector laid out as a row reads, at (0, k), its entry k. -/
theorem bc_row (v : (⟨1, ![m]⟩ : Shape).Idx → α) (h : (⟨1, ![m]⟩ : Shape).BroadcastsInDim ⟨2, ![1, m]⟩ ![1])
    (u : Fin 1) (k : Fin m) : broadcastInDim ⟨2, ![1, m]⟩ ![1] h v (ix2 u k) = v (ix1 k) := by
  refine broadcastInDim_apply _ h v (ix2 u k) (ix1 k) fun a => ?_
  match a with
  | ⟨0, _⟩ =>
    show k.val = if m = 1 then 0 else k.val
    split
    · have := k.isLt; omega
    · rfl

/-- A row repeated over n rows reads, at (c, k), the row's entry k. -/
theorem bc_rowB (w : (⟨2, ![1, m]⟩ : Shape).Idx → α) (h : (⟨2, ![1, m]⟩ : Shape).BroadcastsInDim ⟨2, ![n, m]⟩ ![0, 1])
    (c : Fin n) (k : Fin m) : broadcastInDim ⟨2, ![n, m]⟩ ![0, 1] h w (ix2 c k) = w (ix2 (0 : Fin 1) k) := by
  refine broadcastInDim_apply _ h w (ix2 c k) (ix2 (0 : Fin 1) k) fun a => ?_
  match a with
  | ⟨0, _⟩ =>
    show (0 : Nat) = if (1 : Nat) = 1 then 0 else c.val
    rw [if_pos rfl]
  | ⟨1, _⟩ =>
    show k.val = if m = 1 then 0 else k.val
    split
    · have := k.isLt; omega
    · rfl

/-- A one-entry matrix repeated over all of [n, m] reads that entry everywhere. -/
theorem bc_oneB (w : (⟨2, ![1, 1]⟩ : Shape).Idx → α) (h : (⟨2, ![1, 1]⟩ : Shape).BroadcastsInDim ⟨2, ![n, m]⟩ ![0, 1])
    (c : Fin n) (k : Fin m) : broadcastInDim ⟨2, ![n, m]⟩ ![0, 1] h w (ix2 c k) = w (ix2 (0 : Fin 1) (0 : Fin 1)) := by
  refine broadcastInDim_apply _ h w (ix2 c k) (ix2 (0 : Fin 1) (0 : Fin 1)) fun a => ?_
  match a with
  | ⟨0, _⟩ =>
    show (0 : Nat) = if (1 : Nat) = 1 then 0 else c.val
    rw [if_pos rfl]
  | ⟨1, _⟩ =>
    show (0 : Nat) = if (1 : Nat) = 1 then 0 else k.val
    rw [if_pos rfl]

end Bcast

/-- A bias vector repeated over the rows reads, at (n, k), its entry k. -/
theorem rowsOf_apply (v : RefVal.A S128) (n : Fin 100000) (k : Fin 128) :
    broadcastInDim S100000x128 ![0, 1] bcast_S1x128_S100000x128_0_1 (broadcastInDim S1x128 ![1] bcast_S128_S1x128_1 v) (ix2 n k)
      = v (ix1 k) :=
  (bc_rowB _ bcast_S1x128_S100000x128_0_1 n k).trans (bc_row v bcast_S128_S1x128_1 0 k)

/-- The zero scalar repeated over any shape reads 0. -/
theorem zeros_apply {t : Shape} (h : S_.BroadcastsInDim t ![]) (j : t.Idx) :
    broadcastInDim t ![] h RefVal.zeroS j = (0 : EReal) :=
  (Cert.Lib.RowOps.host_splat RefVal.zeroS h j).trans Ideal.ofBits_zero_f32

/-! ## The projection -/

/-- The projected features at (n, k): the two raw channels of node n against column k of the weights. -/
theorem h_apply (nf : RefVal.A S100000x2) (w : RefVal.A S2x128) (n : Fin 100000) (k : Fin 128) :
    RefVal.h nf w (ix2 n k) = ∑ j : Fin 2, nf (ix2 n j) * w (ix2 j k) := by
  unfold RefVal.h
  refine (Ideal.dotGeneral_apply dot_S100000x2_S2x128_S100000x128_1_0_0_1_n_n none .single nf w (ix2 n k)).trans ?_
  rw [← Equiv.sum_comp (contrEquiv1 dot_S100000x2_S2x128_S100000x128_1_0_0_1_n_n 2 rfl rfl).symm]
  refine Finset.sum_congr rfl fun j _ => ?_
  congr 2
  · funext a
    apply Fin.ext
    match a with
    | ⟨0, _⟩ => rfl
    | ⟨1, _⟩ =>
      exact (DotDims.lhsIdx_val_of_single dot_S100000x2_S2x128_S100000x128_1_0_0_1_n_n (cl := 1) rfl _ _).trans
        (contrEquiv1_symm_val dot_S100000x2_S2x128_S100000x128_1_0_0_1_n_n 2 rfl rfl j)
  · funext a
    apply Fin.ext
    match a with
    | ⟨0, _⟩ =>
      exact (DotDims.rhsIdx_val_of_single dot_S100000x2_S2x128_S100000x128_1_0_0_1_n_n (cr := 0) rfl _ _).trans
        (contrEquiv1_symm_val dot_S100000x2_S2x128_S100000x128_1_0_0_1_n_n 2 rfl rfl j)
    | ⟨1, _⟩ => rfl

/-! ## The row gather and the accumulating row scatter -/

/-- The row gather at (e, k): row `idx[e, 0]`, read signed and clamped into [0, 99999], column k. -/
theorem gatherRows_apply (z : RefVal.A S100000x128) (idx : RefVal.AI S1600000x1) (e : Fin 1600000) (k : Fin 128) :
    Host.gather gather_S100000x128_S1600000x1_S1600000x128_1_0_n_n_0_1_1128 z idx (ix2 e k)
      = z (ix2 ⟨min (idx (ix2 e (0 : Fin 1))).toInt.toNat (100000 - 1), by omega⟩ k) :=
  Cert.RowIndex.rowGather_apply (N := 100000) (E := 1600000) (C := 128) (by norm_num)
    gather_S100000x128_S1600000x1_S1600000x128_1_0_n_n_0_1_1128_wf z idx e k

/-- The accumulating row scatter at (n, k): the operand there plus the updates of the edges whose index is n. -/
theorem scatterRows_apply (x0 : RefVal.A S100000x128) (idx : RefVal.AI S1600000x1) (u : RefVal.A S1600000x128)
    (n : Fin 100000) (k : Fin 128) :
    Host.scatterAdd (F := Ideal) (φ := .f32) scatter_S100000x128_S1600000x1_S1600000x128_1_0_0_1 x0 idx u (ix2 n k)
      = x0 (ix2 n k) + ∑ e : Fin 1600000, if (idx (ix2 e (0 : Fin 1))).toInt = (n.val : Int) then u (ix2 e k) else 0 :=
  Cert.ScatterRows.rowScatter_apply (N := 100000) (E := 1600000) (C := 128)
    scatter_S100000x128_S1600000x1_S1600000x128_1_0_0_1_wf x0 idx u n k

/-- The row a gather of the sources reads for edge e: the signed start index clamped into [0, 99999]. -/
abbrev gAt (ei : RefVal.AI S2x1600000) (e : Fin 1600000) : Fin 100000 :=
  ⟨min ((RefVal.gsrc ei) (ix2 e (0 : Fin 1))).toInt.toNat (100000 - 1), by omega⟩

/-- Edge e lands on node n: its scatter index, read signed, is n. -/
abbrev lands (ei : RefVal.AI S2x1600000) (e : Fin 1600000) (n : Fin 100000) : Prop :=
  ((RefVal.sdst ei) (ix2 e (0 : Fin 1))).toInt = (n.val : Int)

/-- A per-node weight repeated over the channels reads, at (n, k), the weight of node n. -/
theorem colsOf_apply (v : RefVal.A S100000) (n : Fin 100000) (k : Fin 128) :
    broadcastInDim S100000x128 ![0, 1] bcast_S100000x1_S100000x128_0_1
        (broadcastInDim S100000x1 ![0] bcast_S100000_S100000x1_0 v) (ix2 n k) = v (ix1 n) :=
  (bc_colB _ bcast_S100000x1_S100000x128_0_1 n k).trans (bc_col v bcast_S100000_S100000x1_0 n 0)

/-- A per-edge weight repeated over the channels reads, at (e, k), the weight of edge e. -/
theorem edgesOf_apply (v : RefVal.A S1600000) (e : Fin 1600000) (k : Fin 128) :
    broadcastInDim S1600000x128 ![0, 1] bcast_S1600000x1_S1600000x128_0_1
        (broadcastInDim S1600000x1 ![0] bcast_S1600000_S1600000x1_0 v) (ix2 e k) = v (ix1 e) :=
  (bc_colB _ bcast_S1600000x1_S1600000x128_0_1 e k).trans (bc_col v bcast_S1600000_S1600000x1_0 e 0)

/-- The message of edge e at channel k: the projected row of its source times the edge's weight. -/
theorem msg_apply (nf : RefVal.A S100000x2) (ei : RefVal.AI S2x1600000) (w : RefVal.A S2x128) (e : Fin 1600000) (k : Fin 128) :
    RefVal.msg nf ei w (ix2 e k) = (∑ j : Fin 2, nf (ix2 (gAt ei e) j) * w (ix2 j k)) * RefVal.norm ei (ix1 e) := by
  unfold RefVal.msg
  rw [mulf_apply, gatherRows_apply, h_apply, edgesOf_apply]

/-- The aggregate at (n, k): the messages of the edges landing on n. -/
theorem agg_apply (nf : RefVal.A S100000x2) (ei : RefVal.AI S2x1600000) (w : RefVal.A S2x128) (n : Fin 100000) (k : Fin 128) :
    RefVal.agg nf ei w (ix2 n k)
      = ∑ e : Fin 1600000, if lands ei e n then (∑ j : Fin 2, nf (ix2 (gAt ei e) j) * w (ix2 j k)) * RefVal.norm ei (ix1 e) else 0 := by
  unfold RefVal.agg
  rw [scatterRows_apply, zeros_apply, zero_add]
  refine Finset.sum_congr rfl fun e _ => ?_
  rw [msg_apply]

/-- THE RECTIFIED CONVOLUTION READ AT (n, k). -/
theorem x_apply (nf : RefVal.A S100000x2) (ei : RefVal.AI S2x1600000) (w : RefVal.A S2x128) (b : RefVal.A S128)
    (n : Fin 100000) (k : Fin 128) :
    RefVal.x nf ei w b (ix2 n k)
      = Cert.GcnPool.actR (fun n j => nf (ix2 n j)) (fun j k => w (ix2 j k)) (fun e => RefVal.norm ei (ix1 e))
          (fun n => RefVal.dis ei (ix1 n) * RefVal.dis ei (ix1 n)) (gAt ei) (lands ei) (fun k => b (ix1 k)) n k := by
  unfold RefVal.x RefVal.pre
  rw [maximumf_apply, zeros_apply, addf_apply, addf_apply, mulf_apply, rowsOf_apply, colsOf_apply, agg_apply, h_apply,
    mulf_apply]
  rfl

/-! ## The host sums -/

/-- The host sum of all entries, at its one index: the initial value plus the double sum. -/
theorem total_apply (X : RefVal.A S100000x128) (init : RefVal.A S_) (j : S_.Idx) :
    Host.reduceAdd (F := Ideal) (φ := .f32) X init reducesTo_S100000x128_S_d0_1 h_S_ j
      = init ix0 + ∑ n : Fin 100000, ∑ k : Fin 128, X (ix2 n k) := by
  show Ideal.hostReduceAdd reducesTo_S100000x128_S_d0_1 X (init (Shape.Idx.first h_S_)) j = _
  rw [Ideal.hostReduceAdd_total reducesTo_S100000x128_S_d0_1 (fun b => b.elim0), sum_idx2, eq_ix0 (Shape.Idx.first h_S_)]

/-- The host sum over the nodes, at channel k: the initial value plus the column's sum. -/
theorem colSum_apply (Z : RefVal.A S100000x128) (init : RefVal.A S_) (k : Fin 128) :
    Host.reduceAdd (F := Ideal) (φ := .f32) Z init reducesTo_S100000x128_S128_d0 h_S_ (ix1 k)
      = init ix0 + ∑ n : Fin 100000, Z (ix2 n k) := by
  have h : S100000x128.Reduces [0] S128 := by decide
  show Ideal.hostReduceAdd reducesTo_S100000x128_S128_d0 Z (init (Shape.Idx.first h_S_)) (ix1 k) = _
  rw [Ideal.hostReduceAdd_single reducesTo_S100000x128_S128_d0 h, eq_ix0 (Shape.Idx.first h_S_)]
  show _ + ∑ n : Fin 100000, Z (h.lift (ix1 k) n) = _
  refine congrArg (_ + ·) (Finset.sum_congr rfl fun n _ => congrArg Z ?_)
  funext a; apply Fin.ext; fin_cases a <;> rfl

/-- The zero scalar at its one index. -/
theorem zeroS_apply (j : S_.Idx) : RefVal.zeroS j = (0 : EReal) := Ideal.ofBits_zero_f32

/-! ## The graph-wide normalisation -/

open Cert.GcnPool in
/-- The entry count as a real number. -/
theorem cN_eq : cN = ((12800000 : ℝ) : EReal) := by
  simp [cN, Ideal.ofBits, Ideal.ieee, -EReal.coe_mul]

open Cert.GcnPool in
/-- The entry count is positive. -/
theorem cN_pos : (0 : EReal) < cN := by
  rw [cN_eq]
  exact_mod_cast (by norm_num : (0 : ℝ) < 12800000)

section Norm
variable (nf : RefVal.A S100000x2) (ei : RefVal.AI S2x1600000) (w : RefVal.A S2x128) (b : RefVal.A S128)

/-- The mean, at its one index, in Spec's spelling. -/
theorem mean_apply (j : S_.Idx) :
    RefVal.mean nf ei w b j = Cert.GcnPool.meanR (fun n k => RefVal.x nf ei w b (ix2 n k)) := by
  unfold RefVal.mean
  rw [Cert.Lib.RowOps.host_divf_apply, total_apply, zeroS_apply]
  rfl

/-- The centred array at (n, k). -/
theorem y_apply (n : Fin 100000) (k : Fin 128) :
    RefVal.y nf ei w b (ix2 n k)
      = RefVal.x nf ei w b (ix2 n k) - Cert.GcnPool.meanR (fun n k => RefVal.x nf ei w b (ix2 n k)) := by
  unfold RefVal.y
  rw [subf_apply, Cert.Lib.RowOps.host_splat, mean_apply]

end Norm

/-- Inside the variance: the array minus its own mean, at (n, k). -/
theorem varCentred_apply (Y : RefVal.A S100000x128) (n : Fin 100000) (k : Fin 128) :
    RefVal.varCentred Y (ix2 n k)
      = Y (ix2 n k) - Ideal.div (0 + Cert.GcnPool.tot (fun n k => Y (ix2 n k))) Cert.GcnPool.cN := by
  unfold RefVal.varCentred
  rw [subf_apply, bc_oneB, Cert.Lib.RowOps.host_divf_apply, Cert.Lib.RowOps.host_splat, Cert.Lib.RowOps.host_splat, total_apply,
    zeroS_apply]
  rfl

/-- The variance's divisor with correction 0, at its one index. -/
theorem varDiv_apply (j : S_.Idx) : RefVal.varDiv (constantI S_ 32 0#32) j = Cert.GcnPool.cN - 0 := by
  unfold RefVal.varDiv
  rw [subf_apply, sitofp_apply]
  have h0 : (FloatOps.sitofp (F := Ideal) .f32 (constantI S_ 32 0#32 j) : EReal) = 0 := by
    show (((0#32 : BitVec 32).toInt : ℝ) : EReal) = 0
    simp
  rw [h0]
  rfl

/-- The variance with correction 0: the positive divisor selects the quotient, which is Spec's centred variance. -/
theorem varOf_apply (Y : RefVal.A S100000x128) (j : S_.Idx) :
    RefVal.varOf Y (constantI S_ 32 0#32) j = Cert.GcnPool.varR (fun n k => Y (ix2 n k)) := by
  unfold RefVal.varOf
  rw [select_apply, cmpf_apply]
  have hc : FloatOps.cmpf (F := Ideal) (φ := .f32) .ogt (RefVal.varDiv (constantI S_ 32 0#32) j) (RefVal.zeroS j) = 1#1 := by
    rw [varDiv_apply, zeroS_apply]
    show Ideal.cmp .ogt (Cert.GcnPool.cN - 0) 0 = 1#1
    simp [Ideal.cmp, cN_pos]
  rw [hc, select_one, Cert.Lib.RowOps.host_divf_apply, total_apply, zeroS_apply, varDiv_apply]
  unfold Cert.GcnPool.varR
  refine congrArg (fun s => Ideal.div (0 + s) (Cert.GcnPool.cN - 0)) ?_
  refine Finset.sum_congr rfl fun n _ => Finset.sum_congr rfl fun k _ => ?_
  rw [mulf_apply, varCentred_apply]

section Pool
variable (nf : RefVal.A S100000x2) (ei : RefVal.AI S2x1600000) (w : RefVal.A S2x128) (b : RefVal.A S128)

/-- σ + ε at its one index: the variance is that of the centred array. -/
theorem den_apply (j : S_.Idx) :
    RefVal.den nf ei w b j
      = Ideal.sqrt (Cert.GcnPool.varR fun n k =>
          RefVal.x nf ei w b (ix2 n k) - Cert.GcnPool.meanR (fun n k => RefVal.x nf ei w b (ix2 n k))) + Cert.GcnPool.cEps := by
  unfold RefVal.den RefVal.var
  rw [addf_apply, Cert.Lib.RowOps.host_sqrt_apply, varOf_apply]
  have hy : (fun n k => RefVal.y nf ei w b (ix2 n k))
      = fun n k => RefVal.x nf ei w b (ix2 n k) - Cert.GcnPool.meanR (fun n k => RefVal.x nf ei w b (ix2 n k)) :=
    funext fun n => funext fun k => y_apply nf ei w b n k
  rw [hy]
  rfl

/-- THE POOLED ROW READ AT CHANNEL k. -/
theorem pooled_apply (lw lb : RefVal.A S128) (k : Fin 128) :
    RefVal.pooled nf ei w b lw lb (ix2 (0 : Fin 1) k)
      = Cert.GcnPool.poolR (fun n k => RefVal.x nf ei w b (ix2 n k)) (fun k => lw (ix1 k)) (fun k => lb (ix1 k)) k := by
  unfold RefVal.pooled
  rw [bc_row, colSum_apply, zeroS_apply]
  unfold Cert.GcnPool.poolR
  refine congrArg (0 + ·) (Finset.sum_congr rfl fun n _ => ?_)
  rw [addf_apply, mulf_apply, Cert.Lib.RowOps.host_divf_apply, y_apply, Cert.Lib.RowOps.host_splat, den_apply, rowsOf_apply,
    rowsOf_apply]

end Pool

end Cert.ReferenceIdeal.RefRead

end
-- ==== Proof.LibCoreLaw.lean ====
/-
  AGGREGATE THEN PROJECT = PROJECT THEN AGGREGATE, for a mean over the edges landing on one node, on real-valued data.

  Fix a node and an output column.  Over the edges `e` (those with `p e` land on the node), the contracted axis `k`, the
  gathered rows `a e k`, the weight column `W k` and the node's divisor `m` (nonzero):
      sum over k of ((0 + sum over the landing e of a e k) / m) * W k
        = (0 + sum over the landing e of (sum over k of a e k * W k)) * (1 / m).
  • `coe_sum`: the embedding of the reals in the extended reals commutes with a finite sum;
  • `core_real`: the identity in the reals (exchange the two sums, distribute the factor);
  • `core`: the identity on the extended reals with their division `Ideal.div`, for entries that are all REAL and a real
    nonzero divisor.  (On the extended reals themselves it fails: products do not distribute over sums with infinities.)
-/
import Idealize.ShloMosaic.PureOps.Ideal
import Idealize.ShloMosaic.PureOps.Ideal.Laws
import proofs.«123483_j33887291965745_2_alg».proof.Proof.LibFinite

noncomputable section

open scoped BigOperators

namespace Cert.CoreLaw

open Idealize.ShloMosaic Cert.Finite

/-- The embedding of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two aggregation orders agree in the reals. -/
theorem core_real {E D : Nat} (p : Fin E → Prop) [DecidablePred p] (a : Fin E → Fin D → ℝ) (W : Fin D → ℝ) (m : ℝ) :
    ∑ k, (0 + ∑ e, if p e then a e k else 0) * (1 / m) * W k
      = (0 + ∑ e, if p e then ∑ k, a e k * W k else 0) * (1 * (1 / m)) := by
  have hg : ∀ e, (if p e then ∑ k, a e k * W k else 0) = ∑ k, (if p e then a e k else 0) * W k := by
    intro e
    split_ifs <;> simp
  simp only [hg, zero_add, one_mul, Finset.sum_mul]
  rw [Finset.sum_comm]
  refine Finset.sum_congr rfl fun e _ => Finset.sum_congr rfl fun k _ => ?_
  ring

/-- The two aggregation orders agree on the extended reals when every entry is a real and the divisor a nonzero real. -/
theorem core {E D : Nat} (p : Fin E → Prop) [DecidablePred p] (a : Fin E → Fin D → EReal) (W : Fin D → EReal) (m : EReal)
    (ha : ∀ e k, IsReal (a e k)) (hW : ∀ k, IsReal (W k)) (hm : IsReal m) (hm0 : m ≠ 0) :
    ∑ k, Ideal.div (0 + ∑ e, if p e then a e k else 0) m * W k
      = (0 + ∑ e, if p e then ∑ k, a e k * W k else 0) * Ideal.div 1 m := by
  choose a' ha' using ha
  choose W' hW' using hW
  obtain ⟨m', rfl⟩ := hm
  have hm' : m' ≠ 0 := by
    rintro rfl
    exact hm0 EReal.coe_zero
  have e1 : ∀ k, Ideal.div (0 + ∑ e, if p e then a e k else 0) (m' : EReal) * W k
      = (((0 + ∑ e, if p e then a' e k else 0) * (1 / m') * W' k : ℝ) : EReal) := by
    intro k
    have h1 : (0 + ∑ e, if p e then a e k else 0 : EReal) = ((0 + ∑ e, if p e then a' e k else 0 : ℝ) : EReal) := by
      rw [EReal.coe_add, EReal.coe_zero, coe_sum]
      congr 1
      refine Finset.sum_congr rfl fun e _ => ?_
      rw [ha' e k]
      split_ifs <;> simp
    rw [Ideal.div_coe hm', hW' k, h1, ← EReal.coe_mul, ← EReal.coe_mul]
  have e2 : (0 + ∑ e, if p e then ∑ k, a e k * W k else 0) * Ideal.div 1 (m' : EReal)
      = (((0 + ∑ e, if p e then ∑ k, a' e k * W' k else 0) * (1 * (1 / m')) : ℝ) : EReal) := by
    have h2 : (0 + ∑ e, if p e then ∑ k, a e k * W k else 0 : EReal)
        = ((0 + ∑ e, if p e then ∑ k, a' e k * W' k else 0 : ℝ) : EReal) := by
      rw [EReal.coe_add, EReal.coe_zero, coe_sum]
      congr 1
      refine Finset.sum_congr rfl fun e _ => ?_
      split_ifs
      · rw [coe_sum]
        refine Finset.sum_congr rfl fun k _ => ?_
        rw [ha' e k, hW' k, EReal.coe_mul]
      · simp
    rw [Ideal.div_coe hm', h2, ← EReal.coe_one, ← EReal.coe_mul, ← EReal.coe_mul]
  simp only [e1]
  rw [e2, ← coe_sum, core_real]

end Cert.CoreLaw

end
-- ==== Proof.LawHop.lean ====
/-
  LINEARITY OF THE PROJECTION.  A graph convolution multiplies each node's two raw features by a 2 x 128 matrix and adds,
  over the edges landing on the node, the weighted projected features of the edge sources.  Because the projection is
  linear, the weighted sum over the edges can be taken on the two raw channels first and projected once afterwards:

      sum_e [e lands on n] (f(g e) . w)_k nm_e + (f n . w)_k d_n
        = (sum_e [..] f(g e) 0 nm_e + f n 0 d_n) w_0k + (sum_e [..] f(g e) 1 nm_e + f n 1 d_n) w_1k.

  On the extended reals this needs every feature, weight and matrix entry to be a real number (distributivity fails at
  the infinities); the bias may be any extended real since it is added to the same real number on both sides.
-/
import proofs.«123483_j33887291965745_2_alg».proof.Proof.Spec
import proofs.«123483_j33887291965745_2_alg».proof.Proof.LibFinite
import proofs.«123483_j33887291965745_2_alg».proof.Proof.LibCoreLaw

noncomputable section

open scoped BigOperators

namespace Cert.GcnPool

open Idealize.ShloMosaic Cert.Finite

/-- An aggregation of finite updates is finite. -/
theorem isReal_aggOf {E C : Nat} (p : Fin E → Fin 100000 → Prop) [∀ e n, Decidable (p e n)] (u : Fin E → Fin C → EReal)
    (hu : ∀ e c, IsReal (u e c)) (n : Fin 100000) (c : Fin C) : IsReal (aggOf p u n c) := by
  unfold aggOf
  refine isReal_sum _ _ fun e _ => ?_
  split_ifs
  · exact hu e c
  · exact isReal_zero

/-- The rectified convolution of finite data is finite. -/
theorem isReal_actK (f a : Fin 100000 → Fin 2 → EReal) (d : Fin 100000 → EReal) (w : Fin 2 → Fin 128 → EReal)
    (b : Fin 128 → EReal) (hf : ∀ n j, IsReal (f n j)) (ha : ∀ n j, IsReal (a n j)) (hd : ∀ n, IsReal (d n))
    (hw : ∀ j k, IsReal (w j k)) (hb : ∀ k, IsReal (b k)) (n : Fin 100000) (k : Fin 128) :
    IsReal (actK f a d w b n k) := by
  unfold actK
  exact (((((ha n 0).add ((hf n 0).mul (hd n))).mul (hw 0 k)).add
    (((ha n 1).add ((hf n 1).mul (hd n))).mul (hw 1 k))).add (hb k)).max isReal_zero

/-- A guarded sum of reals, coerced term by term, is the coerced guarded sum. -/
theorem coe_guardedSum {E : Nat} (q : Fin E → Prop) [DecidablePred q] (r : Fin E → ℝ) :
    (∑ e, if q e then (r e : EReal) else 0) = ((∑ e, if q e then r e else 0 : ℝ) : EReal) := by
  rw [CoreLaw.coe_sum]
  refine Finset.sum_congr rfl fun e _ => ?_
  split_ifs <;> simp

/-- The law on the reals. -/
theorem hop_real {E : Nat} (f : Fin 100000 → Fin 2 → ℝ) (w : Fin 2 → Fin 128 → ℝ) (nm : Fin E → ℝ)
    (d : Fin 100000 → ℝ) (g : Fin E → Fin 100000) (q : Fin E → Prop) [DecidablePred q] (n : Fin 100000) (k : Fin 128) :
    (∑ e : Fin E, if q e then (f (g e) 0 * w 0 k + f (g e) 1 * w 1 k) * nm e else 0) + (f n 0 * w 0 k + f n 1 * w 1 k) * d n
      = ((∑ e : Fin E, if q e then f (g e) 0 * nm e else 0) + f n 0 * d n) * w 0 k
        + ((∑ e : Fin E, if q e then f (g e) 1 * nm e else 0) + f n 1 * d n) * w 1 k := by
  have h : ∀ e, (if q e then (f (g e) 0 * w 0 k + f (g e) 1 * w 1 k) * nm e else 0)
      = (if q e then f (g e) 0 * nm e else 0) * w 0 k + (if q e then f (g e) 1 * nm e else 0) * w 1 k := by
    intro e
    split_ifs <;> ring
  simp only [h, Finset.sum_add_distrib, ← Finset.sum_mul]
  ring

/-- THE LAW: projecting first and aggregating after is aggregating the raw channels first and projecting after. -/
theorem hop_law {E : Nat} (f : Fin 100000 → Fin 2 → EReal) (w : Fin 2 → Fin 128 → EReal) (nm : Fin E → EReal)
    (d : Fin 100000 → EReal) (g : Fin E → Fin 100000) (p : Fin E → Fin 100000 → Prop) [∀ e n, Decidable (p e n)]
    (b : Fin 128 → EReal)
    (hf : ∀ n j, IsReal (f n j)) (hw : ∀ j k, IsReal (w j k)) (hnm : ∀ e, IsReal (nm e)) (hd : ∀ n, IsReal (d n))
    (n : Fin 100000) (k : Fin 128) :
    actR f w nm d g p b n k = actK f (aggOf p fun e j => f (g e) j * nm e) d w b n k := by
  choose f' hf' using hf
  choose w' hw' using hw
  choose nm' hnm' using hnm
  choose d' hd' using hd
  have eL : aggOf p (fun e k => (∑ j : Fin 2, f (g e) j * w j k) * nm e) n k
      = ((∑ e : Fin E, if p e n then (f' (g e) 0 * w' 0 k + f' (g e) 1 * w' 1 k) * nm' e else 0 : ℝ) : EReal) := by
    unfold aggOf
    rw [← coe_guardedSum]
    refine Finset.sum_congr rfl fun e _ => ?_
    simp only [Fin.sum_univ_two, hf', hw', hnm', EReal.coe_mul, EReal.coe_add]
  have eA : ∀ j : Fin 2, aggOf p (fun e j => f (g e) j * nm e) n j
      = ((∑ e : Fin E, if p e n then f' (g e) j * nm' e else 0 : ℝ) : EReal) := by
    intro j
    unfold aggOf
    rw [← coe_guardedSum]
    refine Finset.sum_congr rfl fun e _ => ?_
    simp only [hf', hnm', EReal.coe_mul]
  have hS : aggOf p (fun e k => (∑ j : Fin 2, f (g e) j * w j k) * nm e) n k + (∑ j : Fin 2, f n j * w j k) * d n
      = (aggOf p (fun e j => f (g e) j * nm e) n 0 + f n 0 * d n) * w 0 k
        + (aggOf p (fun e j => f (g e) j * nm e) n 1 + f n 1 * d n) * w 1 k := by
    rw [eL, eA 0, eA 1, Fin.sum_univ_two, hf' n 0, hf' n 1, hw' 0 k, hw' 1 k, hd' n]
    simp only [← EReal.coe_mul, ← EReal.coe_add]
    exact congrArg _ (hop_real f' w' nm' d' g (fun e => p e n) n k)
  unfold actR actK
  rw [hS]

end Cert.GcnPool

end
-- ==== Proof.LibVariance.lean ====
/-
  THE VARIANCE LAW OF BATCH NORMALISATION, on the reals and then on the extended reals for finite entries.

  For n numbers r with mean m = (∑ r) / n, the mean of the squares minus the square of the mean is the mean of the
  squared deviations:  (∑ r²)/n − m² = (∑ (r − m)²)/n.  Expanding the square gives ∑ r² − 2 m ∑ r + n m², and
  ∑ r = n m.  The law needs every entry to be a real number: on the extended reals an infinite entry makes the two
  sides differ.  The quotient by the float constant 100000.0 is the quotient by the real 100000.
-/
import Idealize.ShloMosaic.PureOps.Ideal
import Idealize.ShloMosaic.PureOps.Ideal.Laws

noncomputable section

open scoped BigOperators

namespace Cert.BnLaw

open Idealize.ShloMosaic

/-- The law on the reals. -/
theorem var_real {n : ℕ} (hn : (n : ℝ) ≠ 0) (r : Fin n → ℝ) :
    (∑ k, r k * r k) / n - ((∑ k, r k) / n) * ((∑ k, r k) / n)
      = (∑ k, (r k - (∑ k, r k) / n) * (r k - (∑ k, r k) / n)) / n := by
  set S := ∑ k, r k with hS
  have h1 : ∑ k, (r k - S / n) * (r k - S / n) = (∑ k, r k * r k) - 2 * (S / n) * S + n * ((S / n) * (S / n)) := by
    have : ∀ k, (r k - S / n) * (r k - S / n) = r k * r k - 2 * (S / n) * r k + (S / n) * (S / n) := fun k => by ring
    simp only [this, Finset.sum_add_distrib, Finset.sum_sub_distrib, ← Finset.mul_sum, Finset.sum_const, Finset.card_univ,
      Fintype.card_fin, nsmul_eq_mul, ← hS]
    ring
  rw [h1]
  field_simp
  ring

/-- A finite sum of reals, coerced, is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real constant is the real quotient. -/
theorem div_real {c : ℝ} (hc : c ≠ 0) (N : EReal) (hN : N = (c : EReal)) (a : ℝ) :
    Ideal.div (a : EReal) N = ((a / c : ℝ) : EReal) := by
  rw [hN, Ideal.div_coe hc, ← EReal.coe_mul]
  congr 1
  ring

/-- THE LAW ON THE EXTENDED REALS, for n finite entries and a divisor N that is the real n. -/
theorem var_ereal_gen {n : ℕ} (hn : (n : ℝ) ≠ 0) (N : EReal) (hN : N = ((n : ℝ) : EReal))
    (h : Fin n → EReal) (hf : ∀ k, ∃ r : ℝ, h k = (r : EReal)) :
    Ideal.div (∑ k, h k * h k) N - Ideal.div (∑ k, h k) N * Ideal.div (∑ k, h k) N
      = Ideal.div (∑ k, (h k - Ideal.div (∑ k, h k) N) * (h k - Ideal.div (∑ k, h k) N)) N := by
  choose r hr using hf
  have hS : (∑ k, h k) = ((∑ k, r k : ℝ) : EReal) := by
    rw [coe_sum]; exact Finset.sum_congr rfl fun k _ => hr k
  have hQ : (∑ k, h k * h k) = ((∑ k, r k * r k : ℝ) : EReal) := by
    rw [coe_sum]; exact Finset.sum_congr rfl fun k _ => by rw [hr k, EReal.coe_mul]
  rw [hS, hQ, div_real hn N hN, div_real hn N hN]
  have hD : (∑ k, (h k - (((∑ k, r k) / n : ℝ) : EReal)) * (h k - (((∑ k, r k) / n : ℝ) : EReal)))
      = ((∑ k, (r k - (∑ k, r k) / n) * (r k - (∑ k, r k) / n) : ℝ) : EReal) := by
    rw [coe_sum]; exact Finset.sum_congr rfl fun k _ => by rw [hr k, ← EReal.coe_sub, ← EReal.coe_mul]
  rw [hD, div_real hn N hN, ← EReal.coe_mul, ← EReal.coe_sub]
  exact congrArg _ (var_real hn r)

/-- The mean of finite entries is finite. -/
theorem mean_real_gen {n : ℕ} (hn : (n : ℝ) ≠ 0) (N : EReal) (hN : N = ((n : ℝ) : EReal))
    (h : Fin n → EReal) (hf : ∀ k, ∃ r : ℝ, h k = (r : EReal)) :
    ∃ m : ℝ, Ideal.div (∑ k, h k) N = (m : EReal) := by
  choose r hr using hf
  refine ⟨(∑ k, r k) / n, ?_⟩
  rw [show (∑ k, h k) = ((∑ k, r k : ℝ) : EReal) from by rw [coe_sum]; exact Finset.sum_congr rfl fun k _ => hr k,
    div_real hn N hN]

/-- The mean of the squared deviations of finite entries is a nonnegative real. -/
theorem var_nonneg_gen {n : ℕ} (hn : (n : ℝ) ≠ 0) (N : EReal) (hN : N = ((n : ℝ) : EReal))
    (h : Fin n → EReal) (hf : ∀ k, ∃ r : ℝ, h k = (r : EReal)) :
    ∃ v : ℝ, 0 ≤ v ∧ Ideal.div (∑ k, (h k - Ideal.div (∑ k, h k) N) * (h k - Ideal.div (∑ k, h k) N)) N = (v : EReal) := by
  obtain ⟨m, hm⟩ := mean_real_gen hn N hN h hf
  choose r hr using hf
  refine ⟨(∑ k, (r k - m) * (r k - m)) / n, ?_, ?_⟩
  · have hn' : (0 : ℝ) < n := lt_of_le_of_ne (Nat.cast_nonneg n) (Ne.symm hn)
    exact div_nonneg (Finset.sum_nonneg fun k _ => mul_self_nonneg _) hn'.le
  · rw [hm, show (∑ k, (h k - (m : EReal)) * (h k - (m : EReal))) = ((∑ k, (r k - m) * (r k - m) : ℝ) : EReal) from by
      rw [coe_sum]; exact Finset.sum_congr rfl fun k _ => by rw [hr k, ← EReal.coe_sub, ← EReal.coe_mul], div_real hn N hN]

/-- The float word of 100000.0 is the real 100000, written as the cast of the natural number. -/
theorem ofBits_1e5 : Ideal.ofBits .f32 0x47C35000#32 = (((100000 : ℕ) : ℝ) : EReal) := by
  simp [Ideal.ofBits, Ideal.ieee, -EReal.coe_mul]; norm_num

/-! ## One entry of a batch-normalised column, in the two spellings -/

/-- The entry x of a column `col` normalised with the variance as the mean of the squares minus the squared mean
    (sums not started from an explicit zero), scaled by g, shifted by b, rectified. -/
def bnMoments (col : Fin 100000 → EReal) (x g b : EReal) : EReal :=
  max ((x - Ideal.div (∑ k, col k) (Ideal.ofBits .f32 0x47C35000#32))
      * Ideal.rsqrt ((Ideal.div (∑ k, col k * col k) (Ideal.ofBits .f32 0x47C35000#32)
          - Ideal.div (∑ k, col k) (Ideal.ofBits .f32 0x47C35000#32) * Ideal.div (∑ k, col k) (Ideal.ofBits .f32 0x47C35000#32))
        + Ideal.ofBits .f32 0x3727C5AC#32)
      * g + b) (Ideal.ofBits .f32 0x00000000#32)

/-- The same entry with the variance as the mean of the squared deviations, each sum started from the float zero. -/
def bnDeviations (col : Fin 100000 → EReal) (x g b : EReal) : EReal :=
  max ((x - Ideal.div (Ideal.ofBits .f32 0x00000000#32 + ∑ k, col k) (Ideal.ofBits .f32 0x47C35000#32))
      * Ideal.rsqrt (Ideal.div (Ideal.ofBits .f32 0x00000000#32
            + ∑ k, (col k - Ideal.div (Ideal.ofBits .f32 0x00000000#32 + ∑ k, col k) (Ideal.ofBits .f32 0x47C35000#32))
                * (col k - Ideal.div (Ideal.ofBits .f32 0x00000000#32 + ∑ k, col k) (Ideal.ofBits .f32 0x47C35000#32)))
          (Ideal.ofBits .f32 0x47C35000#32)
        + Ideal.ofBits .f32 0x3727C5AC#32)
      * g + b) (Ideal.ofBits .f32 0x00000000#32)

/-- For a column of finite entries the two spellings are one number. -/
theorem bn_spellings (col : Fin 100000 → EReal) (hf : ∀ k, ∃ r : ℝ, col k = (r : EReal)) (x g b : EReal) :
    bnMoments col x g b = bnDeviations col x g b := by
  unfold bnMoments bnDeviations
  rw [Ideal.ofBits_zero_f32, zero_add, zero_add,
    var_ereal_gen (n := 100000) (by norm_num) _ ofBits_1e5 col hf]

end Cert.BnLaw

end
-- ==== Proof.LawNorm.lean ====
/-
  THE GRAPH-WIDE LAYER NORMALISATION IN ITS TWO SPELLINGS.  All N = 100000 x 128 = 12800000 entries of an array X are
  normalised with one mean m = (sum X)/N and one deviation.  One spelling takes the variance from the two moments,
  E[x^2] - E[x]^2, and multiplies the centred entry by 1/(sigma + eps); the other centres the array first, takes the
  centred variance of the centred array (its own mean, which is 0, subtracted once more) and divides by sigma + eps.

  For real entries the two variances are the same real number v >= 0:  the centred array has sum T - N (T/N) = 0, and
  (sum x^2)/N - m^2 = (sum (x - m)^2)/N  by expanding the square.  Then sigma + eps is one positive real s, the factor
  1/(sigma+eps) is the real 1/s, and a quotient by s is the product with 1/s.  The scale and the shift may be any
  extended reals: they meet the same normalised entry on both sides.  A sum started at 0 is the sum.
-/
import proofs.«123483_j33887291965745_2_alg».proof.Proof.Spec
import proofs.«123483_j33887291965745_2_alg».proof.Proof.LibFinite
import proofs.«123483_j33887291965745_2_alg».proof.Proof.LibVariance

noncomputable section

open scoped BigOperators

namespace Cert.GcnPool

open Idealize.ShloMosaic Cert.Finite

/-! ## The constants -/

theorem cN_eq : cN = ((12800000 : ℝ) : EReal) := by
  simp [cN, Ideal.ofBits, Ideal.ieee, -EReal.coe_mul]

theorem cOne_eq : cOne = 1 := by
  simp [cOne, Ideal.ofBits, Ideal.ieee, -EReal.coe_mul]; norm_num

/-! ## The real identities -/

/-- The centred array sums to zero. -/
theorem tot_centred (r : Fin 100000 → Fin 128 → ℝ) (T m : ℝ) (hT : ∑ n, ∑ k, r n k = T) (hm : m = T / 12800000) :
    ∑ n : Fin 100000, ∑ k : Fin 128, (r n k - m) = 0 := by
  simp only [Finset.sum_sub_distrib, hT, Finset.sum_const, Finset.card_univ, Fintype.card_fin, nsmul_eq_mul]
  rw [hm]; push_cast; ring

/-- The mean of the squares minus the squared mean is the mean of the squared deviations, for the double sum. -/
theorem var_real2 (r : Fin 100000 → Fin 128 → ℝ) (T m : ℝ) (hT : ∑ n, ∑ k, r n k = T) (hm : m = T / 12800000) :
    (∑ n, ∑ k, r n k * r n k) / 12800000 - m * m = (∑ n, ∑ k, (r n k - m) * (r n k - m)) / 12800000 := by
  have h1 : ∑ n, ∑ k, (r n k - m) * (r n k - m)
      = (∑ n, ∑ k, r n k * r n k) - 2 * m * T + 12800000 * (m * m) := by
    have h : ∀ n k, (r n k - m) * (r n k - m) = r n k * r n k - 2 * m * r n k + m * m := fun n k => by ring
    simp only [h, Finset.sum_add_distrib, Finset.sum_sub_distrib, ← Finset.mul_sum, hT, Finset.sum_const,
      Finset.card_univ, Fintype.card_fin, nsmul_eq_mul]
    push_cast; ring
  rw [h1, hm]
  field_simp
  ring

/-! ## Coercions through the double sums -/

theorem tot_coe (r : Fin 100000 → Fin 128 → ℝ) :
    tot (fun n k => (r n k : EReal)) = ((∑ n, ∑ k, r n k : ℝ) : EReal) := by
  unfold tot
  rw [BnLaw.coe_sum]
  exact Finset.sum_congr rfl fun n _ => (BnLaw.coe_sum _ _).symm

theorem sumSq_coe (r : Fin 100000 → Fin 128 → ℝ) :
    (∑ n : Fin 100000, ∑ k : Fin 128, (r n k : EReal) * (r n k : EReal)) = ((∑ n, ∑ k, r n k * r n k : ℝ) : EReal) := by
  rw [BnLaw.coe_sum]
  refine Finset.sum_congr rfl fun n _ => ?_
  rw [BnLaw.coe_sum]
  exact Finset.sum_congr rfl fun k _ => (EReal.coe_mul _ _).symm

/-- The centred variance of a real array that sums to zero is its mean square. -/
theorem varR_coe (y : Fin 100000 → Fin 128 → ℝ) (h0 : ∑ n, ∑ k, y n k = 0) :
    varR (fun n k => (y n k : EReal)) = (((∑ n, ∑ k, y n k * y n k) / 12800000 : ℝ) : EReal) := by
  have hN : (12800000 : ℝ) ≠ 0 := by norm_num
  have hz : Ideal.div (0 + tot (fun n k => (y n k : EReal))) cN = 0 := by
    rw [tot_coe, h0, zero_add, BnLaw.div_real hN cN cN_eq, zero_div, EReal.coe_zero]
  unfold varR
  rw [hz]
  simp only [sub_zero, zero_add]
  rw [sumSq_coe, BnLaw.div_real hN cN cN_eq]

/-! ## The moments of a real array -/

/-- Both spellings have the same real mean and the same positive real sigma + eps. -/
theorem moments (r : Fin 100000 → Fin 128 → ℝ) :
    ∃ m s : ℝ, s ≠ 0 ∧ meanK (fun n k => (r n k : EReal)) = (m : EReal) ∧ meanR (fun n k => (r n k : EReal)) = (m : EReal)
      ∧ Ideal.sqrt (varK (fun n k => (r n k : EReal))) + cEps = (s : EReal)
      ∧ Ideal.sqrt (varR fun n k => (r n k : EReal) - meanR (fun n k => (r n k : EReal))) + cEps = (s : EReal) := by
  have hN : (12800000 : ℝ) ≠ 0 := by norm_num
  obtain ⟨e, he, hE⟩ := eps_pos
  have hE' : cEps = (e : EReal) := hE
  have hmK : meanK (fun n k => (r n k : EReal)) = (((∑ n, ∑ k, r n k) / 12800000 : ℝ) : EReal) := by
    unfold meanK
    rw [tot_coe, BnLaw.div_real hN cN cN_eq]
  have hmR : meanR (fun n k => (r n k : EReal)) = (((∑ n, ∑ k, r n k) / 12800000 : ℝ) : EReal) := by
    unfold meanR
    rw [zero_add, tot_coe, BnLaw.div_real hN cN cN_eq]
  have hvK : varK (fun n k => (r n k : EReal))
      = (((∑ n, ∑ k, r n k * r n k) / 12800000
          - (∑ n, ∑ k, r n k) / 12800000 * ((∑ n, ∑ k, r n k) / 12800000) : ℝ) : EReal) := by
    unfold varK totSq
    rw [hmK, sumSq_coe, BnLaw.div_real hN cN cN_eq, ← EReal.coe_mul, ← EReal.coe_sub]
  have hY : (fun n k => (r n k : EReal) - meanR (fun n k => (r n k : EReal)))
      = fun (n : Fin 100000) (k : Fin 128) => ((r n k - (∑ n, ∑ k, r n k) / 12800000 : ℝ) : EReal) := by
    rw [hmR]
    funext n k
    exact (EReal.coe_sub _ _).symm
  have hvR : varR (fun n k => (r n k : EReal) - meanR (fun n k => (r n k : EReal)))
      = (((∑ n, ∑ k, (r n k - (∑ n, ∑ k, r n k) / 12800000) * (r n k - (∑ n, ∑ k, r n k) / 12800000)) / 12800000 : ℝ) : EReal) := by
    rw [hY, varR_coe _ (tot_centred r _ _ rfl rfl)]
  have hv : varK (fun n k => (r n k : EReal))
      = varR (fun n k => (r n k : EReal) - meanR (fun n k => (r n k : EReal))) := by
    rw [hvK, hvR]
    exact congrArg _ (var_real2 r _ _ rfl rfl)
  have hv0 : 0 ≤ (∑ n, ∑ k, (r n k - (∑ n, ∑ k, r n k) / 12800000) * (r n k - (∑ n, ∑ k, r n k) / 12800000)) / 12800000 :=
    div_nonneg (Finset.sum_nonneg fun n _ => Finset.sum_nonneg fun k _ => mul_self_nonneg _) (by norm_num)
  generalize (∑ n, ∑ k, (r n k - (∑ n, ∑ k, r n k) / 12800000) * (r n k - (∑ n, ∑ k, r n k) / 12800000)) / 12800000 = v
    at hvR hv0
  refine ⟨_, Real.sqrt v + e, (add_pos_of_nonneg_of_pos (Real.sqrt_nonneg v) he).ne', hmK, hmR, ?_, ?_⟩
  · rw [hv, hvR, Ideal.sqrt_coe, if_neg (not_lt.2 hv0), hE', ← EReal.coe_add]
  · rw [hvR, Ideal.sqrt_coe, if_neg (not_lt.2 hv0), hE', ← EReal.coe_add]

/-! ## The law -/

/-- THE LAW: for an array of real entries the two spellings of the pooled normalised row are one number. -/
theorem norm_law (X : Fin 100000 → Fin 128 → EReal) (hX : ∀ n k, IsReal (X n k)) (lw lb : Fin 128 → EReal)
    (k : Fin 128) : poolK X lw lb k = poolR X lw lb k := by
  choose r hr using hX
  obtain rfl : X = fun n k => (r n k : EReal) := funext fun n => funext fun k => hr n k
  obtain ⟨m, s, hs, hmK, hmR, hsK, hsR⟩ := moments r
  unfold poolK poolR poolWith invK
  rw [zero_add, hsK, hsR, hmK, hmR]
  refine Finset.sum_congr rfl fun n _ => ?_
  rw [Ideal.div_coe hs, Ideal.div_coe hs, cOne_eq, one_mul]

end Cert.GcnPool

end
-- ==== Proof.Bridge.lean ====
/-
  The bridge between the two arrangements of the graph convolution, and between the two spellings of the pooled row.

  For finite features, projection weights, per-edge weights and self-loop weights, aggregating the two raw channels
  first and projecting after gives the same activation as projecting first and aggregating after, because the
  projection is linear; and the two programs read the same edges with the same weights, since they compute the edge
  rows, the degrees and the weights by the same operations.  The activation is then finite, so the pooled normalised
  row computed from the two moments and the factor 1/(σ + ε) is the reference's, computed from the centred variance and
  a quotient.
-/
import proofs.«123483_j33887291965745_2_alg».proof.Proof.KXm
import proofs.«123483_j33887291965745_2_alg».proof.Proof.RefRead
import proofs.«123483_j33887291965745_2_alg».proof.Proof.LawHop
import proofs.«123483_j33887291965745_2_alg».proof.Proof.LawNorm
import proofs.«123483_j33887291965745_2_alg».proof.Proof.Twin
import proofs.«123483_j33887291965745_2_alg».proof.Proof.LibFinite
import proofs.«123483_j33887291965745_2_alg».proof.Proof.Gen.ReferenceIdeal
import proofs.«123483_j33887291965745_2_alg».proof.Proof.Gen.KernelIdeal

noncomputable section

namespace Cert.Bridge

open Idealize.ShloMosaic Idealize.ShloMosaic.ValueIdx Cert.Finite Cert.GcnPool

section
variable (nf : Cert.KernelIdeal.KVal.FA Cert.KernelIdeal.S100000x2) (ei : Cert.KernelIdeal.KVal.IA Cert.KernelIdeal.S2x1600000)
  (w : Cert.KernelIdeal.KVal.FA Cert.KernelIdeal.S2x128) (b : Cert.KernelIdeal.KVal.FA Cert.KernelIdeal.S128)

/-- The activation in the kernel's arrangement is the reference's rectified convolution, entry by entry. -/
theorem X_eq (hnf : ∀ i, IsReal (nf i)) (hw : ∀ i, IsReal (w i)) (hdis : ∀ i, IsReal (Cert.KernelIdeal.KVal.dis ei i))
    (hnorm : ∀ i, IsReal (Cert.KernelIdeal.KVal.norm ei i)) (n : Fin 100000) (k : Fin 128) :
    Cert.KernelIdeal.KXm.Xm nf ei w b n k = Cert.ReferenceIdeal.RefVal.x nf ei w b (ix2 n k) := by
  rw [Cert.ReferenceIdeal.RefRead.x_apply]
  unfold Cert.KernelIdeal.KXm.Xm
  refine (hop_law (fun n j => nf (ix2 n j)) (fun j k => w (ix2 j k)) (fun e => Cert.KernelIdeal.KVal.norm ei (ix1 e))
    (fun n => Cert.KernelIdeal.KVal.dis ei (ix1 n) * Cert.KernelIdeal.KVal.dis ei (ix1 n)) (Cert.KernelIdeal.KXm.gAt ei) (Cert.KernelIdeal.KXm.lands ei)
    (fun k => b (ix1 k)) (fun n j => hnf _) (fun j k => hw _) (fun e => hnorm _) (fun n => (hdis _).mul (hdis _)) n k).symm.trans ?_
  rfl

/-- The activation is finite. -/
theorem Xm_real (hnf : ∀ i, IsReal (nf i)) (hw : ∀ i, IsReal (w i)) (hb : ∀ i, IsReal (b i))
    (hdis : ∀ i, IsReal (Cert.KernelIdeal.KVal.dis ei i)) (hnorm : ∀ i, IsReal (Cert.KernelIdeal.KVal.norm ei i)) (n : Fin 100000) (k : Fin 128) :
    IsReal (Cert.KernelIdeal.KXm.Xm nf ei w b n k) := by
  unfold Cert.KernelIdeal.KXm.Xm
  exact isReal_actK _ _ _ _ _ (fun n j => hnf _)
    (isReal_aggOf _ _ fun e c => (hnf _).mul (hnorm _)) (fun n => (hdis _).mul (hdis _)) (fun j k => hw _)
    (fun k => hb _) n k

/-- The kernel-side pooled row of that activation is the reference's pooled row. -/
theorem pooled_eq (lw lb : Cert.KernelIdeal.KVal.FA Cert.KernelIdeal.S128) (hnf : ∀ i, IsReal (nf i)) (hw : ∀ i, IsReal (w i))
    (hb : ∀ i, IsReal (b i)) (hdis : ∀ i, IsReal (Cert.KernelIdeal.KVal.dis ei i)) (hnorm : ∀ i, IsReal (Cert.KernelIdeal.KVal.norm ei i))
    (k : Fin 128) :
    poolK (Cert.KernelIdeal.KXm.Xm nf ei w b) (fun k => lw (ix1 k)) (fun k => lb (ix1 k)) k
      = Cert.ReferenceIdeal.RefVal.pooled nf ei w b lw lb (ix2 (0 : Fin 1) k) := by
  rw [Cert.ReferenceIdeal.RefRead.pooled_apply]
  have hX : Cert.KernelIdeal.KXm.Xm nf ei w b = fun n k => Cert.ReferenceIdeal.RefVal.x nf ei w b (ix2 n k) :=
    funext fun n => funext fun k => X_eq nf ei w b hnf hw hdis hnorm n k
  rw [← hX]
  exact norm_law _ (fun n k => Xm_real nf ei w b hnf hw hb hdis hnorm n k) _ _ k

end

end Cert.Bridge

end
-- ==== Proof.lean ====
/-
  The certificate of the graph-convolution agent kernel against its jnp reference, over the extended reals.

  Both programs compute, from node features f [100000, 2], an edge list, a projection w [2, 128] and a bias b, the
  rectified graph convolution x = relu(Â (f w) + b) with Â the symmetrically normalised adjacency with self loops; then
  a layer normalisation over ALL 100000 · 128 entries, a per-channel scale and shift, the sum over the nodes, and a small
  dense head ending in a log-softmax.

  The kernel program differs from the reference in three arrangements, each an identity of real arithmetic, which is
  why the precondition (every float input finite) is used:
    * it aggregates the two raw feature channels over the edges and projects afterwards (linearity of the projection:
      `LawHop`), where the reference projects to 128 channels first;
    * it takes the variance from the two moments, E[x²] − E[x]², and multiplies by 1/(σ + ε), where the reference takes the
      centred variance of the centred array and divides by σ + ε (`LawNorm`);
    * it accumulates every sum tile by tile over a grid of 25 row tiles (addition is commutative and associative).
  The degrees are counts plus one, so dis = deg^(-1/2) and the edge weights are finite whatever the edge list holds.
  The dense head is the same operations in both programs and is carried as one function of the pooled row.

  The frames of the two kernel programs are the generated ones; the reference's frame is its run with the result
  dropped; no operation was rewritten by the idealization, so there is nothing to preserve.
-/
import proofs.«123483_j33887291965745_2_alg».proof.Defs
import proofs.«123483_j33887291965745_2_alg».proof.Proof.Gen.Kernel
import proofs.«123483_j33887291965745_2_alg».proof.Proof.Gen.Kernel.Frame
import proofs.«123483_j33887291965745_2_alg».proof.Proof.Gen.KernelIdeal
import proofs.«123483_j33887291965745_2_alg».proof.Proof.Gen.KernelIdeal.Frame
import proofs.«123483_j33887291965745_2_alg».proof.Proof.Gen.ReferenceIdeal
import proofs.«123483_j33887291965745_2_alg».proof.Proof.Gen.Pre_finite_inputs
import proofs.«123483_j33887291965745_2_alg».proof.Proof.KRun
import proofs.«123483_j33887291965745_2_alg».proof.Proof.KHost1
import proofs.«123483_j33887291965745_2_alg».proof.Proof.KValue
import proofs.«123483_j33887291965745_2_alg».proof.Proof.KReal
import proofs.«123483_j33887291965745_2_alg».proof.Proof.KPre
import proofs.«123483_j33887291965745_2_alg».proof.Proof.RefRun
import proofs.«123483_j33887291965745_2_alg».proof.Proof.Twin
import proofs.«123483_j33887291965745_2_alg».proof.Proof.Bridge
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both programs end with the dense head of one and the same pooled row. -/
theorem algebraic : Cert.algebraic_KernelIdeal_ReferenceIdeal := by
  intro m ρ m' ρ' hpre hagree
  refine ⟨fun c => Cert.KernelIdeal.KVal.tail ((Cert.KernelIdeal.Gen.dat1 (Cert.KernelIdeal.Gen.V3 m ρ) c).arrAt 9 Cert.KernelIdeal.cfg1.N)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.KHost.W8_v65 m ρ c), (h c).2⟩)
      (Cert.KernelIdeal.KRun.run (F := Idealize.ShloMosaic.Ideal) m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9, e10⟩ := hagree c
    rw [e0, e1, e2, e3, e4, e5, e6, e7, e8, e9, e10]
    unfold Cert.ReferenceIdeal.RefVal.out
    rw [← Cert.Twin.tail_eq]
    refine congrArg (fun p => Cert.KernelIdeal.KVal.tail p _ _ _ _ _) ?_
    funext j
    obtain ⟨a, k, rfl⟩ : ∃ (a : Fin 1) (k : Fin 128), j = ix2 a k := ⟨j 0, j 1, eq_ix2 j⟩
    obtain rfl : a = 0 := Subsingleton.elim _ _
    have hnf := Cert.KernelIdeal.KPre.arg0_real m hpre c
    have hw := Cert.KernelIdeal.KPre.arg3_real m hpre c
    have hb := Cert.KernelIdeal.KPre.arg4_real m hpre c
    refine ((Cert.Bridge.pooled_eq _ _ _ _ _ _ hnf hw hb (Cert.KernelIdeal.KReal.dis_real _) (Cert.KernelIdeal.KReal.norm_real _) k).symm).trans ?_
    exact (Cert.KernelIdeal.KValue.pooled m ρ c k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
